-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_arg23 : FVec F S64 .f32) (main_arg24 : FVec F S64x64 .f32) (main_arg25 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg24
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg20 : FVec F S64x64 .f32) (main_arg21 : FVec F S64 .f32) (main_arg22 : FVec F S64 .f32) (main_arg23 : FVec F S64 .f32) (main_arg24 : FVec F S64x64 .f32) (main_arg25 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg20
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S64x64 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x64 .f32) (main_arg25 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x64 .f32) (main_arg25 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x64 .f32) (main_arg25 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x64 .f32) (main_arg25 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x64 .f32) (main_arg1 : IVec S2x800000 32) (main_arg2 : FVec F S800000x16 .f32) (main_arg3 : IVec S50000 32) (main_arg4 : FVec F S16x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x64 .f32) (main_arg25 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S1x64 : Shape := ⟨2, ![1, 64]⟩
abbrev S800000x64 : Shape := ⟨2, ![800000, 64]⟩
abbrev S5000x16 : Shape := ⟨2, ![5000, 16]⟩
abbrev S5000x64 : Shape := ⟨2, ![5000, 64]⟩
abbrev S5000 : Shape := ⟨1, ![5000]⟩
abbrev S5000x1 : Shape := ⟨2, ![5000, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S512x64 : Shape := ⟨2, ![512, 64]⟩
abbrev S50000x1 : Shape := ⟨2, ![50000, 1]⟩

abbrev nBuf : Space → Nat
  | .hbm => 100
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S16x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x64, .f32⟩
  | .hbm, ⟨25, _⟩ => ⟨S64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S800000x64, .f32⟩
  | .hbm, ⟨33, _⟩ => ⟨S1x800000, .i32⟩
  | .hbm, ⟨34, _⟩ => ⟨S800000, .i32⟩
  | .hbm, ⟨35, _⟩ => ⟨S1x800000, .i32⟩
  | .hbm, ⟨36, _⟩ => ⟨S800000, .i32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S50000x64, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S512x64, .f32⟩
  | .hbm, ⟨96, _⟩ => ⟨S50000x1, .i32⟩
  | .hbm, ⟨97, _⟩ => ⟨S512x64, .f32⟩
  | .hbm, ⟨98, _⟩ => ⟨S1x64, .f32⟩
  | .hbm, ⟨99, _⟩ => ⟨S512x64, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S512x64, .f32⟩
  | .local _ .vmem, ⟨37, _⟩ => ⟨S64x64, .f32⟩
  | .local _ .vmem, ⟨38, _⟩ => ⟨S1x64, .f32⟩
  | .local _ .vmem, ⟨39, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_1 : Ref sig .tc := ⟨.hbm, 60, rfl⟩
abbrev main_v31 : Ref sig .tc := ⟨.hbm, 61, rfl⟩
abbrev main_v32 : Ref sig .tc := ⟨.hbm, 62, rfl⟩
abbrev main_c_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_4 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_7 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S5000x64_S5000x64 : S5000x64.ShapeCasts S5000x64
  bcast_S_S512x64 : S_.BroadcastsInDim S512x64 (![] : Fin 0 → Fin S512x64.rank)
  bcast_S50000_S50000x1_0 : S50000.BroadcastsInDim S50000x1 (![0] : Fin 1 → Fin S50000x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S800000x16.size a
  hwx0_0 : ∀ i : grid0.Coords, EltTy.bits .f32 = 32 ∨ (Rect.block (s := S800000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S800000x64.size a
  hwx0_9 : ∀ i : grid0.Coords, EltTy.bits .f32 = 32 ∨ (Rect.block (s := S800000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x64.size a ≤ S512x64.size a
  hwx4_3 : ∀ i : grid4.Coords, EltTy.bits .f32 = 32 ∨ (Rect.block (s := S512x64) S512x64.size (cc4_transform_3 i) (hinb4_3 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg2) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg20) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v61) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg24) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S512x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S800000x64 : Shape := ⟨2, ![800000, 64]⟩
abbrev S1x64 : Shape := ⟨2, ![1, 64]⟩
abbrev S_ : Shape := ⟨0, ![]⟩
abbrev S800000 : Shape := ⟨1, ![800000]⟩
abbrev S800000x1 : Shape := ⟨2, ![800000, 1]⟩
abbrev S1x800000 : Shape := ⟨2, ![1, 800000]⟩
abbrev S50000x1 : Shape := ⟨2, ![50000, 1]⟩
abbrev S512x64 : Shape := ⟨2, ![512, 64]⟩

abbrev nBuf : Space → Nat
  | .hbm => 263
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S16x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64x64, .f32⟩
  | 21 => ⟨S64, .f32⟩
  | 22 => ⟨S64, .f32⟩
  | 23 => ⟨S64, .f32⟩
  | 24 => ⟨S64x64, .f32⟩
  | 25 => ⟨S64, .f32⟩
  | 26 => ⟨S800000x64, .f32⟩
  | 27 => ⟨S1x64, .f32⟩
  | 28 => ⟨S800000x64, .f32⟩
  | 29 => ⟨S800000x64, .f32⟩
  | 30 => ⟨S_, .f32⟩
  | 31 => ⟨S800000, .f32⟩
  | 32 => ⟨S800000x1, .f32⟩
  | 33 => ⟨S_, .f32⟩
  | 34 => ⟨S800000x1, .f32⟩
  | 35 => ⟨S800000x1, .f32⟩
  | 36 => ⟨S800000x64, .f32⟩
  | 37 => ⟨S800000x64, .f32⟩
  | 38 => ⟨S800000x64, .f32⟩
  | 39 => ⟨S_, .f32⟩
  | 40 => ⟨S800000, .f32⟩
  | 41 => ⟨S800000x1, .f32⟩
  | 42 => ⟨S_, .f32⟩
  | 43 => ⟨S800000x1, .f32⟩
  | 44 => ⟨S800000x1, .f32⟩
  | 45 => ⟨S800000x64, .f32⟩
  | 46 => ⟨S800000x64, .f32⟩
  | 47 => ⟨S_, .f32⟩
  | 48 => ⟨S800000x1, .f32⟩
  | 49 => ⟨S800000x1, .f32⟩
  | 50 => ⟨S800000x1, .f32⟩
  | 51 => ⟨S800000x64, .f32⟩
  | 52 => ⟨S800000x64, .f32⟩
  | 53 => ⟨S1x64, .f32⟩
  | 54 => ⟨S800000x64, .f32⟩
  | 55 => ⟨S800000x64, .f32⟩
  | 56 => ⟨S1x64, .f32⟩
  | 57 => ⟨S800000x64, .f32⟩
  | 58 => ⟨S800000x64, .f32⟩
  | 59 => ⟨S_, .f32⟩
  | 60 => ⟨S800000x64, .f32⟩
  | 61 => ⟨S800000x64, .f32⟩
  | 62 => ⟨S800000x64, .f32⟩
  | 63 => ⟨S1x64, .f32⟩
  | 64 => ⟨S800000x64, .f32⟩
  | 65 => ⟨S800000x64, .f32⟩
  | 66 => ⟨S_, .f32⟩
  | 67 => ⟨S800000, .f32⟩
  | 68 => ⟨S800000x1, .f32⟩
  | 69 => ⟨S_, .f32⟩
  | 70 => ⟨S800000x1, .f32⟩
  | 71 => ⟨S800000x1, .f32⟩
  | 72 => ⟨S800000x64, .f32⟩
  | 73 => ⟨S800000x64, .f32⟩
  | 74 => ⟨S800000x64, .f32⟩
  | 75 => ⟨S_, .f32⟩
  | 76 => ⟨S800000, .f32⟩
  | 77 => ⟨S800000x1, .f32⟩
  | 78 => ⟨S_, .f32⟩
  | 79 => ⟨S800000x1, .f32⟩
  | 80 => ⟨S800000x1, .f32⟩
  | 81 => ⟨S800000x64, .f32⟩
  | 82 => ⟨S800000x64, .f32⟩
  | 83 => ⟨S_, .f32⟩
  | 84 => ⟨S800000x1, .f32⟩
  | 85 => ⟨S800000x1, .f32⟩
  | 86 => ⟨S800000x1, .f32⟩
  | 87 => ⟨S800000x64, .f32⟩
  | 88 => ⟨S800000x64, .f32⟩
  | 89 => ⟨S1x64, .f32⟩
  | 90 => ⟨S800000x64, .f32⟩
  | 91 => ⟨S800000x64, .f32⟩
  | 92 => ⟨S1x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S1x800000, .i32⟩
  | 99 => ⟨S800000, .i32⟩
  | 100 => ⟨S1x800000, .i32⟩
  | 101 => ⟨S800000, .i32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000, .f32⟩
  | 108 => ⟨S50000x1, .f32⟩
  | 109 => ⟨S_, .f32⟩
  | 110 => ⟨S50000x1, .f32⟩
  | 111 => ⟨S50000x1, .f32⟩
  | 112 => ⟨S50000x64, .f32⟩
  | 113 => ⟨S50000x64, .f32⟩
  | 114 => ⟨S50000x64, .f32⟩
  | 115 => ⟨S_, .f32⟩
  | 116 => ⟨S50000, .f32⟩
  | 117 => ⟨S50000x1, .f32⟩
  | 118 => ⟨S_, .f32⟩
  | 119 => ⟨S50000x1, .f32⟩
  | 120 => ⟨S50000x1, .f32⟩
  | 121 => ⟨S50000x64, .f32⟩
  | 122 => ⟨S50000x64, .f32⟩
  | 123 => ⟨S_, .f32⟩
  | 124 => ⟨S50000x1, .f32⟩
  | 125 => ⟨S50000x1, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x64, .f32⟩
  | 36 => ⟨S50000x64, .f32⟩
  | 37 => ⟨S50000x64, .f32⟩
  | 38 => ⟨S_, .f32⟩
  | 39 => ⟨S50000, .f32⟩
  | 40 => ⟨S50000x1, .f32⟩
  | 41 => ⟨S_, .f32⟩
  | 42 => ⟨S50000x1, .f32⟩
  | 43 => ⟨S50000x1, .f32⟩
  | 44 => ⟨S50000x64, .f32⟩
  | 45 => ⟨S50000x64, .f32⟩
  | 46 => ⟨S_, .f32⟩
  | 47 => ⟨S50000x1, .f32⟩
  | 48 => ⟨S50000x1, .f32⟩
  | 49 => ⟨S50000x1, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x64, .f32⟩
  | 87 => ⟨S50000x64, .f32⟩
  | 88 => ⟨S50000x64, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x64, .f32⟩
  | 96 => ⟨S50000x64, .f32⟩
  | 97 => ⟨S_, .f32⟩
  | 98 => ⟨S50000x1, .f32⟩
  | 99 => ⟨S50000x1, .f32⟩
  | 100 => ⟨S50000x1, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000x64, .f32⟩
  | 127 => ⟨S_, .f32⟩
  | _ => ⟨S50000x64, .f32⟩

abbrev hbmTy0_2 (i : Nat) : BufTy := match i % 128 with
  | 0 => ⟨S512x64, .f32⟩
  | 1 => ⟨S50000x1, .i32⟩
  | 2 => ⟨S512x64, .f32⟩
  | 3 => ⟨S512x64, .f32⟩
  | 4 => ⟨S1x64, .f32⟩
  | 5 => ⟨S512x64, .f32⟩
  | 6 => ⟨S512x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call0_cst : Ref sig .tc := ⟨.hbm, 59, rfl⟩
abbrev main_call0_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_v41 : Ref sig .tc := ⟨.hbm, 77, rfl⟩
abbrev main_cst_7 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_11 : Ref sig .tc := ⟨.hbm, 115, rfl⟩
abbrev main_v73 : Ref sig .tc := ⟨.hbm, 116, rfl⟩
abbrev main_v74 : Ref sig .tc := ⟨.hbm, 117, rfl⟩
abbrev main_cst_12 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_13 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_call2_cst : Ref sig .tc := ⟨.hbm, 135, rfl⟩
abbrev main_call2_v0 : Ref sig .tc := ⟨.hbm, 136, rfl⟩
abbrev main_v90 : Ref sig .tc := ⟨.hbm, 137, rfl⟩
abbrev main_c : Ref sig .tc := ⟨.hbm, 138, rfl⟩
abbrev main_v91 : Ref sig .tc := ⟨.hbm, 139, rfl⟩
abbrev main_v92 : Ref sig .tc := ⟨.hbm, 140, rfl⟩
abbrev main_c_14 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_15 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_16 : Ref sig .tc := ⟨.hbm, 157, rfl⟩
abbrev main_v107 : Ref sig .tc := ⟨.hbm, 158, rfl⟩
abbrev main_v108 : Ref sig .tc := ⟨.hbm, 159, rfl⟩
abbrev main_cst_17 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_18 : Ref sig .tc := ⟨.hbm, 166, rfl⟩
abbrev main_v114 : Ref sig .tc := ⟨.hbm, 167, rfl⟩
abbrev main_v115 : Ref sig .tc := ⟨.hbm, 168, rfl⟩
abbrev main_cst_19 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_20 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_call3_cst : Ref sig .tc := ⟨.hbm, 186, rfl⟩
abbrev main_call3_v0 : Ref sig .tc := ⟨.hbm, 187, rfl⟩
abbrev main_v131 : Ref sig .tc := ⟨.hbm, 188, rfl⟩
abbrev main_c_21 : Ref sig .tc := ⟨.hbm, 189, rfl⟩
abbrev main_v132 : Ref sig .tc := ⟨.hbm, 190, rfl⟩
abbrev main_v133 : Ref sig .tc := ⟨.hbm, 191, rfl⟩
abbrev main_c_22 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_23 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_24 : Ref sig .tc := ⟨.hbm, 208, rfl⟩
abbrev main_v148 : Ref sig .tc := ⟨.hbm, 209, rfl⟩
abbrev main_v149 : Ref sig .tc := ⟨.hbm, 210, rfl⟩
abbrev main_cst_25 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_26 : Ref sig .tc := ⟨.hbm, 217, rfl⟩
abbrev main_v155 : Ref sig .tc := ⟨.hbm, 218, rfl⟩
abbrev main_v156 : Ref sig .tc := ⟨.hbm, 219, rfl⟩
abbrev main_cst_27 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_28 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_call4_cst : Ref sig .tc := ⟨.hbm, 237, rfl⟩
abbrev main_call4_v0 : Ref sig .tc := ⟨.hbm, 238, rfl⟩
abbrev main_v172 : Ref sig .tc := ⟨.hbm, 239, rfl⟩
abbrev main_c_29 : Ref sig .tc := ⟨.hbm, 240, rfl⟩
abbrev main_v173 : Ref sig .tc := ⟨.hbm, 241, rfl⟩
abbrev main_v174 : Ref sig .tc := ⟨.hbm, 242, rfl⟩
abbrev main_c_30 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_31 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_32 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  reducesTo_S800000x64_S800000_d1 : S800000x64.ReducesTo [1] S800000
  h_S_ : 0 < S_.numel
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S800000x64 : S_.BroadcastsInDim S800000x64 (![] : Fin 0 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S_S512x64 : S_.BroadcastsInDim S512x64 (![] : Fin 0 → Fin S512x64.rank)
  bcast_S1x64_S512x64_0_1 : S1x64.BroadcastsInDim S512x64 (![0, 1] : Fin 2 → Fin S512x64.rank)
  dot_S800000x16_S16x64_S800000x64_1_0_0_1_n_n_wf : DotDims.WF S800000x16 S16x64 S800000x64 [1] [0] [0] [1] [] []
  dot_S800000x64_S64x64_S800000x64_1_0_0_1_n_n_wf : DotDims.WF S800000x64 S64x64 S800000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []

variable [Facts₀]

def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.KernelRun.lean ====
import proofs.«170720_j9457517986237_1_alg».proof.Proof.Gen.KernelIdeal.Frame

/-!
# The idealized kernel's run, with its result named

The program is five pipelined regions among stretches of host operations. Every weakly fair execution ends with
each unscoped buffer at the contents the last segment boundary gives it; this file keeps, besides the argument
arrays, the result buffer: it ends at the last boundary's contents of that buffer, which the later files read back
through the regions and the host operations to a function of the arguments.
-/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c)⟩)

end Cert.KernelIdeal.Net

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«170720_j9457517986237_1_alg».proof.Proof.LibPlainDot
import proofs.«170720_j9457517986237_1_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibNormRows.lean ====
import Idealize.ShloMosaic.Lib.ValueIdx
import Idealize.ShloMosaic.Lib.ValueLayout
import Idealize.ShloMosaic.Lib.Pipeline.Value
import Idealize.ShloMosaic.PureOps.Ideal.Laws
import proofs.«170720_j9457517986237_1_alg».proof.Proof.LibRows

/-!
# Normalising a row

A layer of the network takes a row `r` of `C` entries to `relu (ln g β r)`: the row is centred on its mean
`μ = (∑ r) / 64`, scaled by `(σ² + ε)^(-1/2)` where `σ² = (∑ (r - μ)²) / 64` and `ε` is the single-precision number
nearest `1e-5`, multiplied entry by entry by a gain row `g`, shifted by a row `β`, and every negative entry is
replaced by zero. All of it is a function of the one row, so a tile of rows and the whole array agree row by row.

This file states that function and reads the vector unit's spelling of it — lane sums kept as a column, the column
repeated across the row — as `mapRows` of it, over any number of rows.
-/

noncomputable section

namespace Cert.Rows

open Idealize.ShloMosaic Idealize.ShloMosaic.ValueIdx
open scoped BigOperators

/-- The divisor of a mean over 64 lanes: the single-precision word of `64`, read exactly. -/
def lanes64 : EReal := Ideal.ofBits .f32 0x42800000#32

/-- The variance floor: the single-precision number nearest `1e-5`, read exactly. -/
def epsVar : EReal := Ideal.ofBits .f32 0x3727C5AC#32

/-- Single-precision zero, read exactly. -/
def zeroF : EReal := Ideal.ofBits .f32 0x00000000#32

/-- The mean of a row. -/
def mean {C : ℕ} (r : Fin C → EReal) : EReal := Ideal.div (∑ k : Fin C, r k) lanes64

/-- A row minus its mean. -/
def centred {C : ℕ} (r : Fin C → EReal) : Fin C → EReal := fun q => r q - mean r

/-- One over the square root of the row's variance plus the floor. -/
def invStd {C : ℕ} (r : Fin C → EReal) : EReal :=
  Ideal.rsqrt (Ideal.div (∑ k : Fin C, centred r k * centred r k) lanes64 + epsVar)

/-- The normalised row, times a gain row, plus a shift row (both kept as one-row matrices). -/
def ln {C : ℕ} (g β : (S2 1 C).Idx → EReal) (r : Fin C → EReal) : Fin C → EReal :=
  fun q => centred r q * invStd r * g (ix2 (0 : Fin 1) q) + β (ix2 (0 : Fin 1) q)

/-- Negative entries replaced by zero. -/
def relu {C : ℕ} (r : Fin C → EReal) : Fin C → EReal := fun q => max (r q) zeroF

/-- One layer on one row: `relu (ln g β (r · w + b))`, weights `w`, bias, gain and shift kept as one-row matrices. -/
def layerRow {K C : ℕ} (w : (S2 K C).Idx → EReal) (b g β : (S2 1 C).Idx → EReal) (r : Fin K → EReal) : Fin C → EReal :=
  relu (ln g β (addRow b (lin w r)))

/-- The output projection on one row: `r · w + b`. -/
def projRow {K C : ℕ} (w : (S2 K C).Idx → EReal) (b : (S2 1 C).Idx → EReal) (r : Fin K → EReal) : Fin C → EReal :=
  addRow b (lin w r)

/-- A reciprocal square root, entry by entry. -/
theorem rsqrt_at {s : Shape} {φ : FTy} (a : FVec Ideal s φ) (i : s.Idx) : rsqrt a i = Ideal.rsqrt (a i) := rfl

section Unit

variable {N C : ℕ}

/-- The lane sums of a tile, kept as a column: at row `p` the sum of row `p`. -/
theorem laneSum_col (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    shapeCast (S2 N 1) (multiReduction .add [1] (S1 N) y 0x00000000#32 hr hφ hacc) hc (ix2 p u)
      = ∑ k : Fin C, y (ix2 p k) := by
  rw [Cert.LibColumn.shapeCast_a_a1_apply]
  refine (Ideal.multiReduction_add_single y 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- The vector unit's row means, as a column. -/
def unitMeanCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1)) :
    FVec Ideal (S2 N 1) .f32 :=
  divf (shapeCast (S2 N 1) (multiReduction .add [1] (S1 N) y 0x00000000#32 hr hφ hacc) hc)
    (broadcast (S2 N 1) (Scalar.ofBits .f32 0x42800000#32))

theorem unitMeanCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    unitMeanCol y hr hφ hacc hc (ix2 p u) = mean (fun k => y (ix2 p k)) := by
  unfold unitMeanCol
  rw [divf_apply, laneSum_col]
  rfl

/-- The tile minus its row means: the means column repeated across the row and subtracted. -/
def unitCentred (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N C) .f32 :=
  subf y (broadcastTo (S2 N C) (unitMeanCol y hr hφ hacc hc) hb)

theorem unitCentred_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (q : Fin C) :
    unitCentred y hr hφ hacc hc hb (ix2 p q) = centred (fun k => y (ix2 p k)) q := by
  unfold unitCentred
  rw [subf_apply, Cert.LibColumn.broadcastTo_a1_ab_apply, unitMeanCol_apply]
  rfl

/-- The vector unit's `(σ² + ε)^(-1/2)` of every row, as a column. -/
def unitInvStdCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N 1) .f32 :=
  rsqrt (addf (divf (shapeCast (S2 N 1) (multiReduction .add [1] (S1 N)
      (mulf (unitCentred y hr hφ hacc hc hb) (unitCentred y hr hφ hacc hc hb)) 0x00000000#32 hr hφ hacc) hc)
      (broadcast (S2 N 1) (Scalar.ofBits .f32 0x42800000#32)))
    (broadcast (S2 N 1) (Scalar.ofBits .f32 0x3727C5AC#32)))

theorem unitInvStdCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (u : Fin 1) :
    unitInvStdCol y hr hφ hacc hc hb (ix2 p u) = invStd (fun k => y (ix2 p k)) := by
  unfold unitInvStdCol
  rw [rsqrt_at, addf_apply, divf_apply, laneSum_col]
  simp only [mulf_apply, unitCentred_apply]
  rfl

/-- The vector unit's layer norm and `relu` of a tile `y`, gain and shift kept as one-row matrices. -/
def unitLnRelu (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    FVec Ideal (S2 N C) .f32 :=
  maximumf (addf (mulf (mulf (unitCentred y hr hφ hacc hc hb)
        (broadcastTo (S2 N C) (unitInvStdCol y hr hφ hacc hc hb) hb))
        (broadcastTo (S2 N C) (shapeCast (S2 1 C) g h2) h3))
      (broadcastTo (S2 N C) (shapeCast (S2 1 C) β h2) h3))
    (broadcast (S2 N C) (Scalar.ofBits .f32 0x00000000#32))

/-- It is the row function `relu ∘ ln g β` applied to every row of the tile. -/
theorem unitLnRelu_rows (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    unitLnRelu y g β hr hφ hacc hc hb h2 h3 = mapRows (fun r => relu (ln g β r)) y := by
  funext i
  obtain ⟨p, q, rfl⟩ : ∃ (p : Fin N) (q : Fin C), i = ix2 p q := ⟨i 0, i 1, eq_ix2 i⟩
  unfold unitLnRelu
  rw [mapRows_ix2, maximumf_apply, addf_apply, mulf_apply, mulf_apply, unitCentred_apply,
    Cert.LibColumn.broadcastTo_a1_ab_apply, unitInvStdCol_apply, shapeCast_self, shapeCast_self,
    broadcastTo_1b_ab_apply, broadcastTo_1b_ab_apply]
  rfl

/-- A tile times a weight matrix, both rounded to half precision first (which changes nothing of an exact
    number), into a zero accumulator, plus a bias row repeated down the tile. -/
def unitLin {K : ℕ} (d : DotDims (S2 N K) (S2 K C) (S2 N C)) (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) : FVec Ideal (S2 N C) .f32 :=
  addf (matmul d none (truncf .bf16 x hlt) (truncf .bf16 w hlt) (constant (S2 N C) .f32 0x00000000#32))
    (broadcastTo (S2 N C) (shapeCast (S2 1 C) b h2) h3)

/-- It is `r ↦ r · w + b` applied to every row. -/
theorem unitLin_rows {K : ℕ} (d : DotDims (S2 N K) (S2 K C) (S2 N C)) (hd : Cert.LibPlainDot.Plain d)
    (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) :
    unitLin d x w b hlt h2 h3 = mapRows (fun r => addRow b (lin w r)) x := by
  unfold unitLin
  have hm : matmul d none (truncf .bf16 x hlt) (truncf .bf16 w hlt) (constant (S2 N C) .f32 0x00000000#32)
      = mapRows (lin w) x := by
    funext i
    obtain ⟨p, q, rfl⟩ : ∃ (p : Fin N) (q : Fin C), i = ix2 p q := ⟨i 0, i 1, eq_ix2 i⟩
    exact Cert.LibPlainDot.matmul_zero_apply d hd none (truncf .bf16 x hlt) (truncf .bf16 w hlt) p q
  rw [hm, addBias_rows]
  rfl

end Unit

end Cert.Rows

end
-- ==== Proof.Bodies.lean ====
import proofs.«170720_j9457517986237_1_alg».proof.Proof.Gen.KernelIdeal.Skeleton
import proofs.«170720_j9457517986237_1_alg».proof.Proof.LibNormRows

/-!
# What each kernel body computes on its tile

Read at exact numbers, every body of the program is a row-wise function of its tile of rows. The node layer's body
takes a tile `x` of 5000 rows to `relu (ln g β (x · w + b))` row by row; the edge body does that twice in a row (a
16-wide input, then a 64-wide one: the half-precision rounding between the two stages is the identity on exact
numbers); the output body is `x · w + b`. Each is stated as `mapRows` of the row function.
-/

noncomputable section

namespace Cert.KernelIdeal.Net

open Cert.KernelIdeal Cert.KernelIdeal.Gen
open Idealize.ShloMosaic Idealize.ShloMosaic.ValueIdx
open Cert.Rows

/-- The zero offset of a whole-buffer access, as a constant function. -/
theorem hz00 : (![0, 0] : Fin 2 → Nat) = fun _ => 0 := funext fun a => by fin_cases a <;> rfl

/-- A 64-wide layer on a tile of 5000 rows, as the vector unit spells it. -/
theorem layer64_rows (x : Vec Ideal S5000x64 .f32) (w : Vec Ideal S64x64 .f32) (b g β : Vec Ideal S1x64 .f32) :
    unitLnRelu (unitLin dot_S5000x64_S64x64_S5000x64_1_0_0_1_n_n x w b bitsLt_bf16_f32 shapeCasts_S1x64_S1x64 broadcasts_S1x64_S5000x64)
        g β reduces_S5000x64_S5000 (.inl rfl) rfl shapeCasts_S5000_S5000x1 broadcasts_S5000x1_S5000x64 shapeCasts_S1x64_S1x64 broadcasts_S1x64_S5000x64
      = mapRows (layerRow w b g β) x :=
  (unitLnRelu_rows _ g β reduces_S5000x64_S5000 (.inl rfl) rfl shapeCasts_S5000_S5000x1 broadcasts_S5000x1_S5000x64
      shapeCasts_S1x64_S1x64 broadcasts_S1x64_S5000x64).trans
    (congrArg (mapRows (fun r => relu (ln g β r)))
      (unitLin_rows dot_S5000x64_S64x64_S5000x64_1_0_0_1_n_n ⟨rfl, rfl, rfl, rfl, rfl, rfl⟩ x w b bitsLt_bf16_f32
        shapeCasts_S1x64_S1x64 broadcasts_S1x64_S5000x64))

/-- A 16-wide layer on a tile of 5000 rows, as the vector unit spells it. -/
theorem layer16_rows (x : Vec Ideal S5000x16 .f32) (w : Vec Ideal S16x64 .f32) (b g β : Vec Ideal S1x64 .f32) :
    unitLnRelu (unitLin dot_S5000x16_S16x64_S5000x64_1_0_0_1_n_n x w b bitsLt_bf16_f32 shapeCasts_S1x64_S1x64 broadcasts_S1x64_S5000x64)
        g β reduces_S5000x64_S5000 (.inl rfl) rfl shapeCasts_S5000_S5000x1 broadcasts_S5000x1_S5000x64 shapeCasts_S1x64_S1x64 broadcasts_S1x64_S5000x64
      = mapRows (layerRow w b g β) x :=
  (unitLnRelu_rows _ g β reduces_S5000x64_S5000 (.inl rfl) rfl shapeCasts_S5000_S5000x1 broadcasts_S5000x1_S5000x64
      shapeCasts_S1x64_S1x64 broadcasts_S1x64_S5000x64).trans
    (congrArg (mapRows (fun r => relu (ln g β r)))
      (unitLin_rows dot_S5000x16_S16x64_S5000x64_1_0_0_1_n_n ⟨rfl, rfl, rfl, rfl, rfl, rfl⟩ x w b bitsLt_bf16_f32
        shapeCasts_S1x64_S1x64 broadcasts_S1x64_S5000x64))

/-- The node layer's body (the three node regions share it). -/
theorem node1_rows (x : Vec Ideal S5000x64 .f32) (w : Vec Ideal S64x64 .f32) (b g β : Vec Ideal S1x64 .f32) :
    k1_pay1 (F := Ideal) x w b g β = mapRows (layerRow w b g β) x := by
  unfold k1_pay1
  exact layer64_rows x w b g β

theorem node2_rows (x : Vec Ideal S5000x64 .f32) (w : Vec Ideal S64x64 .f32) (b g β : Vec Ideal S1x64 .f32) :
    k2_pay1 (F := Ideal) x w b g β = mapRows (layerRow w b g β) x := by
  unfold k2_pay1
  rw [shapeCast_self]
  exact layer64_rows x w b g β

theorem node3_rows (x : Vec Ideal S5000x64 .f32) (w : Vec Ideal S64x64 .f32) (b g β : Vec Ideal S1x64 .f32) :
    k3_pay1 (F := Ideal) x w b g β = mapRows (layerRow w b g β) x := by
  unfold k3_pay1
  rw [shapeCast_self]
  exact layer64_rows x w b g β

/-- The first edge layer on a tile, as the vector unit spells it. -/
def edgeStage1 (x : Vec Ideal S5000x16 .f32) (w1 : Vec Ideal S16x64 .f32) (b1 g1 β1 : Vec Ideal S1x64 .f32) : FVec Ideal S5000x64 .f32 :=
  unitLnRelu (unitLin dot_S5000x16_S16x64_S5000x64_1_0_0_1_n_n x w1 b1 bitsLt_bf16_f32 shapeCasts_S1x64_S1x64 broadcasts_S1x64_S5000x64)
    g1 β1 reduces_S5000x64_S5000 (.inl rfl) rfl shapeCasts_S5000_S5000x1 broadcasts_S5000x1_S5000x64 shapeCasts_S1x64_S1x64 broadcasts_S1x64_S5000x64

/-- The edge body's first payload is the first layer, rounded to half precision for the second product. -/
theorem edge1_eq (x : Vec Ideal S5000x16 .f32) (w1 : Vec Ideal S16x64 .f32) (b1 g1 β1 : Vec Ideal S1x64 .f32) :
    k0_pay2 (F := Ideal) x w1 b1 g1 β1 = truncf .bf16 (edgeStage1 x w1 b1 g1 β1) bitsLt_bf16_f32 := by
  unfold k0_pay2 edgeStage1
  rfl

/-- The edge body's second layer, on any tile rounded to half precision. -/
theorem edge2_rows (Y : FVec Ideal S5000x64 .f32) (w2 : Vec Ideal S64x64 .f32) (b2 g2 β2 : Vec Ideal S1x64 .f32) :
    k0_pay1 (F := Ideal) (truncf .bf16 Y bitsLt_bf16_f32) (k0_pay3 w2) b2 g2 β2 = mapRows (layerRow w2 b2 g2 β2) Y := by
  unfold k0_pay1 k0_pay3
  exact layer64_rows Y w2 b2 g2 β2

/-- The edge body: a 16-wide layer, then a 64-wide layer, on the same tile of rows. -/
theorem edge_rows (x : Vec Ideal S5000x16 .f32) (w1 : Vec Ideal S16x64 .f32) (b1 g1 β1 : Vec Ideal S1x64 .f32)
    (w2 : Vec Ideal S64x64 .f32) (b2 g2 β2 : Vec Ideal S1x64 .f32) :
    k0_pay1 (F := Ideal) (k0_pay2 x w1 b1 g1 β1) (k0_pay3 w2) b2 g2 β2
      = mapRows (fun r => layerRow w2 b2 g2 β2 (layerRow w1 b1 g1 β1 r)) x := by
  rw [edge1_eq, edge2_rows]
  refine (congrArg (mapRows (layerRow w2 b2 g2 β2)) (layer16_rows x w1 b1 g1 β1)).trans ?_
  exact mapRows_comp (layerRow w2 b2 g2 β2) (layerRow w1 b1 g1 β1) x

/-- The output body on its one tile of 512 rows. -/
theorem proj_rows (x : Vec Ideal S512x64 .f32) (w : Vec Ideal S64x64 .f32) (b : Vec Ideal S1x64 .f32) :
    k4_pay1 (F := Ideal) x w b = mapRows (projRow w b) x := by
  unfold k4_pay1
  rw [shapeCast_self]
  exact unitLin_rows dot_S512x64_S64x64_S512x64_1_0_0_1_n_n ⟨rfl, rfl, rfl, rfl, rfl, rfl⟩ x w b bitsLt_bf16_f32
    shapeCasts_S1x64_S1x64 broadcasts_S1x64_S512x64

end Cert.KernelIdeal.Net

end
-- ==== Proof.Region0.lean ====
import proofs.«170720_j9457517986237_1_alg».proof.Proof.Gen.KernelIdeal.Frame
import proofs.«170720_j9457517986237_1_alg».proof.Proof.Bodies

/-!
# The edge region

160 grid points, each taking 5000 rows of the edge-attribute array through two layers in a row (16 → 64 → 64); the
two weight matrices and the six bias, gain and shift rows are whole-array windows, the same at every point. Point
`t` writes back rows `5000 t … 5000 t + 4999` of the two layers applied to every row of the input, and the 160 blocks
tile the array: the region leaves the two layers applied row by row to the whole edge-attribute array.
-/

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat)
open Cert.Rows

variable (V : (c : Dev nD) → (b : Ref sig .tc) → Buf (Elt Ideal) ((c : Thread nD τ).loc b))

/-- The two edge layers on one row. -/
def edgeRow (c : Dev nD) (r : Fin 16 → EReal) : Fin 64 → EReal :=
  layerRow (V c main_arg8) (V c main_v3) (V c main_v4) (V c main_v5)
    (layerRow (V c main_arg4) (V c main_v0) (V c main_v1) (V c main_v2) r)

/-- The two edge layers applied to every row of the edge-attribute array, as the region finds its operands. -/
def edgeOut (c : Dev nD) : S800000x64.Idx → EReal := mapRows (edgeRow V c) (V c main_arg2)

/-- The printed index maps over the grid: the input rows move with the output rows, every other block index is 0. -/
theorem idx0 : ∀ t : Fin cfg0.N, win0_0.index t (0 : Fin 2) = win0_9.index t (0 : Fin 2) ∧ win0_0.index t (1 : Fin 2) = 0
    ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block of rows is some point's. -/
theorem onto0 : ∀ q0 : Fin 160, ∃ t : Fin cfg0.N, win0_9.index t = ![q0.val, 0] :=
  (by decide +kernel : ∀ q0 : Fin 160, ∃ t : Fin grid0.N, win0_9.index t = ![q0.val, 0])

/-! The eight whole-array windows read their arrays themselves at every point. -/

theorem blk0_1 (c : Dev nD) (t : Fin cfg0.N) : iblk0 V c 1 t = V c main_arg4 := by
  obtain ⟨-, -, -, e0, e1, -⟩ := idx0 t
  funext y
  show V c main_arg4 (((cfg0.win 1).blk t).view.emb y) = V c main_arg4 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega

theorem blk0_2 (c : Dev nD) (t : Fin cfg0.N) : iblk0 V c 2 t = V c main_v0 := by
  obtain ⟨-, -, -, -, -, e0, e1, -⟩ := idx0 t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk0_3 (c : Dev nD) (t : Fin cfg0.N) : iblk0 V c 3 t = V c main_v1 := by
  obtain ⟨-, -, -, -, -, -, -, e0, e1, -⟩ := idx0 t
  funext y
  show V c main_v1 (((cfg0.win 3).blk t).view.emb y) = V c main_v1 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk0_4 (c : Dev nD) (t : Fin cfg0.N) : iblk0 V c 4 t = V c main_v2 := by
  obtain ⟨-, -, -, -, -, -, -, -, -, e0, e1, -⟩ := idx0 t
  funext y
  show V c main_v2 (((cfg0.win 4).blk t).view.emb y) = V c main_v2 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk0_5 (c : Dev nD) (t : Fin cfg0.N) : iblk0 V c 5 t = V c main_arg8 := by
  obtain ⟨-, -, -, -, -, -, -, -, -, -, -, e0, e1, -⟩ := idx0 t
  funext y
  show V c main_arg8 (((cfg0.win 5).blk t).view.emb y) = V c main_arg8 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem blk0_6 (c : Dev nD) (t : Fin cfg0.N) : iblk0 V c 6 t = V c main_v3 := by
  obtain ⟨-, -, -, -, -, -, -, -, -, -, -, -, -, e0, e1, -⟩ := idx0 t
  funext y
  show V c main_v3 (((cfg0.win 6).blk t).view.emb y) = V c main_v3 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem blk0_7 (c : Dev nD) (t : Fin cfg0.N) : iblk0 V c 7 t = V c main_v4 := by
  obtain ⟨-, -, -, -, -, -, -, -, -, -, -, -, -, -, -, e0, e1, -⟩ := idx0 t
  funext y
  show V c main_v4 (((cfg0.win 7).blk t).view.emb y) = V c main_v4 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

theorem blk0_8 (c : Dev nD) (t : Fin cfg0.N) : iblk0 V c 8 t = V c main_v5 := by
  obtain ⟨-, -, -, -, -, -, -, -, -, -, -, -, -, -, -, -, -, e0, e1⟩ := idx0 t
  funext y
  show V c main_v5 (((cfg0.win 8).blk t).view.emb y) = V c main_v5 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- What point `t` writes back is block `t` of the two layers applied to the whole input. -/
theorem flushed0 (c : Dev nD) (t : Fin cfg0.N) :
    (dat0 V c).flushed 9 t = ((cfg0.win 9).blk t).view.read (Elt Ideal) (edgeOut V c) := by
  show (cfg0.win 9).cut (grid0.coords t) ((dat0 V c).after 9 t) = _
  rw [after0_9]
  unfold out0_9
  rw [View.canon_unit_zero hz00]
  simp only [View.ld_unit_zero (S := S5000x16) hz00, View.ld_unit_zero (S := S16x64) hz00, View.ld_unit_zero (S := S64x64) hz00,
    View.ld_unit_zero (S := S1x64) hz00]
  rw [blk0_1 V c t, blk0_2 V c t, blk0_3 V c t, blk0_4 V c t, blk0_5 V c t, blk0_6 V c t, blk0_7 V c t, blk0_8 V c t]
  refine (edge_rows (iblk0 V c 0 t) (V c main_arg4) (V c main_v0) (V c main_v1) (V c main_v2)
    (V c main_arg8) (V c main_v3) (V c main_v4) (V c main_v5)).trans ?_
  obtain ⟨e0, e1, e2, -⟩ := idx0 t
  funext j
  show edgeRow V c (fun k : Fin 16 => iblk0 V c 0 t (ix2 (j 0) k)) (j 1)
    = edgeRow V c (fun k : Fin 16 => V c main_arg2 (ix2 ((((cfg0.win 9).blk t).view.emb j) 0) k)) ((((cfg0.win 9).blk t).view.emb j) 1)
  have hcol : (((cfg0.win 9).blk t).view.emb j) 1 = j 1 :=
    Fin.ext (by show win0_9.index t (1 : Fin 2) * 64 + 1 * (j 1).val = (j 1).val; omega)
  have hrow : (fun k : Fin 16 => iblk0 V c 0 t (ix2 (j 0) k))
      = fun k : Fin 16 => V c main_arg2 (ix2 ((((cfg0.win 9).blk t).view.emb j) 0) k) := by
    funext k
    show V c main_arg2 (((cfg0.win 0).blk t).view.emb (ix2 (j 0) k)) = _
    refine congrArg _ (funext fun a => Fin.ext ?_)
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 16 + 1 * k.val = k.val; omega
  rw [hrow, hcol]

/-- An index of the array is in point `t`'s block iff each coordinate is in the block's range on its axis. -/
theorem mem_blk0 (t : Fin cfg0.N) (i : S800000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v6).slice (win0_9.rect t)).set ↔ _
  rw [View.set_slice_whole, Rect.mem_set_unit]
  exact Iff.rfl

/-- Row `r` is in the block of the point whose block index is `r / 5000`. -/
theorem cover0 (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  obtain ⟨t, ht⟩ := onto0 ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk0]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- After the region its output array holds the two layers applied to every row of the edge-attribute array. -/
theorem final0 (c : Dev nD) : (dat0 V c).arrAt 9 cfg0.N = edgeOut V c :=
  (dat0 V c).arrAt_eq_of_cover 9 (edgeOut V c) (fun t _ => flushed0 V c t) (cover0)

end Cert.KernelIdeal.Net

end
-- ==== Proof.Region1.lean ====
import proofs.«170720_j9457517986237_1_alg».proof.Proof.Gen.KernelIdeal.Frame
import proofs.«170720_j9457517986237_1_alg».proof.Proof.Bodies

/-!
# The first node layer's region

Ten grid points, each taking 5000 rows of the node array through one layer; the weights, bias, gain and shift are
whole-array windows, the same at every point. Point `t` writes back rows `5000 t … 5000 t + 4999` of the layer
applied to every row of the region's input, and the ten blocks tile the array: the region leaves the layer applied
row by row to the whole input, whatever the buffers hold when the region is entered.
-/

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat)
open Cert.Rows

variable (V : (c : Dev nD) → (b : Ref sig .tc) → Buf (Elt Ideal) ((c : Thread nD τ).loc b))

/-- The layer applied to every row of the region's input array, as the region finds its operands. -/
def layerOut1 (c : Dev nD) : S50000x64.Idx → EReal :=
  mapRows (layerRow (V c main_arg12) (V c main_v11) (V c main_v12) (V c main_v13)) (V c main_arg0)

/-- The printed index maps over the grid: the input rows move with the output rows, every other block index is 0. -/
theorem idx1 : ∀ t : Fin cfg1.N, win1_0.index t (0 : Fin 2) = win1_5.index t (0 : Fin 2) ∧ win1_0.index t (1 : Fin 2) = 0
    ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every block of rows is some point's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- The weights' window is the whole weight matrix at every point. -/
theorem blk1_1 (c : Dev nD) (t : Fin cfg1.N) : iblk1 V c 1 t = V c main_arg12 := by
  obtain ⟨-, -, -, e0, e1, -⟩ := idx1 t
  funext y
  show V c main_arg12 (((cfg1.win 1).blk t).view.emb y) = V c main_arg12 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The bias row's window is the whole row. -/
theorem blk1_2 (c : Dev nD) (t : Fin cfg1.N) : iblk1 V c 2 t = V c main_v11 := by
  obtain ⟨-, -, -, -, -, e0, e1, -⟩ := idx1 t
  funext y
  show V c main_v11 (((cfg1.win 2).blk t).view.emb y) = V c main_v11 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The gain row's window is the whole row. -/
theorem blk1_3 (c : Dev nD) (t : Fin cfg1.N) : iblk1 V c 3 t = V c main_v12 := by
  obtain ⟨-, -, -, -, -, -, -, e0, e1, -⟩ := idx1 t
  funext y
  show V c main_v12 (((cfg1.win 3).blk t).view.emb y) = V c main_v12 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The shift row's window is the whole row. -/
theorem blk1_4 (c : Dev nD) (t : Fin cfg1.N) : iblk1 V c 4 t = V c main_v13 := by
  obtain ⟨-, -, -, -, -, -, -, -, -, e0, e1⟩ := idx1 t
  funext y
  show V c main_v13 (((cfg1.win 4).blk t).view.emb y) = V c main_v13 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of the layer applied to the whole input: row `p` of the point's tile is
    row `5000 t + p` of the input, and a row of the result sees only that row. -/
theorem flushed1 (c : Dev nD) (t : Fin cfg1.N) :
    (dat1 V c).flushed 5 t = ((cfg1.win 5).blk t).view.read (Elt Ideal) (layerOut1 V c) := by
  show (cfg1.win 5).cut (grid1.coords t) ((dat1 V c).after 5 t) = _
  rw [after1_5]
  unfold out1_5
  rw [View.canon_unit_zero hz00]
  simp only [View.ld_unit_zero (S := S5000x64) hz00, View.ld_unit_zero (S := S64x64) hz00, View.ld_unit_zero (S := S1x64) hz00]
  rw [blk1_1 V c t, blk1_2 V c t, blk1_3 V c t, blk1_4 V c t]
  refine (node1_rows (iblk1 V c 0 t) (V c main_arg12) (V c main_v11) (V c main_v12) (V c main_v13)).trans ?_
  obtain ⟨e0, e1, e2, -⟩ := idx1 t
  funext j
  show mapRows (layerRow (V c main_arg12) (V c main_v11) (V c main_v12) (V c main_v13)) (iblk1 V c 0 t) j
    = mapRows (layerRow (V c main_arg12) (V c main_v11) (V c main_v12) (V c main_v13)) (V c main_arg0) (((cfg1.win 5).blk t).view.emb j)
  have hcol : (((cfg1.win 5).blk t).view.emb j) 1 = j 1 :=
    Fin.ext (by show win1_5.index t (1 : Fin 2) * 64 + 1 * (j 1).val = (j 1).val; omega)
  have hrow : (fun k : Fin 64 => iblk1 V c 0 t (ix2 (j 0) k))
      = fun k : Fin 64 => V c main_arg0 (ix2 ((((cfg1.win 5).blk t).view.emb j) 0) k) := by
    funext k
    show V c main_arg0 (((cfg1.win 0).blk t).view.emb (ix2 (j 0) k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  show layerRow (V c main_arg12) (V c main_v11) (V c main_v12) (V c main_v13) (fun k : Fin 64 => iblk1 V c 0 t (ix2 (j 0) k)) (j 1)
    = layerRow (V c main_arg12) (V c main_v11) (V c main_v12) (V c main_v13)
        (fun k : Fin 64 => V c main_arg0 (ix2 ((((cfg1.win 5).blk t).view.emb j) 0) k)) ((((cfg1.win 5).blk t).view.emb j) 1)
  rw [hrow, hcol]

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v14).slice (win1_5.rect t)).set ↔ _
  rw [View.set_slice_whole, Rect.mem_set_unit]
  exact Iff.rfl

/-- Row `r` is in the block of the point whose block index is `r / 5000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region its output array holds the layer applied to every row of its input. -/
theorem final1 (c : Dev nD) : (dat1 V c).arrAt 5 cfg1.N = layerOut1 V c :=
  (dat1 V c).arrAt_eq_of_cover 5 (layerOut1 V c) (fun t _ => flushed1 V c t) (cover1)

end Cert.KernelIdeal.Net

end
-- ==== Proof.Region2.lean ====
import proofs.«170720_j9457517986237_1_alg».proof.Proof.Gen.KernelIdeal.Frame
import proofs.«170720_j9457517986237_1_alg».proof.Proof.Bodies

/-!
# The second node layer's region

Ten grid points, each taking 5000 rows of the node array through one layer; the weights, bias, gain and shift are
whole-array windows, the same at every point. Point `t` writes back rows `5000 t … 5000 t + 4999` of the layer
applied to every row of the region's input, and the ten blocks tile the array: the region leaves the layer applied
row by row to the whole input, whatever the buffers hold when the region is entered.
-/

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat)
open Cert.Rows

variable (V : (c : Dev nD) → (b : Ref sig .tc) → Buf (Elt Ideal) ((c : Thread nD τ).loc b))

/-- The layer applied to every row of the region's input array, as the region finds its operands. -/
def layerOut2 (c : Dev nD) : S50000x64.Idx → EReal :=
  mapRows (layerRow (V c main_arg16) (V c main_v27) (V c main_v28) (V c main_v29)) (V c main_v26)

/-- The printed index maps over the grid: the input rows move with the output rows, every other block index is 0. -/
theorem idx2 : ∀ t : Fin cfg2.N, win2_0.index t (0 : Fin 2) = win2_5.index t (0 : Fin 2) ∧ win2_0.index t (1 : Fin 2) = 0
    ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every block of rows is some point's. -/
theorem onto2 : ∀ q0 : Fin 10, ∃ t : Fin cfg2.N, win2_5.index t = ![q0.val, 0] :=
  (by decide +kernel : ∀ q0 : Fin 10, ∃ t : Fin grid2.N, win2_5.index t = ![q0.val, 0])

/-- The weights' window is the whole weight matrix at every point. -/
theorem blk2_1 (c : Dev nD) (t : Fin cfg2.N) : iblk2 V c 1 t = V c main_arg16 := by
  obtain ⟨-, -, -, e0, e1, -⟩ := idx2 t
  funext y
  show V c main_arg16 (((cfg2.win 1).blk t).view.emb y) = V c main_arg16 y
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias row's window is the whole row. -/
theorem blk2_2 (c : Dev nD) (t : Fin cfg2.N) : iblk2 V c 2 t = V c main_v27 := by
  obtain ⟨-, -, -, -, -, e0, e1, -⟩ := idx2 t
  funext y
  show V c main_v27 (((cfg2.win 2).blk t).view.emb y) = V c main_v27 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The gain row's window is the whole row. -/
theorem blk2_3 (c : Dev nD) (t : Fin cfg2.N) : iblk2 V c 3 t = V c main_v28 := by
  obtain ⟨-, -, -, -, -, -, -, e0, e1, -⟩ := idx2 t
  funext y
  show V c main_v28 (((cfg2.win 3).blk t).view.emb y) = V c main_v28 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The shift row's window is the whole row. -/
theorem blk2_4 (c : Dev nD) (t : Fin cfg2.N) : iblk2 V c 4 t = V c main_v29 := by
  obtain ⟨-, -, -, -, -, -, -, -, -, e0, e1⟩ := idx2 t
  funext y
  show V c main_v29 (((cfg2.win 4).blk t).view.emb y) = V c main_v29 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the layer applied to the whole input: row `p` of the point's tile is
    row `5000 t + p` of the input, and a row of the result sees only that row. -/
theorem flushed2 (c : Dev nD) (t : Fin cfg2.N) :
    (dat2 V c).flushed 5 t = ((cfg2.win 5).blk t).view.read (Elt Ideal) (layerOut2 V c) := by
  show (cfg2.win 5).cut (grid2.coords t) ((dat2 V c).after 5 t) = _
  rw [after2_5]
  unfold out2_5
  rw [View.canon_unit_zero hz00]
  simp only [View.ld_unit_zero (S := S5000x64) hz00, View.ld_unit_zero (S := S64x64) hz00, View.ld_unit_zero (S := S1x64) hz00]
  rw [blk2_1 V c t, blk2_2 V c t, blk2_3 V c t, blk2_4 V c t]
  refine (node2_rows (iblk2 V c 0 t) (V c main_arg16) (V c main_v27) (V c main_v28) (V c main_v29)).trans ?_
  obtain ⟨e0, e1, e2, -⟩ := idx2 t
  funext j
  show mapRows (layerRow (V c main_arg16) (V c main_v27) (V c main_v28) (V c main_v29)) (iblk2 V c 0 t) j
    = mapRows (layerRow (V c main_arg16) (V c main_v27) (V c main_v28) (V c main_v29)) (V c main_v26) (((cfg2.win 5).blk t).view.emb j)
  have hcol : (((cfg2.win 5).blk t).view.emb j) 1 = j 1 :=
    Fin.ext (by show win2_5.index t (1 : Fin 2) * 64 + 1 * (j 1).val = (j 1).val; omega)
  have hrow : (fun k : Fin 64 => iblk2 V c 0 t (ix2 (j 0) k))
      = fun k : Fin 64 => V c main_v26 (ix2 ((((cfg2.win 5).blk t).view.emb j) 0) k) := by
    funext k
    show V c main_v26 (((cfg2.win 0).blk t).view.emb (ix2 (j 0) k)) = _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  show layerRow (V c main_arg16) (V c main_v27) (V c main_v28) (V c main_v29) (fun k : Fin 64 => iblk2 V c 0 t (ix2 (j 0) k)) (j 1)
    = layerRow (V c main_arg16) (V c main_v27) (V c main_v28) (V c main_v29)
        (fun k : Fin 64 => V c main_v26 (ix2 ((((cfg2.win 5).blk t).view.emb j) 0) k)) ((((cfg2.win 5).blk t).view.emb j) 1)
  rw [hrow, hcol]

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v30).slice (win2_5.rect t)).set ↔ _
  rw [View.set_slice_whole, Rect.mem_set_unit]
  exact Iff.rfl

/-- Row `r` is in the block of the point whose block index is `r / 5000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- After the region its output array holds the layer applied to every row of its input. -/
theorem final2 (c : Dev nD) : (dat2 V c).arrAt 5 cfg2.N = layerOut2 V c :=
  (dat2 V c).arrAt_eq_of_cover 5 (layerOut2 V c) (fun t _ => flushed2 V c t) (cover2)

end Cert.KernelIdeal.Net

end
-- ==== Proof.Region3.lean ====
import proofs.«170720_j9457517986237_1_alg».proof.Proof.Gen.KernelIdeal.Frame
import proofs.«170720_j9457517986237_1_alg».proof.Proof.Bodies

/-!
# The third node layer's region

Ten grid points, each taking 5000 rows of the node array through one layer; the weights, bias, gain and shift are
whole-array windows, the same at every point. Point `t` writes back rows `5000 t … 5000 t + 4999` of the layer
applied to every row of the region's input, and the ten blocks tile the array: the region leaves the layer applied
row by row to the whole input, whatever the buffers hold when the region is entered.
-/

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat)
open Cert.Rows

variable (V : (c : Dev nD) → (b : Ref sig .tc) → Buf (Elt Ideal) ((c : Thread nD τ).loc b))

/-- The layer applied to every row of the region's input array, as the region finds its operands. -/
def layerOut3 (c : Dev nD) : S50000x64.Idx → EReal :=
  mapRows (layerRow (V c main_arg20) (V c main_v43) (V c main_v44) (V c main_v45)) (V c main_v42)

/-- The printed index maps over the grid: the input rows move with the output rows, every other block index is 0. -/
theorem idx3 : ∀ t : Fin cfg3.N, win3_0.index t (0 : Fin 2) = win3_5.index t (0 : Fin 2) ∧ win3_0.index t (1 : Fin 2) = 0
    ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every block of rows is some point's. -/
theorem onto3 : ∀ q0 : Fin 10, ∃ t : Fin cfg3.N, win3_5.index t = ![q0.val, 0] :=
  (by decide +kernel : ∀ q0 : Fin 10, ∃ t : Fin grid3.N, win3_5.index t = ![q0.val, 0])

/-- The weights' window is the whole weight matrix at every point. -/
theorem blk3_1 (c : Dev nD) (t : Fin cfg3.N) : iblk3 V c 1 t = V c main_arg20 := by
  obtain ⟨-, -, -, e0, e1, -⟩ := idx3 t
  funext y
  show V c main_arg20 (((cfg3.win 1).blk t).view.emb y) = V c main_arg20 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias row's window is the whole row. -/
theorem blk3_2 (c : Dev nD) (t : Fin cfg3.N) : iblk3 V c 2 t = V c main_v43 := by
  obtain ⟨-, -, -, -, -, e0, e1, -⟩ := idx3 t
  funext y
  show V c main_v43 (((cfg3.win 2).blk t).view.emb y) = V c main_v43 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The gain row's window is the whole row. -/
theorem blk3_3 (c : Dev nD) (t : Fin cfg3.N) : iblk3 V c 3 t = V c main_v44 := by
  obtain ⟨-, -, -, -, -, -, -, e0, e1, -⟩ := idx3 t
  funext y
  show V c main_v44 (((cfg3.win 3).blk t).view.emb y) = V c main_v44 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The shift row's window is the whole row. -/
theorem blk3_4 (c : Dev nD) (t : Fin cfg3.N) : iblk3 V c 4 t = V c main_v45 := by
  obtain ⟨-, -, -, -, -, -, -, -, -, e0, e1⟩ := idx3 t
  funext y
  show V c main_v45 (((cfg3.win 4).blk t).view.emb y) = V c main_v45 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- What point `t` writes back is block `t` of the layer applied to the whole input: row `p` of the point's tile is
    row `5000 t + p` of the input, and a row of the result sees only that row. -/
theorem flushed3 (c : Dev nD) (t : Fin cfg3.N) :
    (dat3 V c).flushed 5 t = ((cfg3.win 5).blk t).view.read (Elt Ideal) (layerOut3 V c) := by
  show (cfg3.win 5).cut (grid3.coords t) ((dat3 V c).after 5 t) = _
  rw [after3_5]
  unfold out3_5
  rw [View.canon_unit_zero hz00]
  simp only [View.ld_unit_zero (S := S5000x64) hz00, View.ld_unit_zero (S := S64x64) hz00, View.ld_unit_zero (S := S1x64) hz00]
  rw [blk3_1 V c t, blk3_2 V c t, blk3_3 V c t, blk3_4 V c t]
  refine (node3_rows (iblk3 V c 0 t) (V c main_arg20) (V c main_v43) (V c main_v44) (V c main_v45)).trans ?_
  obtain ⟨e0, e1, e2, -⟩ := idx3 t
  funext j
  show mapRows (layerRow (V c main_arg20) (V c main_v43) (V c main_v44) (V c main_v45)) (iblk3 V c 0 t) j
    = mapRows (layerRow (V c main_arg20) (V c main_v43) (V c main_v44) (V c main_v45)) (V c main_v42) (((cfg3.win 5).blk t).view.emb j)
  have hcol : (((cfg3.win 5).blk t).view.emb j) 1 = j 1 :=
    Fin.ext (by show win3_5.index t (1 : Fin 2) * 64 + 1 * (j 1).val = (j 1).val; omega)
  have hrow : (fun k : Fin 64 => iblk3 V c 0 t (ix2 (j 0) k))
      = fun k : Fin 64 => V c main_v42 (ix2 ((((cfg3.win 5).blk t).view.emb j) 0) k) := by
    funext k
    show V c main_v42 (((cfg3.win 0).blk t).view.emb (ix2 (j 0) k)) = _
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 64 + 1 * k.val = k.val; omega
  show layerRow (V c main_arg20) (V c main_v43) (V c main_v44) (V c main_v45) (fun k : Fin 64 => iblk3 V c 0 t (ix2 (j 0) k)) (j 1)
    = layerRow (V c main_arg20) (V c main_v43) (V c main_v44) (V c main_v45)
        (fun k : Fin 64 => V c main_v42 (ix2 ((((cfg3.win 5).blk t).view.emb j) 0) k)) ((((cfg3.win 5).blk t).view.emb j) 1)
  rw [hrow, hcol]

/-- An index of the array is in point `t`'s block iff each coordinate is in the block's range on its axis. -/
theorem mem_blk3 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v46).slice (win3_5.rect t)).set ↔ _
  rw [View.set_slice_whole, Rect.mem_set_unit]
  exact Iff.rfl

/-- Row `r` is in the block of the point whose block index is `r / 5000`. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- After the region its output array holds the layer applied to every row of its input. -/
theorem final3 (c : Dev nD) : (dat3 V c).arrAt 5 cfg3.N = layerOut3 V c :=
  (dat3 V c).arrAt_eq_of_cover 5 (layerOut3 V c) (fun t _ => flushed3 V c t) (cover3)

end Cert.KernelIdeal.Net

end
-- ==== Proof.Region4.lean ====
import proofs.«170720_j9457517986237_1_alg».proof.Proof.Gen.KernelIdeal.Frame
import proofs.«170720_j9457517986237_1_alg».proof.Proof.Bodies

/-!
# The output region

One grid point: the whole pooled array of 512 rows, the whole weight matrix and the whole bias row in, the whole
result out. The region leaves `r · w + b` for every row `r` of the pooled array.
-/

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat)
open Cert.Rows

variable (V : (c : Dev nD) → (b : Ref sig .tc) → Buf (Elt Ideal) ((c : Thread nD τ).loc b))

/-- The projection applied to every row of the pooled array, as the region finds its operands. -/
def projOut (c : Dev nD) : S512x64.Idx → EReal :=
  mapRows (projRow (V c main_arg24) (V c main_v62)) (V c main_v61)

/-- Every printed block index is 0 at the one point. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem blk4_0 (c : Dev nD) (t : Fin cfg4.N) : iblk4 V c 0 t = V c main_v61 := by
  obtain ⟨e0, e1, -⟩ := idx4 t
  funext y
  show V c main_v61 (((cfg4.win 0).blk t).view.emb y) = V c main_v61 y
  refine congrArg _ (funext fun a => Fin.ext ?_)
  match a with
  | ⟨0, _⟩ => show win4_0.index t (0 : Fin 2) * 512 + 1 * (y 0).val = (y 0).val; omega
  | ⟨1, _⟩ => show win4_0.index t (1 : Fin 2) * 64 + 1 * (y 1).val = (y 1).val; omega

theorem blk4_1 (c : Dev nD) (t : Fin cfg4.N) : iblk4 V c 1 t = V c main_arg24 := by
  obtain ⟨-, -, e0, e1, -⟩ := idx4 t
  funext y
  show V c main_arg24 (((cfg4.win 1).blk t).view.emb y) = V c main_arg24 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 64 + 1 * (y 1).val = (y 1).val; omega

theorem blk4_2 (c : Dev nD) (t : Fin cfg4.N) : iblk4 V c 2 t = V c main_v62 := by
  obtain ⟨-, -, -, -, e0, e1, -⟩ := idx4 t
  funext y
  show V c main_v62 (((cfg4.win 2).blk t).view.emb y) = V c main_v62 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- What the one point writes back is the whole projected array. -/
theorem flushed4 (c : Dev nD) (t : Fin cfg4.N) :
    (dat4 V c).flushed 3 t = ((cfg4.win 3).blk t).view.read (Elt Ideal) (projOut V c) := by
  show (cfg4.win 3).cut (grid4.coords t) ((dat4 V c).after 3 t) = _
  rw [after4_3]
  unfold out4_3
  rw [View.canon_unit_zero hz00]
  simp only [View.ld_unit_zero (S := S512x64) hz00, View.ld_unit_zero (S := S64x64) hz00, View.ld_unit_zero (S := S1x64) hz00]
  rw [blk4_0 V c t, blk4_1 V c t, blk4_2 V c t]
  refine (proj_rows (V c main_v61) (V c main_arg24) (V c main_v62)).trans ?_
  obtain ⟨-, -, -, -, -, -, e0, e1⟩ := idx4 t
  funext j
  show projOut V c j = projOut V c (((cfg4.win 3).blk t).view.emb j)
  refine congrArg _ (funext fun a => Fin.ext ?_)
  match a with
  | ⟨0, _⟩ => show (j 0).val = win4_3.index t (0 : Fin 2) * 512 + 1 * (j 0).val; omega
  | ⟨1, _⟩ => show (j 1).val = win4_3.index t (1 : Fin 2) * 64 + 1 * (j 1).val; omega

/-- An index of the array is in the point's block iff each coordinate is in the block's range on its axis. -/
theorem mem_blk4 (t : Fin cfg4.N) (i : S512x64.Idx) :
    i ∈ ((cfg4.win 3).blk t).view.set ↔ ∀ a : Fin 2, win4_3.index t a * S512x64.size a ≤ (i a).val
      ∧ (i a).val < win4_3.index t a * S512x64.size a + S512x64.size a := by
  show i ∈ ((View.whole main_v63).slice (win4_3.rect t)).set ↔ _
  rw [View.set_slice_whole, Rect.mem_set_unit]
  exact Iff.rfl

/-- The one block is the whole array. -/
theorem cover4 (i : S512x64.Idx) :
    ∃ t : Fin cfg4.N, (cfg4.win 3).flush t = true ∧ i ∈ ((cfg4.win 3).blk t).view.set := by
  have hi0 : (i 0).val < 512 := (i 0).isLt
  have hi1 : (i 1).val < 64 := (i 1).isLt
  obtain ⟨-, -, -, -, -, -, e0, e1⟩ := idx4 t4_0
  refine ⟨t4_0, flush4_3 t4_0, ?_⟩
  rw [mem_blk4]
  intro a
  match a with
  | ⟨0, _⟩ => show win4_3.index t4_0 (0 : Fin 2) * 512 ≤ (i 0).val ∧ (i 0).val < win4_3.index t4_0 (0 : Fin 2) * 512 + 512; omega
  | ⟨1, _⟩ => show win4_3.index t4_0 (1 : Fin 2) * 64 ≤ (i 1).val ∧ (i 1).val < win4_3.index t4_0 (1 : Fin 2) * 64 + 64; omega

/-- After the region its output array holds the projection of every row of the pooled array. -/
theorem final4 (c : Dev nD) : (dat4 V c).arrAt 3 cfg4.N = projOut V c :=
  (dat4 V c).arrAt_eq_of_cover 3 (projOut V c) (fun t _ => flushed4 V c t) (cover4)

end Cert.KernelIdeal.Net

end
-- ==== Proof.LibHostRows.lean ====
import proofs.«170720_j9457517986237_1_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.LibHostNormRows.lean ====
import proofs.«170720_j9457517986237_1_alg».proof.Proof.LibHostRows
import proofs.«170720_j9457517986237_1_alg».proof.Proof.LibNormRows

/-!
# The host's spelling of a normalised row

The same layer as in `LibNormRows`, as a host program writes it on a whole `[N, C]` array: sums along axis 1 from zero,
kept as a column by a broadcast, divided by a broadcast scalar `64`; the column broadcast back across the rows and
subtracted; the squares summed the same way, the floor `ε` added, a host reciprocal square root; a gain vector and a
shift vector broadcast to one row and then down the rows; a maximum with a broadcast zero. Read at an index it is
`mapRows` of the one row function `relu ∘ ln g β`, with the vectors read as one-row matrices.
-/

noncomputable section

namespace Cert.Rows

open Idealize.ShloMosaic Idealize.ShloMosaic.ValueIdx
open scoped BigOperators

variable {N C : ℕ}

/-- A scalar broadcast to a matrix reads the scalar everywhere. -/
theorem hostScalar_apply {a b : ℕ} (w : BitVec 32) (h : S0.BroadcastsInDim (S2 a b) ![]) (p : Fin a) (q : Fin b) :
    broadcastInDim (S2 a b) ![] h (constant (F := Ideal) S0 .f32 w) (ix2 p q) = Ideal.ofBits .f32 w := by
  rw [broadcastInDim_apply ![] h _ (ix2 p q) ix0 (fun a => a.elim0)]
  rfl

/-- A column broadcast across the rows reads, at `(p, q)`, the column at row `p`. -/
theorem hostCol_apply (v : FVec Ideal (S2 N 1) .f32) (hb1 : (S2 N 1).BroadcastsInDim (S2 N C) ![0, 1]) (p : Fin N) (q : Fin C) :
    broadcastInDim (S2 N C) ![0, 1] hb1 v (ix2 p q) = v (ix2 p (0 : Fin 1)) := by
  have hp : p.val = if N = 1 then 0 else p.val := by
    split
    · have := p.isLt; omega
    · rfl
  rw [broadcastInDim_apply ![0, 1] hb1 v (ix2 p q) (ix2 p (0 : Fin 1)) (fun a => by
      match a with
      | ⟨0, _⟩ => exact hp
      | ⟨1, _⟩ => rfl)]

/-- A vector broadcast to one row and then down the rows reads, at `(p, q)`, the vector at `q`: the vector kept
    as a one-row matrix, at `(0, q)`. -/
theorem hostRowVec_apply (v : FVec Ideal (S1 C) .f32) (h1 : (S1 C).BroadcastsInDim (S2 1 C) ![1])
    (h2 : (S2 1 C).BroadcastsInDim (S2 N C) ![0, 1]) (hc : (S1 C).ShapeCasts (S2 1 C)) (p : Fin N) (q : Fin C) :
    broadcastInDim (S2 N C) ![0, 1] h2 (broadcastInDim (S2 1 C) ![1] h1 v) (ix2 p q)
      = shapeCast (S2 1 C) v hc (ix2 (0 : Fin 1) q) := by
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 v (ix2 (0 : Fin 1) q) (ix1 q) (fun a => by
      match a with
      | ⟨0, _⟩ => exact hq)]

/-- The host's sums along axis 1 from zero, kept as a column: at row `p` the sum of row `p`. -/
theorem hostRowSum_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (p : Fin N) (u : Fin 1) :
    broadcastInDim (S2 N 1) ![0] hb0 (Host.reduceAdd Y (constant S0 .f32 0x00000000#32) hred hu) (ix2 p u)
      = ∑ k : Fin C, Y (ix2 p k) := by
  have hp : p.val = if N = 1 then 0 else p.val := by
    split
    · have := p.isLt; omega
    · rfl
  rw [broadcastInDim_apply ![0] hb0 _ (ix2 p u) (ix1 p) (fun a => by
      match a with
      | ⟨0, _⟩ => exact hp)]
  show Ideal.hostReduceAdd hred Y (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's row means, as a column. -/
def hostMeanCol (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![]) : FVec Ideal (S2 N 1) .f32 :=
  Host.divf (broadcastInDim (S2 N 1) ![0] hb0 (Host.reduceAdd Y (constant S0 .f32 0x00000000#32) hred hu))
    (broadcastInDim (S2 N 1) ![] hbe (constant S0 .f32 0x42800000#32))

theorem hostMeanCol_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (p : Fin N) (u : Fin 1) :
    hostMeanCol Y hred hu hb0 hbe (ix2 p u) = mean (fun k => Y (ix2 p k)) := by
  unfold hostMeanCol
  show Ideal.div (broadcastInDim (S2 N 1) ![0] hb0 (Host.reduceAdd Y (constant S0 .f32 0x00000000#32) hred hu) (ix2 p u))
    (broadcastInDim (S2 N 1) ![] hbe (constant (F := Ideal) S0 .f32 0x42800000#32) (ix2 p u)) = _
  rw [hostRowSum_apply Y hred hr hu hb0 p u, hostScalar_apply]
  rfl

/-- The array minus its row means. -/
def hostCentred (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N C) .f32 :=
  subf Y (broadcastInDim (S2 N C) ![0, 1] hb1 (hostMeanCol Y hred hu hb0 hbe))

theorem hostCentred_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (q : Fin C) :
    hostCentred Y hred hu hb0 hbe hb1 (ix2 p q) = centred (fun k => Y (ix2 p k)) q := by
  unfold hostCentred
  rw [subf_apply, hostCol_apply, hostMeanCol_apply Y hred hr hu hb0 hbe]
  rfl

/-- The host's `(σ² + ε)^(-1/2)` of every row, as a column. -/
def hostInvStdCol (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N 1) .f32 :=
  Host.rsqrt (addf (Host.divf (broadcastInDim (S2 N 1) ![0] hb0 (Host.reduceAdd
      (mulf (hostCentred Y hred hu hb0 hbe hb1) (hostCentred Y hred hu hb0 hbe hb1)) (constant S0 .f32 0x00000000#32) hred hu))
      (broadcastInDim (S2 N 1) ![] hbe (constant S0 .f32 0x42800000#32)))
    (broadcastInDim (S2 N 1) ![] hbe (constant S0 .f32 0x3727C5AC#32)))

theorem hostInvStdCol_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (u : Fin 1) :
    hostInvStdCol Y hred hu hb0 hbe hb1 (ix2 p u) = invStd (fun k => Y (ix2 p k)) := by
  unfold hostInvStdCol
  show Ideal.rsqrt (Ideal.div (broadcastInDim (S2 N 1) ![0] hb0 (Host.reduceAdd
      (mulf (hostCentred Y hred hu hb0 hbe hb1) (hostCentred Y hred hu hb0 hbe hb1)) (constant S0 .f32 0x00000000#32) hred hu) (ix2 p u))
      (broadcastInDim (S2 N 1) ![] hbe (constant (F := Ideal) S0 .f32 0x42800000#32) (ix2 p u))
    + broadcastInDim (S2 N 1) ![] hbe (constant (F := Ideal) S0 .f32 0x3727C5AC#32) (ix2 p u)) = _
  rw [hostRowSum_apply _ hred hr hu hb0 p u, hostScalar_apply, hostScalar_apply]
  simp only [mulf_apply, hostCentred_apply Y hred hr hu hb0 hbe hb1]
  rfl

/-- The host's layer norm and `relu` of a whole array, gain and shift given as vectors. -/
def hostLnRelu (Y : FVec Ideal (S2 N C) .f32) (g β : FVec Ideal (S1 C) .f32)
    (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![]) : FVec Ideal (S2 N C) .f32 :=
  maximumf (addf (mulf (mulf (hostCentred Y hred hu hb0 hbe hb1)
        (broadcastInDim (S2 N C) ![0, 1] hb1 (hostInvStdCol Y hred hu hb0 hbe hb1)))
        (broadcastInDim (S2 N C) ![0, 1] h2 (broadcastInDim (S2 1 C) ![1] h1 g)))
      (broadcastInDim (S2 N C) ![0, 1] h2 (broadcastInDim (S2 1 C) ![1] h1 β)))
    (broadcastInDim (S2 N C) ![] hz (constant S0 .f32 0x00000000#32))

/-- It is `relu ∘ ln g β` applied to every row, the vectors read as one-row matrices. -/
theorem hostLnRelu_rows (Y : FVec Ideal (S2 N C) .f32) (g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) :
    hostLnRelu Y g β hred hu hb0 hbe hb1 h1 h2 hz
      = mapRows (fun r => relu (ln (shapeCast (S2 1 C) g hc) (shapeCast (S2 1 C) β hc) r)) Y := by
  funext i
  obtain ⟨p, q, rfl⟩ : ∃ (p : Fin N) (q : Fin C), i = ix2 p q := ⟨i 0, i 1, eq_ix2 i⟩
  unfold hostLnRelu
  rw [mapRows_ix2, maximumf_apply, addf_apply, mulf_apply, mulf_apply, hostCentred_apply Y hred hr hu hb0 hbe hb1,
    hostCol_apply, hostInvStdCol_apply Y hred hr hu hb0 hbe hb1, hostRowVec_apply g h1 h2 hc, hostRowVec_apply β h1 h2 hc,
    hostScalar_apply]
  rfl

/-- The host's product of the whole array with a weight matrix plus a bias vector broadcast down the rows. -/
def hostLin {K : ℕ} (d : DotDims (S2 N K) (S2 K C) (S2 N C)) (X : FVec Ideal (S2 N K) .f32) (w : FVec Ideal (S2 K C) .f32)
    (b : FVec Ideal (S1 C) .f32) (h1 : (S1 C).BroadcastsInDim (S2 1 C) ![1])
    (h2 : (S2 1 C).BroadcastsInDim (S2 N C) ![0, 1]) : FVec Ideal (S2 N C) .f32 :=
  addf (Host.dotGeneral d none X w) (broadcastInDim (S2 N C) ![0, 1] h2 (broadcastInDim (S2 1 C) ![1] h1 b))

/-- It is `r ↦ r · w + b` applied to every row, the bias read as a one-row matrix. -/
theorem hostLin_rows {K : ℕ} (d : DotDims (S2 N K) (S2 K C) (S2 N C)) (hd : Cert.LibPlainDot.Plain d)
    (X : FVec Ideal (S2 N K) .f32) (w : FVec Ideal (S2 K C) .f32)
    (b : FVec Ideal (S1 C) .f32) (h1 : (S1 C).BroadcastsInDim (S2 1 C) ![1])
    (h2 : (S2 1 C).BroadcastsInDim (S2 N C) ![0, 1]) (hc : (S1 C).ShapeCasts (S2 1 C)) :
    hostLin d X w b h1 h2 = mapRows (fun r => addRow (shapeCast (S2 1 C) b hc) (lin w r)) X := by
  unfold hostLin
  rw [host_lin d hd X w, host_bias _ b h1 h2 hc]
  rfl

/-- The host's whole layer — product, bias, layer norm, `relu` — is `layerRow` applied to every row. -/
theorem hostLayer_rows {K : ℕ} (d : DotDims (S2 N K) (S2 K C) (S2 N C)) (hd : Cert.LibPlainDot.Plain d)
    (X : FVec Ideal (S2 N K) .f32) (w : FVec Ideal (S2 K C) .f32) (b g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) :
    hostLnRelu (hostLin d X w b h1 h2) g β hred hu hb0 hbe hb1 h1 h2 hz
      = mapRows (layerRow w (shapeCast (S2 1 C) b hc) (shapeCast (S2 1 C) g hc) (shapeCast (S2 1 C) β hc)) X :=
  (hostLnRelu_rows _ g β hred hr hu hb0 hbe hb1 h1 h2 hz hc).trans
    (congrArg (mapRows (fun r => relu (ln (shapeCast (S2 1 C) g hc) (shapeCast (S2 1 C) β hc) r)))
      (hostLin_rows d hd X w b h1 h2 hc))

end Cert.Rows

end
-- ==== Proof.Network.lean ====
import proofs.«170720_j9457517986237_1_alg».proof.Proof.Gen.ReferenceIdeal
import proofs.«170720_j9457517986237_1_alg».proof.Proof.LibHostNormRows

/-!
# The network as one function of its arguments

Edge features: every row of the edge-attribute array through two layers. Then three rounds: every row of the node
array through a layer, giving `Y`; each edge `e` carries `Y[dst e] · EA[e]` (entry by entry; a negative destination
index wraps once by the number of nodes) to its source, the messages arriving at a node are summed from zero, and the
sum is added to `Y`. Last, the node rows are summed per graph (from zero, by the batch index) and every pooled row
goes through the output projection.

The gathers and scatter-sums are the host's operations, taken as they are; the dense stages are `mapRows` of the row
functions of `LibNormRows`, a vector argument read as a one-row matrix.
-/

noncomputable section

namespace Cert.Network

open Cert.ReferenceIdeal Cert.ReferenceIdeal.Gen
open Idealize.ShloMosaic
open Cert.Rows

/-- A float array of a shape, at exact numbers. -/
abbrev FArr (s : Shape) : Type := (⟨s, .f32⟩ : BufTy).Contents (Elt Ideal)
/-- An index array of a shape. -/
abbrev IArr (s : Shape) : Type := (⟨s, .i32⟩ : BufTy).Contents (Elt Ideal)

theorem rowCast : S64.ShapeCasts S1x64 := by decide

/-- A vector of 64 entries kept as a one-row matrix. -/
def rowOf (v : FArr S64) : FArr S1x64 := shapeCast S1x64 v rowCast

/-- The source node of every edge: row 0 of the edge-index array. -/
def srcOf (e : IArr S2x800000) : IArr S800000 :=
  shapeCast _ (extractStridedSlice S1x800000 ![0, 0] e slices_S2x800000_S1x800000_0_0) shapeCasts_S1x800000_S800000

/-- The destination node of every edge: row 1 of the edge-index array. -/
def dstOf (e : IArr S2x800000) : IArr S800000 :=
  shapeCast _ (extractStridedSlice S1x800000 ![1, 0] e slices_S2x800000_S1x800000_1_0) shapeCasts_S1x800000_S800000

/-- Destinations as gather indices: a negative one wraps once by the number of nodes; kept as a column. -/
def wrappedOf (dst : IArr S800000) : IArr S800000x1 :=
  broadcastInDim S800000x1 ![0] bcast_S800000_S800000x1_0
    (select (cmpi .slt dst (broadcastInDim S800000 ![] bcast_S_S800000 (constantI S_ 32 0#32)))
      (addi dst (broadcastInDim S800000 ![] bcast_S_S800000 (constantI S_ 32 50000#32)))
      dst)

/-- One round of message passing on node rows `Y` with edge features `EA`, given the edges' sources and destinations. -/
def aggregateAt (Y : FArr S50000x64) (EA : FArr S800000x64) (src dst : IArr S800000) : FArr S50000x64 :=
  addf Y (Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 src)
    (mulf (Host.gather gather_S50000x64_S800000x1_S800000x64_1_0_n_n_0_1_164 Y (wrappedOf dst)) EA))

/-- One round of message passing, the sources and destinations read off the edge-index array. -/
def aggregate (Y : FArr S50000x64) (EA : FArr S800000x64) (e : IArr S2x800000) : FArr S50000x64 :=
  aggregateAt Y EA (srcOf e) (dstOf e)

/-- The node rows summed per graph. -/
def pool (X : FArr S50000x64) (batch : IArr S50000) : FArr S512x64 :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 batch) X

/-- The edge features: two layers on every row of the edge-attribute array. -/
def edgeFeat (a2 : FArr S800000x16) (a4 : FArr S16x64) (a5 a6 a7 : FArr S64) (a8 : FArr S64x64) (a9 a10 a11 : FArr S64) :
    FArr S800000x64 :=
  mapRows (fun r => layerRow a8 (rowOf a9) (rowOf a10) (rowOf a11) (layerRow a4 (rowOf a5) (rowOf a6) (rowOf a7) r)) a2

/-- One layer on every node row. -/
def nodeLayer (X : FArr S50000x64) (w : FArr S64x64) (b g β : FArr S64) : FArr S50000x64 :=
  mapRows (layerRow w (rowOf b) (rowOf g) (rowOf β)) X

/-- One round: the layer, then the messages. -/
def round (X : FArr S50000x64) (EA : FArr S800000x64) (e : IArr S2x800000) (w : FArr S64x64) (b g β : FArr S64) :
    FArr S50000x64 :=
  aggregate (nodeLayer X w b g β) EA e

/-- The whole network. -/
def net (a0 : FArr S50000x64) (a1 : IArr S2x800000) (a2 : FArr S800000x16) (a3 : IArr S50000) (a4 : FArr S16x64)
    (a5 a6 a7 : FArr S64) (a8 : FArr S64x64) (a9 a10 a11 : FArr S64) (a12 : FArr S64x64) (a13 a14 a15 : FArr S64)
    (a16 : FArr S64x64) (a17 a18 a19 : FArr S64) (a20 : FArr S64x64) (a21 a22 a23 : FArr S64) (a24 : FArr S64x64)
    (a25 : FArr S64) : FArr S512x64 :=
  mapRows (projRow a24 (rowOf a25))
    (pool (round (round (round a0 (edgeFeat a2 a4 a5 a6 a7 a8 a9 a10 a11) a1 a12 a13 a14 a15)
        (edgeFeat a2 a4 a5 a6 a7 a8 a9 a10 a11) a1 a16 a17 a18 a19)
      (edgeFeat a2 a4 a5 a6 a7 a8 a9 a10 a11) a1 a20 a21 a22 a23) a3)

/-! ## The host's spelling of the dense stages -/

/-- A node layer as the host writes it on the whole node array. -/
def hostNode (X : FArr S50000x64) (w : FArr S64x64) (b g β : FArr S64) : FArr S50000x64 :=
  hostLnRelu (hostLin dot_S50000x64_S64x64_S50000x64_1_0_0_1_n_n X w b bcast_S64_S1x64_1 bcast_S1x64_S50000x64_0_1) g β
    reducesTo_S50000x64_S50000_d1 h_S_ bcast_S50000_S50000x1_0 bcast_S_S50000x1 bcast_S50000x1_S50000x64_0_1
    bcast_S64_S1x64_1 bcast_S1x64_S50000x64_0_1 bcast_S_S50000x64

theorem hostNode_eq (X : FArr S50000x64) (w : FArr S64x64) (b g β : FArr S64) : hostNode X w b g β = nodeLayer X w b g β :=
  hostLayer_rows dot_S50000x64_S64x64_S50000x64_1_0_0_1_n_n ⟨rfl, rfl, rfl, rfl, rfl, rfl⟩ X w b g β
    reducesTo_S50000x64_S50000_d1 (by decide) h_S_ bcast_S50000_S50000x1_0 bcast_S_S50000x1 bcast_S50000x1_S50000x64_0_1
    bcast_S64_S1x64_1 bcast_S1x64_S50000x64_0_1 bcast_S_S50000x64 rowCast

/-- The first edge layer as the host writes it on the whole edge-attribute array. -/
def hostEdge1 (X : FArr S800000x16) (w : FArr S16x64) (b g β : FArr S64) : FArr S800000x64 :=
  hostLnRelu (hostLin dot_S800000x16_S16x64_S800000x64_1_0_0_1_n_n X w b bcast_S64_S1x64_1 bcast_S1x64_S800000x64_0_1) g β
    reducesTo_S800000x64_S800000_d1 h_S_ bcast_S800000_S800000x1_0 bcast_S_S800000x1 bcast_S800000x1_S800000x64_0_1
    bcast_S64_S1x64_1 bcast_S1x64_S800000x64_0_1 bcast_S_S800000x64

/-- The second edge layer as the host writes it. -/
def hostEdge2 (X : FArr S800000x64) (w : FArr S64x64) (b g β : FArr S64) : FArr S800000x64 :=
  hostLnRelu (hostLin dot_S800000x64_S64x64_S800000x64_1_0_0_1_n_n X w b bcast_S64_S1x64_1 bcast_S1x64_S800000x64_0_1) g β
    reducesTo_S800000x64_S800000_d1 h_S_ bcast_S800000_S800000x1_0 bcast_S_S800000x1 bcast_S800000x1_S800000x64_0_1
    bcast_S64_S1x64_1 bcast_S1x64_S800000x64_0_1 bcast_S_S800000x64

theorem hostEdge_eq (a2 : FArr S800000x16) (a4 : FArr S16x64) (a5 a6 a7 : FArr S64) (a8 : FArr S64x64) (a9 a10 a11 : FArr S64) :
    hostEdge2 (hostEdge1 a2 a4 a5 a6 a7) a8 a9 a10 a11 = edgeFeat a2 a4 a5 a6 a7 a8 a9 a10 a11 := by
  have h1 : hostEdge1 a2 a4 a5 a6 a7 = mapRows (layerRow a4 (rowOf a5) (rowOf a6) (rowOf a7)) a2 :=
    hostLayer_rows dot_S800000x16_S16x64_S800000x64_1_0_0_1_n_n ⟨rfl, rfl, rfl, rfl, rfl, rfl⟩ a2 a4 a5 a6 a7
      reducesTo_S800000x64_S800000_d1 (by decide) h_S_ bcast_S800000_S800000x1_0 bcast_S_S800000x1 bcast_S800000x1_S800000x64_0_1
      bcast_S64_S1x64_1 bcast_S1x64_S800000x64_0_1 bcast_S_S800000x64 rowCast
  have h2 : ∀ Y : FArr S800000x64, hostEdge2 Y a8 a9 a10 a11 = mapRows (layerRow a8 (rowOf a9) (rowOf a10) (rowOf a11)) Y := fun Y =>
    hostLayer_rows dot_S800000x64_S64x64_S800000x64_1_0_0_1_n_n ⟨rfl, rfl, rfl, rfl, rfl, rfl⟩ Y a8 a9 a10 a11
      reducesTo_S800000x64_S800000_d1 (by decide) h_S_ bcast_S800000_S800000x1_0 bcast_S_S800000x1 bcast_S800000x1_S800000x64_0_1
      bcast_S64_S1x64_1 bcast_S1x64_S800000x64_0_1 bcast_S_S800000x64 rowCast
  rw [h2, h1]
  exact mapRows_comp (layerRow a8 (rowOf a9) (rowOf a10) (rowOf a11)) (layerRow a4 (rowOf a5) (rowOf a6) (rowOf a7)) a2

/-- The output projection as the host writes it on the pooled array. -/
def hostProj (P : FArr S512x64) (w : FArr S64x64) (b : FArr S64) : FArr S512x64 :=
  hostLin dot_S512x64_S64x64_S512x64_1_0_0_1_n_n P w b bcast_S64_S1x64_1 bcast_S1x64_S512x64_0_1

theorem hostProj_eq (P : FArr S512x64) (w : FArr S64x64) (b : FArr S64) : hostProj P w b = mapRows (projRow w (rowOf b)) P :=
  hostLin_rows dot_S512x64_S64x64_S512x64_1_0_0_1_n_n ⟨rfl, rfl, rfl, rfl, rfl, rfl⟩ P w b bcast_S64_S1x64_1 bcast_S1x64_S512x64_0_1 rowCast

end Cert.Network

end
-- ==== Proof.KernelValue.lean ====
import proofs.«170720_j9457517986237_1_alg».proof.Proof.Gen.KernelIdeal.Frame
import proofs.«170720_j9457517986237_1_alg».proof.Proof.Region0
import proofs.«170720_j9457517986237_1_alg».proof.Proof.Region1
import proofs.«170720_j9457517986237_1_alg».proof.Proof.Region2
import proofs.«170720_j9457517986237_1_alg».proof.Proof.Region3
import proofs.«170720_j9457517986237_1_alg».proof.Proof.Region4
import proofs.«170720_j9457517986237_1_alg».proof.Proof.Network

/-!
# The kernel's result, read back to the arguments

The program's buffer contents at its eleven segment boundaries are the generated `W0 … W10`: a host stretch folds
its operations over the contents before it, a region replaces its output array by what its write-backs leave and
keeps everything else. Going down from the result buffer: the output region leaves the projection of every pooled row;
the stretch before it pools the third round's rows; each round is a node region (the layer on every row of its input)
followed by a stretch that gathers, multiplies by the edge features, scatter-sums and adds; the edge features are
the edge region's two layers on every row of the edge-attribute array. An argument is written by no stretch and is
no region's output, so it is the launch memory's at every boundary; the edge features and the edges' endpoints are
carried unchanged from where they are computed. Composed, the result buffer ends at `Network.net` of the arguments.
-/

set_option maxRecDepth 16384

noncomputable section

namespace Cert.KernelIdeal.Net

open Cert.KernelIdeal Cert.KernelIdeal.Gen
open Idealize.ShloMosaic Idealize.ShloMosaic.TcCoe Idealize.SL.Sem
open Cert.Rows Cert.Network

variable (m : (ℓ : Loc nD τ sig) → Buf (Elt Ideal) ℓ) (ρ : Dev nD → PrngReg)

/-! ## What the host stretches write -/

/-- The buffers host stretch 0 writes. -/
abbrev hw0 : List (Ref sig .tc) := [main_v0, main_v1, main_v2, main_v3, main_v4, main_v5]
theorem hostOps0_writes : (hostOps0 : List (HloOp τ sig (Elt Ideal))).Forall fun op => op.writes ⊆ (hw0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes,
    Finset.singleton_subset_iff, List.mem_toFinset]; exact List.mem_map_of_mem (by decide))
/-- A buffer the stretch does not write keeps its contents across it. -/
theorem keepH0 (c : Dev nD) {r : Ref sig .tc} (h : r ∉ hw0) :
    W1 m ρ c (Proc.devRef .tc r) = W0 m ρ c (Proc.devRef .tc r) :=
  StableHlo.after_of_writes_sub hostOps0 _ hostOps0_writes h

/-- The buffers host stretch 1 writes. -/
abbrev hw1 : List (Ref sig .tc) := [main_v7, main_v8, main_v9, main_v10, main_v11, main_v12, main_v13]
theorem hostOps1_writes : (hostOps1 : List (HloOp τ sig (Elt Ideal))).Forall fun op => op.writes ⊆ (hw1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes,
    Finset.singleton_subset_iff, List.mem_toFinset]; exact List.mem_map_of_mem (by decide))
/-- A buffer the stretch does not write keeps its contents across it. -/
theorem keepH1 (c : Dev nD) {r : Ref sig .tc} (h : r ∉ hw1) :
    W3 m ρ c (Proc.devRef .tc r) = W2 m ρ c (Proc.devRef .tc r) :=
  StableHlo.after_of_writes_sub hostOps1 _ hostOps1_writes h

/-- The buffers host stretch 2 writes. -/
abbrev hw2 : List (Ref sig .tc) := [main_c, main_v15, main_v16, main_c_0, main_v17, main_v18, main_v19, main_v20, main_v21, main_v22, main_cst, main_v23, main_v24, main_v25, main_v26, main_v27, main_v28, main_v29]
theorem hostOps2_writes : (hostOps2 : List (HloOp τ sig (Elt Ideal))).Forall fun op => op.writes ⊆ (hw2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes,
    Finset.singleton_subset_iff, List.mem_toFinset]; exact List.mem_map_of_mem (by decide))
/-- A buffer the stretch does not write keeps its contents across it. -/
theorem keepH2 (c : Dev nD) {r : Ref sig .tc} (h : r ∉ hw2) :
    W5 m ρ c (Proc.devRef .tc r) = W4 m ρ c (Proc.devRef .tc r) :=
  StableHlo.after_of_writes_sub hostOps2 _ hostOps2_writes h

/-- The buffers host stretch 3 writes. -/
abbrev hw3 : List (Ref sig .tc) := [main_c_1, main_v31, main_v32, main_c_2, main_v33, main_v34, main_v35, main_v36, main_v37, main_v38, main_cst_3, main_v39, main_v40, main_v41, main_v42, main_v43, main_v44, main_v45]
theorem hostOps3_writes : (hostOps3 : List (HloOp τ sig (Elt Ideal))).Forall fun op => op.writes ⊆ (hw3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes,
    Finset.singleton_subset_iff, List.mem_toFinset]; exact List.mem_map_of_mem (by decide))
/-- A buffer the stretch does not write keeps its contents across it. -/
theorem keepH3 (c : Dev nD) {r : Ref sig .tc} (h : r ∉ hw3) :
    W7 m ρ c (Proc.devRef .tc r) = W6 m ρ c (Proc.devRef .tc r) :=
  StableHlo.after_of_writes_sub hostOps3 _ hostOps3_writes h

/-- The buffers host stretch 4 writes. -/
abbrev hw4 : List (Ref sig .tc) := [main_c_4, main_v47, main_v48, main_c_5, main_v49, main_v50, main_v51, main_v52, main_v53, main_v54, main_cst_6, main_v55, main_v56, main_v57, main_v58, main_cst_7, main_v59, main_v60, main_v61, main_v62]
theorem hostOps4_writes : (hostOps4 : List (HloOp τ sig (Elt Ideal))).Forall fun op => op.writes ⊆ (hw4.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes,
    Finset.singleton_subset_iff, List.mem_toFinset]; exact List.mem_map_of_mem (by decide))
/-- A buffer the stretch does not write keeps its contents across it. -/
theorem keepH4 (c : Dev nD) {r : Ref sig .tc} (h : r ∉ hw4) :
    W9 m ρ c (Proc.devRef .tc r) = W8 m ρ c (Proc.devRef .tc r) :=
  StableHlo.after_of_writes_sub hostOps4 _ hostOps4_writes h

/-! ## The arguments at every boundary -/

theorem kW1 (c : Dev nD) (r : Ref sig .tc) (h0 : r ∉ hw0 := by decide) :
    W1 m ρ c (Proc.devRef .tc r) = m ((c.tc : Thread nD τ).loc r) := (keepH0 m ρ c h0).trans rfl
theorem kW2 (c : Dev nD) (r : Ref sig .tc) (h0 : r ∉ hw0 := by decide) (n0 : ∀ w, Pipeline.arrRef spec0 w ≠ r := by decide) :
    W2 m ρ c (Proc.devRef .tc r) = m ((c.tc : Thread nD τ).loc r) := (W2_of_ne m ρ c r n0).trans (kW1 m ρ c r h0)
theorem kW3 (c : Dev nD) (r : Ref sig .tc) (h0 : r ∉ hw0 := by decide) (n0 : ∀ w, Pipeline.arrRef spec0 w ≠ r := by decide) (h1 : r ∉ hw1 := by decide) :
    W3 m ρ c (Proc.devRef .tc r) = m ((c.tc : Thread nD τ).loc r) := (keepH1 m ρ c h1).trans (kW2 m ρ c r h0 n0)
theorem kW4 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) :
    W4 m ρ c (Proc.devRef .tc r) = m ((c.tc : Thread nD τ).loc r) := (W4_of_ne m ρ c r n1).trans (kW3 m ρ c r h0 n0 h1)
theorem kW5 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) (h2 : r ∉ hw2 := by decide) :
    W5 m ρ c (Proc.devRef .tc r) = m ((c.tc : Thread nD τ).loc r) := (keepH2 m ρ c h2).trans (kW4 m ρ c r h0 n0 h1 n1)
theorem kW6 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) (h2 : r ∉ hw2 := by decide) (n2 : ∀ w, Pipeline.arrRef spec2 w ≠ r := by decide) :
    W6 m ρ c (Proc.devRef .tc r) = m ((c.tc : Thread nD τ).loc r) := (W6_of_ne m ρ c r n2).trans (kW5 m ρ c r h0 n0 h1 n1 h2)
theorem kW7 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) (h2 : r ∉ hw2 := by decide) (n2 : ∀ w, Pipeline.arrRef spec2 w ≠ r := by decide) (h3 : r ∉ hw3 := by decide) :
    W7 m ρ c (Proc.devRef .tc r) = m ((c.tc : Thread nD τ).loc r) := (keepH3 m ρ c h3).trans (kW6 m ρ c r h0 n0 h1 n1 h2 n2)
theorem kW8 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) (h2 : r ∉ hw2 := by decide) (n2 : ∀ w, Pipeline.arrRef spec2 w ≠ r := by decide) (h3 : r ∉ hw3 := by decide) (n3 : ∀ w, Pipeline.arrRef spec3 w ≠ r := by decide) :
    W8 m ρ c (Proc.devRef .tc r) = m ((c.tc : Thread nD τ).loc r) := (W8_of_ne m ρ c r n3).trans (kW7 m ρ c r h0 n0 h1 n1 h2 n2 h3)
theorem kW9 (c : Dev nD) (r : Ref sig .tc) (h0 : r ∉ hw0 := by decide) (n0 : ∀ w, Pipeline.arrRef spec0 w ≠ r := by decide) (h1 : r ∉ hw1 := by decide) (n1 : ∀ w, Pipeline.arrRef spec1 w ≠ r := by decide) (h2 : r ∉ hw2 := by decide) (n2 : ∀ w, Pipeline.arrRef spec2 w ≠ r := by decide) (h3 : r ∉ hw3 := by decide) (n3 : ∀ w, Pipeline.arrRef spec3 w ≠ r := by decide) (h4 : r ∉ hw4 := by decide) :
    W9 m ρ c (Proc.devRef .tc r) = m ((c.tc : Thread nD τ).loc r) := (keepH4 m ρ c h4).trans (kW8 m ρ c r h0 n0 h1 n1 h2 n2 h3 n3)

/-! ## The edge region -/

theorem V1_arg2 (c : Dev nD) : V1 m ρ c main_arg2 = (m ((c.tc : Thread nD τ).loc main_arg2)) := kW1 m ρ c main_arg2
theorem V1_arg4 (c : Dev nD) : V1 m ρ c main_arg4 = (m ((c.tc : Thread nD τ).loc main_arg4)) := kW1 m ρ c main_arg4
theorem V1_arg8 (c : Dev nD) : V1 m ρ c main_arg8 = (m ((c.tc : Thread nD τ).loc main_arg8)) := kW1 m ρ c main_arg8
theorem V1_v0 (c : Dev nD) : V1 m ρ c main_v0 = rowOf (m ((c.tc : Thread nD τ).loc main_arg5)) := by
  show StableHlo.after hostOps0 (W0 m ρ c) (Proc.devRef .tc main_v0) = _
  after_results
  rfl
theorem V1_v1 (c : Dev nD) : V1 m ρ c main_v1 = rowOf (m ((c.tc : Thread nD τ).loc main_arg6)) := by
  show StableHlo.after hostOps0 (W0 m ρ c) (Proc.devRef .tc main_v1) = _
  after_results
  rfl
theorem V1_v2 (c : Dev nD) : V1 m ρ c main_v2 = rowOf (m ((c.tc : Thread nD τ).loc main_arg7)) := by
  show StableHlo.after hostOps0 (W0 m ρ c) (Proc.devRef .tc main_v2) = _
  after_results
  rfl
theorem V1_v3 (c : Dev nD) : V1 m ρ c main_v3 = rowOf (m ((c.tc : Thread nD τ).loc main_arg9)) := by
  show StableHlo.after hostOps0 (W0 m ρ c) (Proc.devRef .tc main_v3) = _
  after_results
  rfl
theorem V1_v4 (c : Dev nD) : V1 m ρ c main_v4 = rowOf (m ((c.tc : Thread nD τ).loc main_arg10)) := by
  show StableHlo.after hostOps0 (W0 m ρ c) (Proc.devRef .tc main_v4) = _
  after_results
  rfl
theorem V1_v5 (c : Dev nD) : V1 m ρ c main_v5 = rowOf (m ((c.tc : Thread nD τ).loc main_arg11)) := by
  show StableHlo.after hostOps0 (W0 m ρ c) (Proc.devRef .tc main_v5) = _
  after_results
  rfl

/-- The edge features. -/
def EK (c : Dev nD) : FArr Cert.ReferenceIdeal.S800000x64 :=
  edgeFeat (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- After the edge region its output holds the edge features. -/
theorem W2_v6 (c : Dev nD) : W2 m ρ c (Proc.devRef .tc main_v6) = EK m c := by
  refine (W2_arr m ρ c 9).trans ((final0 (V1 m ρ) c).trans ?_)
  unfold edgeOut edgeRow
  rw [V1_arg2, V1_arg4, V1_arg8, V1_v0, V1_v1, V1_v2, V1_v3, V1_v4, V1_v5]
  rfl

/-! ## The edges' endpoints and the first node region -/

theorem W3_v8 (c : Dev nD) : W3 m ρ c (Proc.devRef .tc main_v8) = srcOf (m ((c.tc : Thread nD τ).loc main_arg1)) := by
  have h : W3 m ρ c (Proc.devRef .tc main_v8) = srcOf (W2 m ρ c (Proc.devRef .tc main_arg1)) := by
    show StableHlo.after hostOps1 (W2 m ρ c) (Proc.devRef .tc main_v8) = _
    after_results
    rfl
  rw [h, kW2 m ρ c main_arg1]

theorem W3_v10 (c : Dev nD) : W3 m ρ c (Proc.devRef .tc main_v10) = dstOf (m ((c.tc : Thread nD τ).loc main_arg1)) := by
  have h : W3 m ρ c (Proc.devRef .tc main_v10) = dstOf (W2 m ρ c (Proc.devRef .tc main_arg1)) := by
    show StableHlo.after hostOps1 (W2 m ρ c) (Proc.devRef .tc main_v10) = _
    after_results
    rfl
  rw [h, kW2 m ρ c main_arg1]

theorem V3_arg0 (c : Dev nD) : V3 m ρ c main_arg0 = (m ((c.tc : Thread nD τ).loc main_arg0)) := kW3 m ρ c main_arg0
theorem V3_arg12 (c : Dev nD) : V3 m ρ c main_arg12 = (m ((c.tc : Thread nD τ).loc main_arg12)) := kW3 m ρ c main_arg12
theorem V3_v11 (c : Dev nD) : V3 m ρ c main_v11 = rowOf (m ((c.tc : Thread nD τ).loc main_arg13)) := by
  have h : V3 m ρ c main_v11 = rowOf (W2 m ρ c (Proc.devRef .tc main_arg13)) := by
    show StableHlo.after hostOps1 (W2 m ρ c) (Proc.devRef .tc main_v11) = _
    after_results
    rfl
  rw [h, kW2 m ρ c main_arg13]
theorem V3_v12 (c : Dev nD) : V3 m ρ c main_v12 = rowOf (m ((c.tc : Thread nD τ).loc main_arg14)) := by
  have h : V3 m ρ c main_v12 = rowOf (W2 m ρ c (Proc.devRef .tc main_arg14)) := by
    show StableHlo.after hostOps1 (W2 m ρ c) (Proc.devRef .tc main_v12) = _
    after_results
    rfl
  rw [h, kW2 m ρ c main_arg14]
theorem V3_v13 (c : Dev nD) : V3 m ρ c main_v13 = rowOf (m ((c.tc : Thread nD τ).loc main_arg15)) := by
  have h : V3 m ρ c main_v13 = rowOf (W2 m ρ c (Proc.devRef .tc main_arg15)) := by
    show StableHlo.after hostOps1 (W2 m ρ c) (Proc.devRef .tc main_v13) = _
    after_results
    rfl
  rw [h, kW2 m ρ c main_arg15]

/-- After the first node region its output holds the first layer on every node row. -/
theorem W4_v14 (c : Dev nD) : W4 m ρ c (Proc.devRef .tc main_v14) = nodeLayer (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg15)) := by
  refine (W4_arr m ρ c 5).trans ((final1 (V3 m ρ) c).trans ?_)
  unfold layerOut1
  rw [V3_arg0, V3_arg12, V3_v11, V3_v12, V3_v13]
  rfl

/-! ## The first round and the second node region -/

/-- The node rows after the first round. -/
def X1K (c : Dev nD) : FArr Cert.ReferenceIdeal.S50000x64 := round (m ((c.tc : Thread nD τ).loc main_arg0)) (EK m c) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15))

/-- The first round. -/
theorem W5_v26 (c : Dev nD) : W5 m ρ c (Proc.devRef .tc main_v26) = round (m ((c.tc : Thread nD τ).loc main_arg0)) (EK m c) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) := by
  have h : W5 m ρ c (Proc.devRef .tc main_v26) = aggregateAt (W4 m ρ c (Proc.devRef .tc main_v14)) (W4 m ρ c (Proc.devRef .tc main_v6)) (W4 m ρ c (Proc.devRef .tc main_v8)) (W4 m ρ c (Proc.devRef .tc main_v10)) := by
    show StableHlo.after hostOps2 (W4 m ρ c) (Proc.devRef .tc main_v26) = _
    after_results
    rfl
  rw [h, W4_v14, (((W4_of_ne m ρ c main_v6 (by decide)).trans (keepH1 m ρ c (r := main_v6) (by decide))).trans (W2_v6 m ρ c)), ((W4_of_ne m ρ c main_v8 (by decide)).trans (W3_v8 m ρ c)),
    ((W4_of_ne m ρ c main_v10 (by decide)).trans (W3_v10 m ρ c))]
  rfl

theorem V5_v26 (c : Dev nD) : V5 m ρ c main_v26 = X1K m c := W5_v26 m ρ c
theorem V5_arg16 (c : Dev nD) : V5 m ρ c main_arg16 = (m ((c.tc : Thread nD τ).loc main_arg16)) := kW5 m ρ c main_arg16
theorem V5_v27 (c : Dev nD) : V5 m ρ c main_v27 = rowOf (m ((c.tc : Thread nD τ).loc main_arg17)) := by
  have h : V5 m ρ c main_v27 = rowOf (W4 m ρ c (Proc.devRef .tc main_arg17)) := by
    show StableHlo.after hostOps2 (W4 m ρ c) (Proc.devRef .tc main_v27) = _
    after_results
    rfl
  rw [h, kW4 m ρ c main_arg17]
theorem V5_v28 (c : Dev nD) : V5 m ρ c main_v28 = rowOf (m ((c.tc : Thread nD τ).loc main_arg18)) := by
  have h : V5 m ρ c main_v28 = rowOf (W4 m ρ c (Proc.devRef .tc main_arg18)) := by
    show StableHlo.after hostOps2 (W4 m ρ c) (Proc.devRef .tc main_v28) = _
    after_results
    rfl
  rw [h, kW4 m ρ c main_arg18]
theorem V5_v29 (c : Dev nD) : V5 m ρ c main_v29 = rowOf (m ((c.tc : Thread nD τ).loc main_arg19)) := by
  have h : V5 m ρ c main_v29 = rowOf (W4 m ρ c (Proc.devRef .tc main_arg19)) := by
    show StableHlo.after hostOps2 (W4 m ρ c) (Proc.devRef .tc main_v29) = _
    after_results
    rfl
  rw [h, kW4 m ρ c main_arg19]

/-- After the second node region its output holds the second layer on every row of the first round's result. -/
theorem W6_v30 (c : Dev nD) : W6 m ρ c (Proc.devRef .tc main_v30) = nodeLayer (X1K m c) (m ((c.tc : Thread nD τ).loc main_arg16)) (m ((c.tc : Thread nD τ).loc main_arg17)) (m ((c.tc : Thread nD τ).loc main_arg18)) (m ((c.tc : Thread nD τ).loc main_arg19)) := by
  refine (W6_arr m ρ c 5).trans ((final2 (V5 m ρ) c).trans ?_)
  unfold layerOut2
  rw [V5_v26, V5_arg16, V5_v27, V5_v28, V5_v29]
  rfl

/-! ## The second round and the third node region -/

/-- The node rows after the second round. -/
def X2K (c : Dev nD) : FArr Cert.ReferenceIdeal.S50000x64 := round (X1K m c) (EK m c) (m ((c.tc : Thread nD τ).loc main_arg1)) (m ((c.tc : Thread nD τ).loc main_arg16)) (m ((c.tc : Thread nD τ).loc main_arg17)) (m ((c.tc : Thread nD τ).loc main_arg18)) (m ((c.tc : Thread nD τ).loc main_arg19))

/-- The second round. -/
theorem W7_v42 (c : Dev nD) : W7 m ρ c (Proc.devRef .tc main_v42) = round (X1K m c) (EK m c) (m ((c.tc : Thread nD τ).loc main_arg1)) (m ((c.tc : Thread nD τ).loc main_arg16)) (m ((c.tc : Thread nD τ).loc main_arg17)) (m ((c.tc : Thread nD τ).loc main_arg18)) (m ((c.tc : Thread nD τ).loc main_arg19)) := by
  have h : W7 m ρ c (Proc.devRef .tc main_v42) = aggregateAt (W6 m ρ c (Proc.devRef .tc main_v30)) (W6 m ρ c (Proc.devRef .tc main_v6)) (W6 m ρ c (Proc.devRef .tc main_v8)) (W6 m ρ c (Proc.devRef .tc main_v10)) := by
    show StableHlo.after hostOps3 (W6 m ρ c) (Proc.devRef .tc main_v42) = _
    after_results
    rfl
  rw [h, W6_v30, (((((W6_of_ne m ρ c main_v6 (by decide)).trans (keepH2 m ρ c (r := main_v6) (by decide))).trans (W4_of_ne m ρ c main_v6 (by decide))).trans (keepH1 m ρ c (r := main_v6) (by decide))).trans (W2_v6 m ρ c)), ((((W6_of_ne m ρ c main_v8 (by decide)).trans (keepH2 m ρ c (r := main_v8) (by decide))).trans (W4_of_ne m ρ c main_v8 (by decide))).trans (W3_v8 m ρ c)),
    ((((W6_of_ne m ρ c main_v10 (by decide)).trans (keepH2 m ρ c (r := main_v10) (by decide))).trans (W4_of_ne m ρ c main_v10 (by decide))).trans (W3_v10 m ρ c))]
  rfl

theorem V7_v42 (c : Dev nD) : V7 m ρ c main_v42 = X2K m c := W7_v42 m ρ c
theorem V7_arg20 (c : Dev nD) : V7 m ρ c main_arg20 = (m ((c.tc : Thread nD τ).loc main_arg20)) := kW7 m ρ c main_arg20
theorem V7_v43 (c : Dev nD) : V7 m ρ c main_v43 = rowOf (m ((c.tc : Thread nD τ).loc main_arg21)) := by
  have h : V7 m ρ c main_v43 = rowOf (W6 m ρ c (Proc.devRef .tc main_arg21)) := by
    show StableHlo.after hostOps3 (W6 m ρ c) (Proc.devRef .tc main_v43) = _
    after_results
    rfl
  rw [h, kW6 m ρ c main_arg21]
theorem V7_v44 (c : Dev nD) : V7 m ρ c main_v44 = rowOf (m ((c.tc : Thread nD τ).loc main_arg22)) := by
  have h : V7 m ρ c main_v44 = rowOf (W6 m ρ c (Proc.devRef .tc main_arg22)) := by
    show StableHlo.after hostOps3 (W6 m ρ c) (Proc.devRef .tc main_v44) = _
    after_results
    rfl
  rw [h, kW6 m ρ c main_arg22]
theorem V7_v45 (c : Dev nD) : V7 m ρ c main_v45 = rowOf (m ((c.tc : Thread nD τ).loc main_arg23)) := by
  have h : V7 m ρ c main_v45 = rowOf (W6 m ρ c (Proc.devRef .tc main_arg23)) := by
    show StableHlo.after hostOps3 (W6 m ρ c) (Proc.devRef .tc main_v45) = _
    after_results
    rfl
  rw [h, kW6 m ρ c main_arg23]

/-- After the third node region its output holds the third layer on every row of the second round's result. -/
theorem W8_v46 (c : Dev nD) : W8 m ρ c (Proc.devRef .tc main_v46) = nodeLayer (X2K m c) (m ((c.tc : Thread nD τ).loc main_arg20)) (m ((c.tc : Thread nD τ).loc main_arg21)) (m ((c.tc : Thread nD τ).loc main_arg22)) (m ((c.tc : Thread nD τ).loc main_arg23)) := by
  refine (W8_arr m ρ c 5).trans ((final3 (V7 m ρ) c).trans ?_)
  unfold layerOut3
  rw [V7_v42, V7_arg20, V7_v43, V7_v44, V7_v45]
  rfl

/-! ## The third round, the pooling and the output region -/

/-- The node rows after the third round. -/
def X3K (c : Dev nD) : FArr Cert.ReferenceIdeal.S50000x64 := round (X2K m c) (EK m c) (m ((c.tc : Thread nD τ).loc main_arg1)) (m ((c.tc : Thread nD τ).loc main_arg20)) (m ((c.tc : Thread nD τ).loc main_arg21)) (m ((c.tc : Thread nD τ).loc main_arg22)) (m ((c.tc : Thread nD τ).loc main_arg23))

set_option maxHeartbeats 2000000 in
/-- The pooled rows. -/
theorem V9_v61 (c : Dev nD) : V9 m ρ c main_v61 = pool (X3K m c) (m ((c.tc : Thread nD τ).loc main_arg3)) := by
  have h : V9 m ρ c main_v61 = pool (aggregateAt (W8 m ρ c (Proc.devRef .tc main_v46)) (W8 m ρ c (Proc.devRef .tc main_v6)) (W8 m ρ c (Proc.devRef .tc main_v8)) (W8 m ρ c (Proc.devRef .tc main_v10)))
      (W8 m ρ c (Proc.devRef .tc main_arg3)) := by
    show StableHlo.after hostOps4 (W8 m ρ c) (Proc.devRef .tc main_v61) = _
    after_results_simp <;> rfl
  rw [h, W8_v46, (((((((W8_of_ne m ρ c main_v6 (by decide)).trans (keepH3 m ρ c (r := main_v6) (by decide))).trans (W6_of_ne m ρ c main_v6 (by decide))).trans (keepH2 m ρ c (r := main_v6) (by decide))).trans (W4_of_ne m ρ c main_v6 (by decide))).trans (keepH1 m ρ c (r := main_v6) (by decide))).trans (W2_v6 m ρ c)), ((((((W8_of_ne m ρ c main_v8 (by decide)).trans (keepH3 m ρ c (r := main_v8) (by decide))).trans (W6_of_ne m ρ c main_v8 (by decide))).trans (keepH2 m ρ c (r := main_v8) (by decide))).trans (W4_of_ne m ρ c main_v8 (by decide))).trans (W3_v8 m ρ c)),
    ((((((W8_of_ne m ρ c main_v10 (by decide)).trans (keepH3 m ρ c (r := main_v10) (by decide))).trans (W6_of_ne m ρ c main_v10 (by decide))).trans (keepH2 m ρ c (r := main_v10) (by decide))).trans (W4_of_ne m ρ c main_v10 (by decide))).trans (W3_v10 m ρ c)), kW8 m ρ c main_arg3]
  rfl

theorem V9_arg24 (c : Dev nD) : V9 m ρ c main_arg24 = (m ((c.tc : Thread nD τ).loc main_arg24)) := kW9 m ρ c main_arg24
theorem V9_v62 (c : Dev nD) : V9 m ρ c main_v62 = rowOf (m ((c.tc : Thread nD τ).loc main_arg25)) := by
  have h : V9 m ρ c main_v62 = rowOf (W8 m ρ c (Proc.devRef .tc main_arg25)) := by
    show StableHlo.after hostOps4 (W8 m ρ c) (Proc.devRef .tc main_v62) = _
    after_results
    rfl
  rw [h, kW8 m ρ c main_arg25]

/-- The result buffer ends at the network of the arguments. -/
theorem W10_v63 (c : Dev nD) : W10 m ρ c (Proc.devRef .tc main_v63) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (W10_arr m ρ c 3).trans ((final4 (V9 m ρ) c).trans ?_)
  unfold projOut
  rw [V9_v61, V9_arg24, V9_v62]
  rfl

end Cert.KernelIdeal.Net

end
-- ==== Proof.RefOps.lean ====
import proofs.«170720_j9457517986237_1_alg».proof.Proof.Gen.ReferenceIdeal
import Idealize.ShloMosaic.Lib.StableHlo.Run
import Idealize.ShloMosaic.Lib.Pipeline.Frame

/-!
# The reference program as a list of host operations

The reference is a straight line of 237 host operations (a called `relu`'s two operations stand in the call's
place). The list is cut here into ten consecutive segments — the five dense stages, the slices of the edge-index
array, the three gather–multiply–scatter stretches, and the pooling with the last product — so that the contents
after the whole line are the segments' results folded one after another, and each segment can be read by itself
over whatever contents it starts from. For every segment the buffers it writes are listed: a buffer outside the
list keeps its contents across the segment.
-/

set_option maxRecDepth 8192

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- Operations 1–36 of the program, in order. -/
abbrev seg1 : List (HloOp τ sig (Elt F)) :=
  [ binary main_arg2 main_arg4 main_v0 ((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S800000x64 ![0, 1] bcast_S1x64_S800000x64_0_1 : (⟨S1x64, .f32⟩ : BufTy).Contents (Elt F) → (⟨S800000x64, .f32⟩ : BufTy).Contents (Elt F)),
    binary main_v0 main_v2 main_v3 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    binary main_v3 main_cst main_v4 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v4 main_v5 (broadcastInDim S800000x1 ![0] bcast_S800000_S800000x1_0 : (⟨S800000, .f32⟩ : BufTy).Contents (Elt F) → (⟨S800000x1, .f32⟩ : BufTy).Contents (Elt F)),
    nullary main_cst_0 (constant S_ .f32 0x42800000#32),
    unary main_cst_0 main_v6 (broadcastInDim S800000x1 ![] bcast_S_S800000x1 : (⟨S_, .f32⟩ : BufTy).Contents (Elt F) → (⟨S800000x1, .f32⟩ : BufTy).Contents (Elt F)),
    binary main_v5 main_v6 main_v7 (Host.divf : (⟨S800000x1, .f32⟩ : BufTy).Contents (Elt F) → (⟨S800000x1, .f32⟩ : BufTy).Contents (Elt F) → (⟨S800000x1, .f32⟩ : BufTy).Contents (Elt F)),
    unary main_v7 main_v8 (broadcastInDim S800000x64 ![0, 1] bcast_S800000x1_S800000x64_0_1 : (⟨S800000x1, .f32⟩ : BufTy).Contents (Elt F) → (⟨S800000x64, .f32⟩ : BufTy).Contents (Elt F)),
    binary main_v3 main_v8 main_v9 (subf : (⟨S800000x64, .f32⟩ : BufTy).Contents (Elt F) → (⟨S800000x64, .f32⟩ : BufTy).Contents (Elt F) → (⟨S800000x64, .f32⟩ : BufTy).Contents (Elt F)),
    binary main_v9 main_v9 main_v10 (mulf : (⟨S800000x64, .f32⟩ : BufTy).Contents (Elt F) → (⟨S800000x64, .f32⟩ : BufTy).Contents (Elt F) → (⟨S800000x64, .f32⟩ : BufTy).Contents (Elt F)),
    nullary main_cst_1 (constant S_ .f32 0x00000000#32),
    binary main_v10 main_cst_1 main_v11 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v11 main_v12 (broadcastInDim S800000x1 ![0] bcast_S800000_S800000x1_0 : (⟨S800000, .f32⟩ : BufTy).Contents (Elt F) → (⟨S800000x1, .f32⟩ : BufTy).Contents (Elt F)),
    nullary main_cst_2 (constant S_ .f32 0x42800000#32),
    unary main_cst_2 main_v13 (broadcastInDim S800000x1 ![] bcast_S_S800000x1 : (⟨S_, .f32⟩ : BufTy).Contents (Elt F) → (⟨S800000x1, .f32⟩ : BufTy).Contents (Elt F)),
    binary main_v12 main_v13 main_v14 (Host.divf : (⟨S800000x1, .f32⟩ : BufTy).Contents (Elt F) → (⟨S800000x1, .f32⟩ : BufTy).Contents (Elt F) → (⟨S800000x1, .f32⟩ : BufTy).Contents (Elt F)),
    unary main_v7 main_v15 (broadcastInDim S800000x64 ![0, 1] bcast_S800000x1_S800000x64_0_1 : (⟨S800000x1, .f32⟩ : BufTy).Contents (Elt F) → (⟨S800000x64, .f32⟩ : BufTy).Contents (Elt F)),
    binary main_v3 main_v15 main_v16 (subf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x3727C5AC#32),
    unary main_cst_3 main_v17 (broadcastInDim S800000x1 ![] bcast_S_S800000x1 : (⟨S_, .f32⟩ : BufTy).Contents (Elt F) → (⟨S800000x1, .f32⟩ : BufTy).Contents (Elt F)),
    binary main_v14 main_v17 main_v18 (addf : (⟨S800000x1, .f32⟩ : BufTy).Contents (Elt F) → (⟨S800000x1, .f32⟩ : BufTy).Contents (Elt F) → (⟨S800000x1, .f32⟩ : BufTy).Contents (Elt F)),
    unary main_v18 main_v19 (Host.rsqrt : (⟨S800000x1, .f32⟩ : BufTy).Contents (Elt F) → (⟨S800000x1, .f32⟩ : BufTy).Contents (Elt F)),
    unary main_v19 main_v20 (broadcastInDim S800000x64 ![0, 1] bcast_S800000x1_S800000x64_0_1 : (⟨S800000x1, .f32⟩ : BufTy).Contents (Elt F) → (⟨S800000x64, .f32⟩ : BufTy).Contents (Elt F)),
    binary main_v16 main_v20 main_v21 (mulf : (⟨S800000x64, .f32⟩ : BufTy).Contents (Elt F) → (⟨S800000x64, .f32⟩ : BufTy).Contents (Elt F) → (⟨S800000x64, .f32⟩ : BufTy).Contents (Elt F)),
    unary main_arg6 main_v22 (broadcastInDim S1x64 ![1] bcast_S64_S1x64_1 : (⟨S64, .f32⟩ : BufTy).Contents (Elt F) → (⟨S1x64, .f32⟩ : BufTy).Contents (Elt F)),
    unary main_v22 main_v23 (broadcastInDim S800000x64 ![0, 1] bcast_S1x64_S800000x64_0_1 : (⟨S1x64, .f32⟩ : BufTy).Contents (Elt F) → (⟨S800000x64, .f32⟩ : BufTy).Contents (Elt F)),
    binary main_v21 main_v23 main_v24 (mulf : (⟨S800000x64, .f32⟩ : BufTy).Contents (Elt F) → (⟨S800000x64, .f32⟩ : BufTy).Contents (Elt F) → (⟨S800000x64, .f32⟩ : BufTy).Contents (Elt F)),
    unary main_arg7 main_v25 (broadcastInDim S1x64 ![1] bcast_S64_S1x64_1 : (⟨S64, .f32⟩ : BufTy).Contents (Elt F) → (⟨S1x64, .f32⟩ : BufTy).Contents (Elt F)),
    unary main_v25 main_v26 (broadcastInDim S800000x64 ![0, 1] bcast_S1x64_S800000x64_0_1 : (⟨S1x64, .f32⟩ : BufTy).Contents (Elt F) → (⟨S800000x64, .f32⟩ : BufTy).Contents (Elt F)),
    binary main_v24 main_v26 main_v27 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v27) (TRef.of (T := ⟨S800000x64, .f32⟩) main_call0_v0) (TRef.of (T := ⟨S800000x64, .f32⟩) main_v28) maximumf ]
/-- The buffers they write. -/
abbrev w1 : List (Ref sig .tc) := [main_v0, main_v1, main_v2, main_v3, main_cst, main_v4, main_v5, main_cst_0, main_v6, main_v7, main_v8, main_v9, main_v10, main_cst_1, main_v11, main_v12, main_cst_2, main_v13, main_v14, main_v15, main_v16, main_cst_3, main_v17, main_v18, main_v19, main_v20, main_v21, main_v22, main_v23, main_v24, main_v25, main_v26, main_v27, main_call0_cst, main_call0_v0, main_v28]
theorem seg1_writes : (seg1 : List (HloOp τ sig (Elt F))).Forall fun op => op.writes ⊆ (w1.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 37–72 of the program, in order. -/
abbrev seg2 : List (HloOp τ sig (Elt F)) :=
  [ binary main_v28 main_arg8 main_v29 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v30 (broadcastInDim S1x64 ![1] bcast_S64_S1x64_1 : (⟨S64, .f32⟩ : BufTy).Contents (Elt F) → (⟨S1x64, .f32⟩ : BufTy).Contents (Elt F)),
    unary main_v30 main_v31 (broadcastInDim S800000x64 ![0, 1] bcast_S1x64_S800000x64_0_1 : (⟨S1x64, .f32⟩ : BufTy).Contents (Elt F) → (⟨S800000x64, .f32⟩ : BufTy).Contents (Elt F)),
    binary main_v29 main_v31 main_v32 (addf : (⟨S800000x64, .f32⟩ : BufTy).Contents (Elt F) → (⟨S800000x64, .f32⟩ : BufTy).Contents (Elt F) → (⟨S800000x64, .f32⟩ : BufTy).Contents (Elt F)),
    nullary main_cst_4 (constant S_ .f32 0x00000000#32),
    binary main_v32 main_cst_4 main_v33 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v33 main_v34 (broadcastInDim S800000x1 ![0] bcast_S800000_S800000x1_0 : (⟨S800000, .f32⟩ : BufTy).Contents (Elt F) → (⟨S800000x1, .f32⟩ : BufTy).Contents (Elt F)),
    nullary main_cst_5 (constant S_ .f32 0x42800000#32),
    unary main_cst_5 main_v35 (broadcastInDim S800000x1 ![] bcast_S_S800000x1 : (⟨S_, .f32⟩ : BufTy).Contents (Elt F) → (⟨S800000x1, .f32⟩ : BufTy).Contents (Elt F)),
    binary main_v34 main_v35 main_v36 (Host.divf : (⟨S800000x1, .f32⟩ : BufTy).Contents (Elt F) → (⟨S800000x1, .f32⟩ : BufTy).Contents (Elt F) → (⟨S800000x1, .f32⟩ : BufTy).Contents (Elt F)),
    unary main_v36 main_v37 (broadcastInDim S800000x64 ![0, 1] bcast_S800000x1_S800000x64_0_1 : (⟨S800000x1, .f32⟩ : BufTy).Contents (Elt F) → (⟨S800000x64, .f32⟩ : BufTy).Contents (Elt F)),
    binary main_v32 main_v37 main_v38 (subf : (⟨S800000x64, .f32⟩ : BufTy).Contents (Elt F) → (⟨S800000x64, .f32⟩ : BufTy).Contents (Elt F) → (⟨S800000x64, .f32⟩ : BufTy).Contents (Elt F)),
    binary main_v38 main_v38 main_v39 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    binary main_v39 main_cst_6 main_v40 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v40 main_v41 (broadcastInDim S800000x1 ![0] bcast_S800000_S800000x1_0 : (⟨S800000, .f32⟩ : BufTy).Contents (Elt F) → (⟨S800000x1, .f32⟩ : BufTy).Contents (Elt F)),
    nullary main_cst_7 (constant S_ .f32 0x42800000#32),
    unary main_cst_7 main_v42 (broadcastInDim S800000x1 ![] bcast_S_S800000x1 : (⟨S_, .f32⟩ : BufTy).Contents (Elt F) → (⟨S800000x1, .f32⟩ : BufTy).Contents (Elt F)),
    binary main_v41 main_v42 main_v43 (Host.divf : (⟨S800000x1, .f32⟩ : BufTy).Contents (Elt F) → (⟨S800000x1, .f32⟩ : BufTy).Contents (Elt F) → (⟨S800000x1, .f32⟩ : BufTy).Contents (Elt F)),
    unary main_v36 main_v44 (broadcastInDim S800000x64 ![0, 1] bcast_S800000x1_S800000x64_0_1 : (⟨S800000x1, .f32⟩ : BufTy).Contents (Elt F) → (⟨S800000x64, .f32⟩ : BufTy).Contents (Elt F)),
    binary main_v32 main_v44 main_v45 (subf : (⟨S800000x64, .f32⟩ : BufTy).Contents (Elt F) → (⟨S800000x64, .f32⟩ : BufTy).Contents (Elt F) → (⟨S800000x64, .f32⟩ : BufTy).Contents (Elt F)),
    nullary main_cst_8 (constant S_ .f32 0x3727C5AC#32),
    unary main_cst_8 main_v46 (broadcastInDim S800000x1 ![] bcast_S_S800000x1 : (⟨S_, .f32⟩ : BufTy).Contents (Elt F) → (⟨S800000x1, .f32⟩ : BufTy).Contents (Elt F)),
    binary main_v43 main_v46 main_v47 (addf : (⟨S800000x1, .f32⟩ : BufTy).Contents (Elt F) → (⟨S800000x1, .f32⟩ : BufTy).Contents (Elt F) → (⟨S800000x1, .f32⟩ : BufTy).Contents (Elt F)),
    unary main_v47 main_v48 (Host.rsqrt : (⟨S800000x1, .f32⟩ : BufTy).Contents (Elt F) → (⟨S800000x1, .f32⟩ : BufTy).Contents (Elt F)),
    unary main_v48 main_v49 (broadcastInDim S800000x64 ![0, 1] bcast_S800000x1_S800000x64_0_1 : (⟨S800000x1, .f32⟩ : BufTy).Contents (Elt F) → (⟨S800000x64, .f32⟩ : BufTy).Contents (Elt F)),
    binary main_v45 main_v49 main_v50 (mulf : (⟨S800000x64, .f32⟩ : BufTy).Contents (Elt F) → (⟨S800000x64, .f32⟩ : BufTy).Contents (Elt F) → (⟨S800000x64, .f32⟩ : BufTy).Contents (Elt F)),
    unary main_arg10 main_v51 (broadcastInDim S1x64 ![1] bcast_S64_S1x64_1 : (⟨S64, .f32⟩ : BufTy).Contents (Elt F) → (⟨S1x64, .f32⟩ : BufTy).Contents (Elt F)),
    unary main_v51 main_v52 (broadcastInDim S800000x64 ![0, 1] bcast_S1x64_S800000x64_0_1 : (⟨S1x64, .f32⟩ : BufTy).Contents (Elt F) → (⟨S800000x64, .f32⟩ : BufTy).Contents (Elt F)),
    binary main_v50 main_v52 main_v53 (mulf : (⟨S800000x64, .f32⟩ : BufTy).Contents (Elt F) → (⟨S800000x64, .f32⟩ : BufTy).Contents (Elt F) → (⟨S800000x64, .f32⟩ : BufTy).Contents (Elt F)),
    unary main_arg11 main_v54 (broadcastInDim S1x64 ![1] bcast_S64_S1x64_1 : (⟨S64, .f32⟩ : BufTy).Contents (Elt F) → (⟨S1x64, .f32⟩ : BufTy).Contents (Elt F)),
    unary main_v54 main_v55 (broadcastInDim S800000x64 ![0, 1] bcast_S1x64_S800000x64_0_1 : (⟨S1x64, .f32⟩ : BufTy).Contents (Elt F) → (⟨S800000x64, .f32⟩ : BufTy).Contents (Elt F)),
    binary main_v53 main_v55 main_v56 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v56) (TRef.of (T := ⟨S800000x64, .f32⟩) main_call1_v0) (TRef.of (T := ⟨S800000x64, .f32⟩) main_v57) maximumf ]
/-- The buffers they write. -/
abbrev w2 : List (Ref sig .tc) := [main_v29, main_v30, main_v31, main_v32, main_cst_4, main_v33, main_v34, main_cst_5, main_v35, main_v36, main_v37, main_v38, main_v39, main_cst_6, main_v40, main_v41, main_cst_7, main_v42, main_v43, main_v44, main_v45, main_cst_8, main_v46, main_v47, main_v48, main_v49, main_v50, main_v51, main_v52, main_v53, main_v54, main_v55, main_v56, main_call1_cst, main_call1_v0, main_v57]
theorem seg2_writes : (seg2 : List (HloOp τ sig (Elt F))).Forall fun op => op.writes ⊆ (w2.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 73–76 of the program, in order. -/
abbrev seg3 : List (HloOp τ sig (Elt F)) :=
  [ unary main_arg1 main_v58 ((extractStridedSlice S1x800000 ![0, 0] · slices_S2x800000_S1x800000_0_0) : (⟨S2x800000, .i32⟩ : BufTy).Contents (Elt F) → (⟨S1x800000, .i32⟩ : BufTy).Contents (Elt F)),
    reshape main_v58 main_v59 rfl shapeCasts_S1x800000_S800000,
    unary main_arg1 main_v60 ((extractStridedSlice S1x800000 ![1, 0] · slices_S2x800000_S1x800000_1_0) : (⟨S2x800000, .i32⟩ : BufTy).Contents (Elt F) → (⟨S1x800000, .i32⟩ : BufTy).Contents (Elt F)),
    reshape main_v60 main_v61 rfl shapeCasts_S1x800000_S800000 ]
/-- The buffers they write. -/
abbrev w3 : List (Ref sig .tc) := [main_v58, main_v59, main_v60, main_v61]
theorem seg3_writes : (seg3 : List (HloOp τ sig (Elt F))).Forall fun op => op.writes ⊆ (w3.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 77–112 of the program, in order. -/
abbrev seg4 : List (HloOp τ sig (Elt F)) :=
  [ binary main_arg0 main_arg12 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    binary main_v65 main_cst_9 main_v66 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v66 main_v67 (broadcastInDim S50000x1 ![0] bcast_S50000_S50000x1_0 : (⟨S50000, .f32⟩ : BufTy).Contents (Elt F) → (⟨S50000x1, .f32⟩ : BufTy).Contents (Elt F)),
    nullary main_cst_10 (constant S_ .f32 0x42800000#32),
    unary main_cst_10 main_v68 (broadcastInDim S50000x1 ![] bcast_S_S50000x1 : (⟨S_, .f32⟩ : BufTy).Contents (Elt F) → (⟨S50000x1, .f32⟩ : BufTy).Contents (Elt F)),
    binary main_v67 main_v68 main_v69 (Host.divf : (⟨S50000x1, .f32⟩ : BufTy).Contents (Elt F) → (⟨S50000x1, .f32⟩ : BufTy).Contents (Elt F) → (⟨S50000x1, .f32⟩ : BufTy).Contents (Elt F)),
    unary main_v69 main_v70 (broadcastInDim S50000x64 ![0, 1] bcast_S50000x1_S50000x64_0_1 : (⟨S50000x1, .f32⟩ : BufTy).Contents (Elt F) → (⟨S50000x64, .f32⟩ : BufTy).Contents (Elt F)),
    binary main_v65 main_v70 main_v71 (subf : (⟨S50000x64, .f32⟩ : BufTy).Contents (Elt F) → (⟨S50000x64, .f32⟩ : BufTy).Contents (Elt F) → (⟨S50000x64, .f32⟩ : BufTy).Contents (Elt F)),
    binary main_v71 main_v71 main_v72 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    binary main_v72 main_cst_11 main_v73 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v73 main_v74 (broadcastInDim S50000x1 ![0] bcast_S50000_S50000x1_0 : (⟨S50000, .f32⟩ : BufTy).Contents (Elt F) → (⟨S50000x1, .f32⟩ : BufTy).Contents (Elt F)),
    nullary main_cst_12 (constant S_ .f32 0x42800000#32),
    unary main_cst_12 main_v75 (broadcastInDim S50000x1 ![] bcast_S_S50000x1 : (⟨S_, .f32⟩ : BufTy).Contents (Elt F) → (⟨S50000x1, .f32⟩ : BufTy).Contents (Elt F)),
    binary main_v74 main_v75 main_v76 (Host.divf : (⟨S50000x1, .f32⟩ : BufTy).Contents (Elt F) → (⟨S50000x1, .f32⟩ : BufTy).Contents (Elt F) → (⟨S50000x1, .f32⟩ : BufTy).Contents (Elt F)),
    unary main_v69 main_v77 (broadcastInDim S50000x64 ![0, 1] bcast_S50000x1_S50000x64_0_1 : (⟨S50000x1, .f32⟩ : BufTy).Contents (Elt F) → (⟨S50000x64, .f32⟩ : BufTy).Contents (Elt F)),
    binary main_v65 main_v77 main_v78 (subf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v79 (broadcastInDim S50000x1 ![] bcast_S_S50000x1 : (⟨S_, .f32⟩ : BufTy).Contents (Elt F) → (⟨S50000x1, .f32⟩ : BufTy).Contents (Elt F)),
    binary main_v76 main_v79 main_v80 (addf : (⟨S50000x1, .f32⟩ : BufTy).Contents (Elt F) → (⟨S50000x1, .f32⟩ : BufTy).Contents (Elt F) → (⟨S50000x1, .f32⟩ : BufTy).Contents (Elt F)),
    unary main_v80 main_v81 (Host.rsqrt : (⟨S50000x1, .f32⟩ : BufTy).Contents (Elt F) → (⟨S50000x1, .f32⟩ : BufTy).Contents (Elt F)),
    unary main_v81 main_v82 (broadcastInDim S50000x64 ![0, 1] bcast_S50000x1_S50000x64_0_1 : (⟨S50000x1, .f32⟩ : BufTy).Contents (Elt F) → (⟨S50000x64, .f32⟩ : BufTy).Contents (Elt F)),
    binary main_v78 main_v82 main_v83 (mulf : (⟨S50000x64, .f32⟩ : BufTy).Contents (Elt F) → (⟨S50000x64, .f32⟩ : BufTy).Contents (Elt F) → (⟨S50000x64, .f32⟩ : BufTy).Contents (Elt F)),
    unary main_arg14 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (mulf : (⟨S50000x64, .f32⟩ : BufTy).Contents (Elt F) → (⟨S50000x64, .f32⟩ : BufTy).Contents (Elt F) → (⟨S50000x64, .f32⟩ : BufTy).Contents (Elt F)),
    unary main_arg15 main_v87 (broadcastInDim S1x64 ![1] bcast_S64_S1x64_1 : (⟨S64, .f32⟩ : BufTy).Contents (Elt F) → (⟨S1x64, .f32⟩ : BufTy).Contents (Elt F)),
    unary main_v87 main_v88 (broadcastInDim S50000x64 ![0, 1] bcast_S1x64_S50000x64_0_1 : (⟨S1x64, .f32⟩ : BufTy).Contents (Elt F) → (⟨S50000x64, .f32⟩ : BufTy).Contents (Elt F)),
    binary main_v86 main_v88 main_v89 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v89) (TRef.of (T := ⟨S50000x64, .f32⟩) main_call2_v0) (TRef.of (T := ⟨S50000x64, .f32⟩) main_v90) maximumf ]
/-- The buffers they write. -/
abbrev w4 : List (Ref sig .tc) := [main_v62, main_v63, main_v64, main_v65, main_cst_9, main_v66, main_v67, main_cst_10, main_v68, main_v69, main_v70, main_v71, main_v72, main_cst_11, main_v73, main_v74, main_cst_12, main_v75, main_v76, main_v77, main_v78, main_cst_13, main_v79, main_v80, main_v81, main_v82, main_v83, main_v84, main_v85, main_v86, main_v87, main_v88, main_v89, main_call2_cst, main_call2_v0, main_v90]
theorem seg4_writes : (seg4 : List (HloOp τ sig (Elt F))).Forall fun op => op.writes ⊆ (w4.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 113–127 of the program, in order. -/
abbrev seg5 : List (HloOp τ sig (Elt F)) :=
  [ nullary main_c (constantI S_ 32 0#32),
    unary main_c main_v91 (broadcastInDim S800000 ![] bcast_S_S800000 : (⟨S_, .i32⟩ : BufTy).Contents (Elt F) → (⟨S800000, .i32⟩ : BufTy).Contents (Elt F)),
    binary main_v61 main_v91 main_v92 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v93 (broadcastInDim S800000 ![] bcast_S_S800000 : (⟨S_, .i32⟩ : BufTy).Contents (Elt F) → (⟨S800000, .i32⟩ : BufTy).Contents (Elt F)),
    binary main_v61 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v61 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v90 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v97 main_v57 main_v98 (mulf : (⟨S800000x64, .f32⟩ : BufTy).Contents (Elt F) → (⟨S800000x64, .f32⟩ : BufTy).Contents (Elt F) → (⟨S800000x64, .f32⟩ : BufTy).Contents (Elt F)),
    nullary main_cst_15 (constant S_ .f32 0x00000000#32),
    unary main_cst_15 main_v99 (broadcastInDim S50000x64 ![] bcast_S_S50000x64 : (⟨S_, .f32⟩ : BufTy).Contents (Elt F) → (⟨S50000x64, .f32⟩ : BufTy).Contents (Elt F)),
    unary main_v59 main_v100 (broadcastInDim S800000x1 ![0] bcast_S800000_S800000x1_0 : (⟨S800000, .i32⟩ : BufTy).Contents (Elt F) → (⟨S800000x1, .i32⟩ : BufTy).Contents (Elt F)),
    ternary main_v99 main_v100 main_v98 main_v101 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v90 main_v101 main_v102 (addf : (⟨S50000x64, .f32⟩ : BufTy).Contents (Elt F) → (⟨S50000x64, .f32⟩ : BufTy).Contents (Elt F) → (⟨S50000x64, .f32⟩ : BufTy).Contents (Elt F)) ]
/-- The buffers they write. -/
abbrev w5 : List (Ref sig .tc) := [main_c, main_v91, main_v92, main_c_14, main_v93, main_v94, main_v95, main_v96, main_v97, main_v98, main_cst_15, main_v99, main_v100, main_v101, main_v102]
theorem seg5_writes : (seg5 : List (HloOp τ sig (Elt F))).Forall fun op => op.writes ⊆ (w5.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 128–163 of the program, in order. -/
abbrev seg6 : List (HloOp τ sig (Elt F)) :=
  [ binary main_v102 main_arg16 main_v103 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg17 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x00000000#32),
    binary main_v106 main_cst_16 main_v107 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v107 main_v108 (broadcastInDim S50000x1 ![0] bcast_S50000_S50000x1_0 : (⟨S50000, .f32⟩ : BufTy).Contents (Elt F) → (⟨S50000x1, .f32⟩ : BufTy).Contents (Elt F)),
    nullary main_cst_17 (constant S_ .f32 0x42800000#32),
    unary main_cst_17 main_v109 (broadcastInDim S50000x1 ![] bcast_S_S50000x1 : (⟨S_, .f32⟩ : BufTy).Contents (Elt F) → (⟨S50000x1, .f32⟩ : BufTy).Contents (Elt F)),
    binary main_v108 main_v109 main_v110 (Host.divf : (⟨S50000x1, .f32⟩ : BufTy).Contents (Elt F) → (⟨S50000x1, .f32⟩ : BufTy).Contents (Elt F) → (⟨S50000x1, .f32⟩ : BufTy).Contents (Elt F)),
    unary main_v110 main_v111 (broadcastInDim S50000x64 ![0, 1] bcast_S50000x1_S50000x64_0_1 : (⟨S50000x1, .f32⟩ : BufTy).Contents (Elt F) → (⟨S50000x64, .f32⟩ : BufTy).Contents (Elt F)),
    binary main_v106 main_v111 main_v112 (subf : (⟨S50000x64, .f32⟩ : BufTy).Contents (Elt F) → (⟨S50000x64, .f32⟩ : BufTy).Contents (Elt F) → (⟨S50000x64, .f32⟩ : BufTy).Contents (Elt F)),
    binary main_v112 main_v112 main_v113 (mulf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x00000000#32),
    binary main_v113 main_cst_18 main_v114 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v114 main_v115 (broadcastInDim S50000x1 ![0] bcast_S50000_S50000x1_0 : (⟨S50000, .f32⟩ : BufTy).Contents (Elt F) → (⟨S50000x1, .f32⟩ : BufTy).Contents (Elt F)),
    nullary main_cst_19 (constant S_ .f32 0x42800000#32),
    unary main_cst_19 main_v116 (broadcastInDim S50000x1 ![] bcast_S_S50000x1 : (⟨S_, .f32⟩ : BufTy).Contents (Elt F) → (⟨S50000x1, .f32⟩ : BufTy).Contents (Elt F)),
    binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    unary main_v110 main_v118 (broadcastInDim S50000x64 ![0, 1] bcast_S50000x1_S50000x64_0_1 : (⟨S50000x1, .f32⟩ : BufTy).Contents (Elt F) → (⟨S50000x64, .f32⟩ : BufTy).Contents (Elt F)),
    binary main_v106 main_v118 main_v119 (subf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3727C5AC#32),
    unary main_cst_20 main_v120 (broadcastInDim S50000x1 ![] bcast_S_S50000x1 : (⟨S_, .f32⟩ : BufTy).Contents (Elt F) → (⟨S50000x1, .f32⟩ : BufTy).Contents (Elt F)),
    binary main_v117 main_v120 main_v121 (addf : (⟨S50000x1, .f32⟩ : BufTy).Contents (Elt F) → (⟨S50000x1, .f32⟩ : BufTy).Contents (Elt F) → (⟨S50000x1, .f32⟩ : BufTy).Contents (Elt F)),
    unary main_v121 main_v122 (Host.rsqrt : (⟨S50000x1, .f32⟩ : BufTy).Contents (Elt F) → (⟨S50000x1, .f32⟩ : BufTy).Contents (Elt F)),
    unary main_v122 main_v123 (broadcastInDim S50000x64 ![0, 1] bcast_S50000x1_S50000x64_0_1 : (⟨S50000x1, .f32⟩ : BufTy).Contents (Elt F) → (⟨S50000x64, .f32⟩ : BufTy).Contents (Elt F)),
    binary main_v119 main_v123 main_v124 (mulf : (⟨S50000x64, .f32⟩ : BufTy).Contents (Elt F) → (⟨S50000x64, .f32⟩ : BufTy).Contents (Elt F) → (⟨S50000x64, .f32⟩ : BufTy).Contents (Elt F)),
    unary main_arg18 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v124 main_v126 main_v127 (mulf : (⟨S50000x64, .f32⟩ : BufTy).Contents (Elt F) → (⟨S50000x64, .f32⟩ : BufTy).Contents (Elt F) → (⟨S50000x64, .f32⟩ : BufTy).Contents (Elt F)),
    unary main_arg19 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v130) (TRef.of (T := ⟨S50000x64, .f32⟩) main_call3_v0) (TRef.of (T := ⟨S50000x64, .f32⟩) main_v131) maximumf ]
/-- The buffers they write. -/
abbrev w6 : List (Ref sig .tc) := [main_v103, main_v104, main_v105, main_v106, main_cst_16, main_v107, main_v108, main_cst_17, main_v109, main_v110, main_v111, main_v112, main_v113, main_cst_18, main_v114, main_v115, main_cst_19, main_v116, main_v117, main_v118, main_v119, main_cst_20, main_v120, main_v121, main_v122, main_v123, main_v124, main_v125, main_v126, main_v127, main_v128, main_v129, main_v130, main_call3_cst, main_call3_v0, main_v131]
theorem seg6_writes : (seg6 : List (HloOp τ sig (Elt F))).Forall fun op => op.writes ⊆ (w6.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 164–178 of the program, in order. -/
abbrev seg7 : List (HloOp τ sig (Elt F)) :=
  [ nullary main_c_21 (constantI S_ 32 0#32),
    unary main_c_21 main_v132 (broadcastInDim S800000 ![] bcast_S_S800000 : (⟨S_, .i32⟩ : BufTy).Contents (Elt F) → (⟨S800000, .i32⟩ : BufTy).Contents (Elt F)),
    binary main_v61 main_v132 main_v133 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v134 (broadcastInDim S800000 ![] bcast_S_S800000 : (⟨S_, .i32⟩ : BufTy).Contents (Elt F) → (⟨S800000, .i32⟩ : BufTy).Contents (Elt F)),
    binary main_v61 main_v134 main_v135 (addi : (⟨S800000, .i32⟩ : BufTy).Contents (Elt F) → (⟨S800000, .i32⟩ : BufTy).Contents (Elt F) → (⟨S800000, .i32⟩ : BufTy).Contents (Elt F)),
    ternary main_v133 main_v135 main_v61 main_v136 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v136 main_v137 (broadcastInDim S800000x1 ![0] bcast_S800000_S800000x1_0 : (⟨S800000, .i32⟩ : BufTy).Contents (Elt F) → (⟨S800000x1, .i32⟩ : BufTy).Contents (Elt F)),
    binary main_v131 main_v137 main_v138 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v138 main_v57 main_v139 (mulf : (⟨S800000x64, .f32⟩ : BufTy).Contents (Elt F) → (⟨S800000x64, .f32⟩ : BufTy).Contents (Elt F) → (⟨S800000x64, .f32⟩ : BufTy).Contents (Elt F)),
    nullary main_cst_23 (constant S_ .f32 0x00000000#32),
    unary main_cst_23 main_v140 (broadcastInDim S50000x64 ![] bcast_S_S50000x64 : (⟨S_, .f32⟩ : BufTy).Contents (Elt F) → (⟨S50000x64, .f32⟩ : BufTy).Contents (Elt F)),
    unary main_v59 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v131 main_v142 main_v143 (addf : (⟨S50000x64, .f32⟩ : BufTy).Contents (Elt F) → (⟨S50000x64, .f32⟩ : BufTy).Contents (Elt F) → (⟨S50000x64, .f32⟩ : BufTy).Contents (Elt F)) ]
/-- The buffers they write. -/
abbrev w7 : List (Ref sig .tc) := [main_c_21, main_v132, main_v133, main_c_22, main_v134, main_v135, main_v136, main_v137, main_v138, main_v139, main_cst_23, main_v140, main_v141, main_v142, main_v143]
theorem seg7_writes : (seg7 : List (HloOp τ sig (Elt F))).Forall fun op => op.writes ⊆ (w7.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 179–214 of the program, in order. -/
abbrev seg8 : List (HloOp τ sig (Elt F)) :=
  [ binary main_v143 main_arg20 main_v144 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg21 main_v145 (broadcastInDim S1x64 ![1] bcast_S64_S1x64_1 : (⟨S64, .f32⟩ : BufTy).Contents (Elt F) → (⟨S1x64, .f32⟩ : BufTy).Contents (Elt F)),
    unary main_v145 main_v146 (broadcastInDim S50000x64 ![0, 1] bcast_S1x64_S50000x64_0_1 : (⟨S1x64, .f32⟩ : BufTy).Contents (Elt F) → (⟨S50000x64, .f32⟩ : BufTy).Contents (Elt F)),
    binary main_v144 main_v146 main_v147 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x00000000#32),
    binary main_v147 main_cst_24 main_v148 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v148 main_v149 (broadcastInDim S50000x1 ![0] bcast_S50000_S50000x1_0 : (⟨S50000, .f32⟩ : BufTy).Contents (Elt F) → (⟨S50000x1, .f32⟩ : BufTy).Contents (Elt F)),
    nullary main_cst_25 (constant S_ .f32 0x42800000#32),
    unary main_cst_25 main_v150 (broadcastInDim S50000x1 ![] bcast_S_S50000x1 : (⟨S_, .f32⟩ : BufTy).Contents (Elt F) → (⟨S50000x1, .f32⟩ : BufTy).Contents (Elt F)),
    binary main_v149 main_v150 main_v151 (Host.divf : (⟨S50000x1, .f32⟩ : BufTy).Contents (Elt F) → (⟨S50000x1, .f32⟩ : BufTy).Contents (Elt F) → (⟨S50000x1, .f32⟩ : BufTy).Contents (Elt F)),
    unary main_v151 main_v152 (broadcastInDim S50000x64 ![0, 1] bcast_S50000x1_S50000x64_0_1 : (⟨S50000x1, .f32⟩ : BufTy).Contents (Elt F) → (⟨S50000x64, .f32⟩ : BufTy).Contents (Elt F)),
    binary main_v147 main_v152 main_v153 (subf : (⟨S50000x64, .f32⟩ : BufTy).Contents (Elt F) → (⟨S50000x64, .f32⟩ : BufTy).Contents (Elt F) → (⟨S50000x64, .f32⟩ : BufTy).Contents (Elt F)),
    binary main_v153 main_v153 main_v154 (mulf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    binary main_v154 main_cst_26 main_v155 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v155 main_v156 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42800000#32),
    unary main_cst_27 main_v157 (broadcastInDim S50000x1 ![] bcast_S_S50000x1 : (⟨S_, .f32⟩ : BufTy).Contents (Elt F) → (⟨S50000x1, .f32⟩ : BufTy).Contents (Elt F)),
    binary main_v156 main_v157 main_v158 (Host.divf : (⟨S50000x1, .f32⟩ : BufTy).Contents (Elt F) → (⟨S50000x1, .f32⟩ : BufTy).Contents (Elt F) → (⟨S50000x1, .f32⟩ : BufTy).Contents (Elt F)),
    unary main_v151 main_v159 (broadcastInDim S50000x64 ![0, 1] bcast_S50000x1_S50000x64_0_1 : (⟨S50000x1, .f32⟩ : BufTy).Contents (Elt F) → (⟨S50000x64, .f32⟩ : BufTy).Contents (Elt F)),
    binary main_v147 main_v159 main_v160 (subf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x3727C5AC#32),
    unary main_cst_28 main_v161 (broadcastInDim S50000x1 ![] bcast_S_S50000x1 : (⟨S_, .f32⟩ : BufTy).Contents (Elt F) → (⟨S50000x1, .f32⟩ : BufTy).Contents (Elt F)),
    binary main_v158 main_v161 main_v162 (addf : (⟨S50000x1, .f32⟩ : BufTy).Contents (Elt F) → (⟨S50000x1, .f32⟩ : BufTy).Contents (Elt F) → (⟨S50000x1, .f32⟩ : BufTy).Contents (Elt F)),
    unary main_v162 main_v163 (Host.rsqrt : (⟨S50000x1, .f32⟩ : BufTy).Contents (Elt F) → (⟨S50000x1, .f32⟩ : BufTy).Contents (Elt F)),
    unary main_v163 main_v164 (broadcastInDim S50000x64 ![0, 1] bcast_S50000x1_S50000x64_0_1 : (⟨S50000x1, .f32⟩ : BufTy).Contents (Elt F) → (⟨S50000x64, .f32⟩ : BufTy).Contents (Elt F)),
    binary main_v160 main_v164 main_v165 (mulf : (⟨S50000x64, .f32⟩ : BufTy).Contents (Elt F) → (⟨S50000x64, .f32⟩ : BufTy).Contents (Elt F) → (⟨S50000x64, .f32⟩ : BufTy).Contents (Elt F)),
    unary main_arg22 main_v166 (broadcastInDim S1x64 ![1] bcast_S64_S1x64_1 : (⟨S64, .f32⟩ : BufTy).Contents (Elt F) → (⟨S1x64, .f32⟩ : BufTy).Contents (Elt F)),
    unary main_v166 main_v167 (broadcastInDim S50000x64 ![0, 1] bcast_S1x64_S50000x64_0_1 : (⟨S1x64, .f32⟩ : BufTy).Contents (Elt F) → (⟨S50000x64, .f32⟩ : BufTy).Contents (Elt F)),
    binary main_v165 main_v167 main_v168 (mulf : (⟨S50000x64, .f32⟩ : BufTy).Contents (Elt F) → (⟨S50000x64, .f32⟩ : BufTy).Contents (Elt F) → (⟨S50000x64, .f32⟩ : BufTy).Contents (Elt F)),
    unary main_arg23 main_v169 (broadcastInDim S1x64 ![1] bcast_S64_S1x64_1 : (⟨S64, .f32⟩ : BufTy).Contents (Elt F) → (⟨S1x64, .f32⟩ : BufTy).Contents (Elt F)),
    unary main_v169 main_v170 (broadcastInDim S50000x64 ![0, 1] bcast_S1x64_S50000x64_0_1 : (⟨S1x64, .f32⟩ : BufTy).Contents (Elt F) → (⟨S50000x64, .f32⟩ : BufTy).Contents (Elt F)),
    binary main_v168 main_v170 main_v171 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v171) (TRef.of (T := ⟨S50000x64, .f32⟩) main_call4_v0) (TRef.of (T := ⟨S50000x64, .f32⟩) main_v172) maximumf ]
/-- The buffers they write. -/
abbrev w8 : List (Ref sig .tc) := [main_v144, main_v145, main_v146, main_v147, main_cst_24, main_v148, main_v149, main_cst_25, main_v150, main_v151, main_v152, main_v153, main_v154, main_cst_26, main_v155, main_v156, main_cst_27, main_v157, main_v158, main_v159, main_v160, main_cst_28, main_v161, main_v162, main_v163, main_v164, main_v165, main_v166, main_v167, main_v168, main_v169, main_v170, main_v171, main_call4_cst, main_call4_v0, main_v172]
theorem seg8_writes : (seg8 : List (HloOp τ sig (Elt F))).Forall fun op => op.writes ⊆ (w8.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 215–229 of the program, in order. -/
abbrev seg9 : List (HloOp τ sig (Elt F)) :=
  [ nullary main_c_29 (constantI S_ 32 0#32),
    unary main_c_29 main_v173 (broadcastInDim S800000 ![] bcast_S_S800000 : (⟨S_, .i32⟩ : BufTy).Contents (Elt F) → (⟨S800000, .i32⟩ : BufTy).Contents (Elt F)),
    binary main_v61 main_v173 main_v174 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v175 (broadcastInDim S800000 ![] bcast_S_S800000 : (⟨S_, .i32⟩ : BufTy).Contents (Elt F) → (⟨S800000, .i32⟩ : BufTy).Contents (Elt F)),
    binary main_v61 main_v175 main_v176 (addi : (⟨S800000, .i32⟩ : BufTy).Contents (Elt F) → (⟨S800000, .i32⟩ : BufTy).Contents (Elt F) → (⟨S800000, .i32⟩ : BufTy).Contents (Elt F)),
    ternary main_v174 main_v176 main_v61 main_v177 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v177 main_v178 (broadcastInDim S800000x1 ![0] bcast_S800000_S800000x1_0 : (⟨S800000, .i32⟩ : BufTy).Contents (Elt F) → (⟨S800000x1, .i32⟩ : BufTy).Contents (Elt F)),
    binary main_v172 main_v178 main_v179 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v179 main_v57 main_v180 (mulf : (⟨S800000x64, .f32⟩ : BufTy).Contents (Elt F) → (⟨S800000x64, .f32⟩ : BufTy).Contents (Elt F) → (⟨S800000x64, .f32⟩ : BufTy).Contents (Elt F)),
    nullary main_cst_31 (constant S_ .f32 0x00000000#32),
    unary main_cst_31 main_v181 (broadcastInDim S50000x64 ![] bcast_S_S50000x64 : (⟨S_, .f32⟩ : BufTy).Contents (Elt F) → (⟨S50000x64, .f32⟩ : BufTy).Contents (Elt F)),
    unary main_v59 main_v182 (broadcastInDim S800000x1 ![0] bcast_S800000_S800000x1_0 : (⟨S800000, .i32⟩ : BufTy).Contents (Elt F) → (⟨S800000x1, .i32⟩ : BufTy).Contents (Elt F)),
    ternary main_v181 main_v182 main_v180 main_v183 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v172 main_v183 main_v184 (addf : (⟨S50000x64, .f32⟩ : BufTy).Contents (Elt F) → (⟨S50000x64, .f32⟩ : BufTy).Contents (Elt F) → (⟨S50000x64, .f32⟩ : BufTy).Contents (Elt F)) ]
/-- The buffers they write. -/
abbrev w9 : List (Ref sig .tc) := [main_c_29, main_v173, main_v174, main_c_30, main_v175, main_v176, main_v177, main_v178, main_v179, main_v180, main_cst_31, main_v181, main_v182, main_v183, main_v184]
theorem seg9_writes : (seg9 : List (HloOp τ sig (Elt F))).Forall fun op => op.writes ⊆ (w9.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- Operations 230–237 of the program, in order. -/
abbrev seg10 : List (HloOp τ sig (Elt F)) :=
  [ nullary main_cst_32 (constant S_ .f32 0x00000000#32),
    unary main_cst_32 main_v185 (broadcastInDim S512x64 ![] bcast_S_S512x64 : (⟨S_, .f32⟩ : BufTy).Contents (Elt F) → (⟨S512x64, .f32⟩ : BufTy).Contents (Elt F)),
    unary main_arg3 main_v186 (broadcastInDim S50000x1 ![0] bcast_S50000_S50000x1_0 : (⟨S50000, .i32⟩ : BufTy).Contents (Elt F) → (⟨S50000x1, .i32⟩ : BufTy).Contents (Elt F)),
    ternary main_v185 main_v186 main_v184 main_v187 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    binary main_v187 main_arg24 main_v188 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg25 main_v189 (broadcastInDim S1x64 ![1] bcast_S64_S1x64_1 : (⟨S64, .f32⟩ : BufTy).Contents (Elt F) → (⟨S1x64, .f32⟩ : BufTy).Contents (Elt F)),
    unary main_v189 main_v190 (broadcastInDim S512x64 ![0, 1] bcast_S1x64_S512x64_0_1 : (⟨S1x64, .f32⟩ : BufTy).Contents (Elt F) → (⟨S512x64, .f32⟩ : BufTy).Contents (Elt F)),
    binary main_v188 main_v190 main_v191 (addf : (⟨S512x64, .f32⟩ : BufTy).Contents (Elt F) → (⟨S512x64, .f32⟩ : BufTy).Contents (Elt F) → (⟨S512x64, .f32⟩ : BufTy).Contents (Elt F)) ]
/-- The buffers they write. -/
abbrev w10 : List (Ref sig .tc) := [main_cst_32, main_v185, main_v186, main_v187, main_v188, main_v189, main_v190, main_v191]
theorem seg10_writes : (seg10 : List (HloOp τ sig (Elt F))).Forall fun op => op.writes ⊆ (w10.map (Proc.devRef (τ := τ) .tc)).toFinset := by
  simp only [List.Forall]
  repeat' apply And.intro
  all_goals (simp only [TRef.nullary, TRef.unary, TRef.binary, TRef.of, nullary_writes, unary_writes, binary_writes, ternary_writes, reshape_writes,
    Finset.singleton_subset_iff, List.mem_toFinset]; exact List.mem_map_of_mem (by decide))

/-- The whole program's operations, in order. -/
abbrev ops : List (HloOp τ sig (Elt F)) :=
  [ binary main_arg2 main_arg4 main_v0 ((fun l r => Host.dotGeneral dot_S800000x16_S16x64_S800000x64_1_0_0_1_n_n none l r) : (⟨S800000x16, .f32⟩ : BufTy).Contents (Elt F) → (⟨S16x64, .f32⟩ : BufTy).Contents (Elt F) → (⟨S800000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S800000x64 ![0, 1] bcast_S1x64_S800000x64_0_1 : (⟨S1x64, .f32⟩ : BufTy).Contents (Elt F) → (⟨S800000x64, .f32⟩ : BufTy).Contents (Elt F)),
    binary main_v0 main_v2 main_v3 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    binary main_v3 main_cst main_v4 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v4 main_v5 (broadcastInDim S800000x1 ![0] bcast_S800000_S800000x1_0 : (⟨S800000, .f32⟩ : BufTy).Contents (Elt F) → (⟨S800000x1, .f32⟩ : BufTy).Contents (Elt F)),
    nullary main_cst_0 (constant S_ .f32 0x42800000#32),
    unary main_cst_0 main_v6 (broadcastInDim S800000x1 ![] bcast_S_S800000x1 : (⟨S_, .f32⟩ : BufTy).Contents (Elt F) → (⟨S800000x1, .f32⟩ : BufTy).Contents (Elt F)),
    binary main_v5 main_v6 main_v7 (Host.divf : (⟨S800000x1, .f32⟩ : BufTy).Contents (Elt F) → (⟨S800000x1, .f32⟩ : BufTy).Contents (Elt F) → (⟨S800000x1, .f32⟩ : BufTy).Contents (Elt F)),
    unary main_v7 main_v8 (broadcastInDim S800000x64 ![0, 1] bcast_S800000x1_S800000x64_0_1 : (⟨S800000x1, .f32⟩ : BufTy).Contents (Elt F) → (⟨S800000x64, .f32⟩ : BufTy).Contents (Elt F)),
    binary main_v3 main_v8 main_v9 (subf : (⟨S800000x64, .f32⟩ : BufTy).Contents (Elt F) → (⟨S800000x64, .f32⟩ : BufTy).Contents (Elt F) → (⟨S800000x64, .f32⟩ : BufTy).Contents (Elt F)),
    binary main_v9 main_v9 main_v10 (mulf : (⟨S800000x64, .f32⟩ : BufTy).Contents (Elt F) → (⟨S800000x64, .f32⟩ : BufTy).Contents (Elt F) → (⟨S800000x64, .f32⟩ : BufTy).Contents (Elt F)),
    nullary main_cst_1 (constant S_ .f32 0x00000000#32),
    binary main_v10 main_cst_1 main_v11 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v11 main_v12 (broadcastInDim S800000x1 ![0] bcast_S800000_S800000x1_0 : (⟨S800000, .f32⟩ : BufTy).Contents (Elt F) → (⟨S800000x1, .f32⟩ : BufTy).Contents (Elt F)),
    nullary main_cst_2 (constant S_ .f32 0x42800000#32),
    unary main_cst_2 main_v13 (broadcastInDim S800000x1 ![] bcast_S_S800000x1 : (⟨S_, .f32⟩ : BufTy).Contents (Elt F) → (⟨S800000x1, .f32⟩ : BufTy).Contents (Elt F)),
    binary main_v12 main_v13 main_v14 (Host.divf : (⟨S800000x1, .f32⟩ : BufTy).Contents (Elt F) → (⟨S800000x1, .f32⟩ : BufTy).Contents (Elt F) → (⟨S800000x1, .f32⟩ : BufTy).Contents (Elt F)),
    unary main_v7 main_v15 (broadcastInDim S800000x64 ![0, 1] bcast_S800000x1_S800000x64_0_1 : (⟨S800000x1, .f32⟩ : BufTy).Contents (Elt F) → (⟨S800000x64, .f32⟩ : BufTy).Contents (Elt F)),
    binary main_v3 main_v15 main_v16 (subf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x3727C5AC#32),
    unary main_cst_3 main_v17 (broadcastInDim S800000x1 ![] bcast_S_S800000x1 : (⟨S_, .f32⟩ : BufTy).Contents (Elt F) → (⟨S800000x1, .f32⟩ : BufTy).Contents (Elt F)),
    binary main_v14 main_v17 main_v18 (addf : (⟨S800000x1, .f32⟩ : BufTy).Contents (Elt F) → (⟨S800000x1, .f32⟩ : BufTy).Contents (Elt F) → (⟨S800000x1, .f32⟩ : BufTy).Contents (Elt F)),
    unary main_v18 main_v19 (Host.rsqrt : (⟨S800000x1, .f32⟩ : BufTy).Contents (Elt F) → (⟨S800000x1, .f32⟩ : BufTy).Contents (Elt F)),
    unary main_v19 main_v20 (broadcastInDim S800000x64 ![0, 1] bcast_S800000x1_S800000x64_0_1 : (⟨S800000x1, .f32⟩ : BufTy).Contents (Elt F) → (⟨S800000x64, .f32⟩ : BufTy).Contents (Elt F)),
    binary main_v16 main_v20 main_v21 (mulf : (⟨S800000x64, .f32⟩ : BufTy).Contents (Elt F) → (⟨S800000x64, .f32⟩ : BufTy).Contents (Elt F) → (⟨S800000x64, .f32⟩ : BufTy).Contents (Elt F)),
    unary main_arg6 main_v22 (broadcastInDim S1x64 ![1] bcast_S64_S1x64_1 : (⟨S64, .f32⟩ : BufTy).Contents (Elt F) → (⟨S1x64, .f32⟩ : BufTy).Contents (Elt F)),
    unary main_v22 main_v23 (broadcastInDim S800000x64 ![0, 1] bcast_S1x64_S800000x64_0_1 : (⟨S1x64, .f32⟩ : BufTy).Contents (Elt F) → (⟨S800000x64, .f32⟩ : BufTy).Contents (Elt F)),
    binary main_v21 main_v23 main_v24 (mulf : (⟨S800000x64, .f32⟩ : BufTy).Contents (Elt F) → (⟨S800000x64, .f32⟩ : BufTy).Contents (Elt F) → (⟨S800000x64, .f32⟩ : BufTy).Contents (Elt F)),
    unary main_arg7 main_v25 (broadcastInDim S1x64 ![1] bcast_S64_S1x64_1 : (⟨S64, .f32⟩ : BufTy).Contents (Elt F) → (⟨S1x64, .f32⟩ : BufTy).Contents (Elt F)),
    unary main_v25 main_v26 (broadcastInDim S800000x64 ![0, 1] bcast_S1x64_S800000x64_0_1 : (⟨S1x64, .f32⟩ : BufTy).Contents (Elt F) → (⟨S800000x64, .f32⟩ : BufTy).Contents (Elt F)),
    binary main_v24 main_v26 main_v27 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v27) (TRef.of (T := ⟨S800000x64, .f32⟩) main_call0_v0) (TRef.of (T := ⟨S800000x64, .f32⟩) main_v28) maximumf,
    binary main_v28 main_arg8 main_v29 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v30 (broadcastInDim S1x64 ![1] bcast_S64_S1x64_1 : (⟨S64, .f32⟩ : BufTy).Contents (Elt F) → (⟨S1x64, .f32⟩ : BufTy).Contents (Elt F)),
    unary main_v30 main_v31 (broadcastInDim S800000x64 ![0, 1] bcast_S1x64_S800000x64_0_1 : (⟨S1x64, .f32⟩ : BufTy).Contents (Elt F) → (⟨S800000x64, .f32⟩ : BufTy).Contents (Elt F)),
    binary main_v29 main_v31 main_v32 (addf : (⟨S800000x64, .f32⟩ : BufTy).Contents (Elt F) → (⟨S800000x64, .f32⟩ : BufTy).Contents (Elt F) → (⟨S800000x64, .f32⟩ : BufTy).Contents (Elt F)),
    nullary main_cst_4 (constant S_ .f32 0x00000000#32),
    binary main_v32 main_cst_4 main_v33 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v33 main_v34 (broadcastInDim S800000x1 ![0] bcast_S800000_S800000x1_0 : (⟨S800000, .f32⟩ : BufTy).Contents (Elt F) → (⟨S800000x1, .f32⟩ : BufTy).Contents (Elt F)),
    nullary main_cst_5 (constant S_ .f32 0x42800000#32),
    unary main_cst_5 main_v35 (broadcastInDim S800000x1 ![] bcast_S_S800000x1 : (⟨S_, .f32⟩ : BufTy).Contents (Elt F) → (⟨S800000x1, .f32⟩ : BufTy).Contents (Elt F)),
    binary main_v34 main_v35 main_v36 (Host.divf : (⟨S800000x1, .f32⟩ : BufTy).Contents (Elt F) → (⟨S800000x1, .f32⟩ : BufTy).Contents (Elt F) → (⟨S800000x1, .f32⟩ : BufTy).Contents (Elt F)),
    unary main_v36 main_v37 (broadcastInDim S800000x64 ![0, 1] bcast_S800000x1_S800000x64_0_1 : (⟨S800000x1, .f32⟩ : BufTy).Contents (Elt F) → (⟨S800000x64, .f32⟩ : BufTy).Contents (Elt F)),
    binary main_v32 main_v37 main_v38 (subf : (⟨S800000x64, .f32⟩ : BufTy).Contents (Elt F) → (⟨S800000x64, .f32⟩ : BufTy).Contents (Elt F) → (⟨S800000x64, .f32⟩ : BufTy).Contents (Elt F)),
    binary main_v38 main_v38 main_v39 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    binary main_v39 main_cst_6 main_v40 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v40 main_v41 (broadcastInDim S800000x1 ![0] bcast_S800000_S800000x1_0 : (⟨S800000, .f32⟩ : BufTy).Contents (Elt F) → (⟨S800000x1, .f32⟩ : BufTy).Contents (Elt F)),
    nullary main_cst_7 (constant S_ .f32 0x42800000#32),
    unary main_cst_7 main_v42 (broadcastInDim S800000x1 ![] bcast_S_S800000x1 : (⟨S_, .f32⟩ : BufTy).Contents (Elt F) → (⟨S800000x1, .f32⟩ : BufTy).Contents (Elt F)),
    binary main_v41 main_v42 main_v43 (Host.divf : (⟨S800000x1, .f32⟩ : BufTy).Contents (Elt F) → (⟨S800000x1, .f32⟩ : BufTy).Contents (Elt F) → (⟨S800000x1, .f32⟩ : BufTy).Contents (Elt F)),
    unary main_v36 main_v44 (broadcastInDim S800000x64 ![0, 1] bcast_S800000x1_S800000x64_0_1 : (⟨S800000x1, .f32⟩ : BufTy).Contents (Elt F) → (⟨S800000x64, .f32⟩ : BufTy).Contents (Elt F)),
    binary main_v32 main_v44 main_v45 (subf : (⟨S800000x64, .f32⟩ : BufTy).Contents (Elt F) → (⟨S800000x64, .f32⟩ : BufTy).Contents (Elt F) → (⟨S800000x64, .f32⟩ : BufTy).Contents (Elt F)),
    nullary main_cst_8 (constant S_ .f32 0x3727C5AC#32),
    unary main_cst_8 main_v46 (broadcastInDim S800000x1 ![] bcast_S_S800000x1 : (⟨S_, .f32⟩ : BufTy).Contents (Elt F) → (⟨S800000x1, .f32⟩ : BufTy).Contents (Elt F)),
    binary main_v43 main_v46 main_v47 (addf : (⟨S800000x1, .f32⟩ : BufTy).Contents (Elt F) → (⟨S800000x1, .f32⟩ : BufTy).Contents (Elt F) → (⟨S800000x1, .f32⟩ : BufTy).Contents (Elt F)),
    unary main_v47 main_v48 (Host.rsqrt : (⟨S800000x1, .f32⟩ : BufTy).Contents (Elt F) → (⟨S800000x1, .f32⟩ : BufTy).Contents (Elt F)),
    unary main_v48 main_v49 (broadcastInDim S800000x64 ![0, 1] bcast_S800000x1_S800000x64_0_1 : (⟨S800000x1, .f32⟩ : BufTy).Contents (Elt F) → (⟨S800000x64, .f32⟩ : BufTy).Contents (Elt F)),
    binary main_v45 main_v49 main_v50 (mulf : (⟨S800000x64, .f32⟩ : BufTy).Contents (Elt F) → (⟨S800000x64, .f32⟩ : BufTy).Contents (Elt F) → (⟨S800000x64, .f32⟩ : BufTy).Contents (Elt F)),
    unary main_arg10 main_v51 (broadcastInDim S1x64 ![1] bcast_S64_S1x64_1 : (⟨S64, .f32⟩ : BufTy).Contents (Elt F) → (⟨S1x64, .f32⟩ : BufTy).Contents (Elt F)),
    unary main_v51 main_v52 (broadcastInDim S800000x64 ![0, 1] bcast_S1x64_S800000x64_0_1 : (⟨S1x64, .f32⟩ : BufTy).Contents (Elt F) → (⟨S800000x64, .f32⟩ : BufTy).Contents (Elt F)),
    binary main_v50 main_v52 main_v53 (mulf : (⟨S800000x64, .f32⟩ : BufTy).Contents (Elt F) → (⟨S800000x64, .f32⟩ : BufTy).Contents (Elt F) → (⟨S800000x64, .f32⟩ : BufTy).Contents (Elt F)),
    unary main_arg11 main_v54 (broadcastInDim S1x64 ![1] bcast_S64_S1x64_1 : (⟨S64, .f32⟩ : BufTy).Contents (Elt F) → (⟨S1x64, .f32⟩ : BufTy).Contents (Elt F)),
    unary main_v54 main_v55 (broadcastInDim S800000x64 ![0, 1] bcast_S1x64_S800000x64_0_1 : (⟨S1x64, .f32⟩ : BufTy).Contents (Elt F) → (⟨S800000x64, .f32⟩ : BufTy).Contents (Elt F)),
    binary main_v53 main_v55 main_v56 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v56) (TRef.of (T := ⟨S800000x64, .f32⟩) main_call1_v0) (TRef.of (T := ⟨S800000x64, .f32⟩) main_v57) maximumf,
    unary main_arg1 main_v58 ((extractStridedSlice S1x800000 ![0, 0] · slices_S2x800000_S1x800000_0_0) : (⟨S2x800000, .i32⟩ : BufTy).Contents (Elt F) → (⟨S1x800000, .i32⟩ : BufTy).Contents (Elt F)),
    reshape main_v58 main_v59 rfl shapeCasts_S1x800000_S800000,
    unary main_arg1 main_v60 ((extractStridedSlice S1x800000 ![1, 0] · slices_S2x800000_S1x800000_1_0) : (⟨S2x800000, .i32⟩ : BufTy).Contents (Elt F) → (⟨S1x800000, .i32⟩ : BufTy).Contents (Elt F)),
    reshape main_v60 main_v61 rfl shapeCasts_S1x800000_S800000,
    binary main_arg0 main_arg12 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    binary main_v65 main_cst_9 main_v66 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v66 main_v67 (broadcastInDim S50000x1 ![0] bcast_S50000_S50000x1_0 : (⟨S50000, .f32⟩ : BufTy).Contents (Elt F) → (⟨S50000x1, .f32⟩ : BufTy).Contents (Elt F)),
    nullary main_cst_10 (constant S_ .f32 0x42800000#32),
    unary main_cst_10 main_v68 (broadcastInDim S50000x1 ![] bcast_S_S50000x1 : (⟨S_, .f32⟩ : BufTy).Contents (Elt F) → (⟨S50000x1, .f32⟩ : BufTy).Contents (Elt F)),
    binary main_v67 main_v68 main_v69 (Host.divf : (⟨S50000x1, .f32⟩ : BufTy).Contents (Elt F) → (⟨S50000x1, .f32⟩ : BufTy).Contents (Elt F) → (⟨S50000x1, .f32⟩ : BufTy).Contents (Elt F)),
    unary main_v69 main_v70 (broadcastInDim S50000x64 ![0, 1] bcast_S50000x1_S50000x64_0_1 : (⟨S50000x1, .f32⟩ : BufTy).Contents (Elt F) → (⟨S50000x64, .f32⟩ : BufTy).Contents (Elt F)),
    binary main_v65 main_v70 main_v71 (subf : (⟨S50000x64, .f32⟩ : BufTy).Contents (Elt F) → (⟨S50000x64, .f32⟩ : BufTy).Contents (Elt F) → (⟨S50000x64, .f32⟩ : BufTy).Contents (Elt F)),
    binary main_v71 main_v71 main_v72 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    binary main_v72 main_cst_11 main_v73 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v73 main_v74 (broadcastInDim S50000x1 ![0] bcast_S50000_S50000x1_0 : (⟨S50000, .f32⟩ : BufTy).Contents (Elt F) → (⟨S50000x1, .f32⟩ : BufTy).Contents (Elt F)),
    nullary main_cst_12 (constant S_ .f32 0x42800000#32),
    unary main_cst_12 main_v75 (broadcastInDim S50000x1 ![] bcast_S_S50000x1 : (⟨S_, .f32⟩ : BufTy).Contents (Elt F) → (⟨S50000x1, .f32⟩ : BufTy).Contents (Elt F)),
    binary main_v74 main_v75 main_v76 (Host.divf : (⟨S50000x1, .f32⟩ : BufTy).Contents (Elt F) → (⟨S50000x1, .f32⟩ : BufTy).Contents (Elt F) → (⟨S50000x1, .f32⟩ : BufTy).Contents (Elt F)),
    unary main_v69 main_v77 (broadcastInDim S50000x64 ![0, 1] bcast_S50000x1_S50000x64_0_1 : (⟨S50000x1, .f32⟩ : BufTy).Contents (Elt F) → (⟨S50000x64, .f32⟩ : BufTy).Contents (Elt F)),
    binary main_v65 main_v77 main_v78 (subf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v79 (broadcastInDim S50000x1 ![] bcast_S_S50000x1 : (⟨S_, .f32⟩ : BufTy).Contents (Elt F) → (⟨S50000x1, .f32⟩ : BufTy).Contents (Elt F)),
    binary main_v76 main_v79 main_v80 (addf : (⟨S50000x1, .f32⟩ : BufTy).Contents (Elt F) → (⟨S50000x1, .f32⟩ : BufTy).Contents (Elt F) → (⟨S50000x1, .f32⟩ : BufTy).Contents (Elt F)),
    unary main_v80 main_v81 (Host.rsqrt : (⟨S50000x1, .f32⟩ : BufTy).Contents (Elt F) → (⟨S50000x1, .f32⟩ : BufTy).Contents (Elt F)),
    unary main_v81 main_v82 (broadcastInDim S50000x64 ![0, 1] bcast_S50000x1_S50000x64_0_1 : (⟨S50000x1, .f32⟩ : BufTy).Contents (Elt F) → (⟨S50000x64, .f32⟩ : BufTy).Contents (Elt F)),
    binary main_v78 main_v82 main_v83 (mulf : (⟨S50000x64, .f32⟩ : BufTy).Contents (Elt F) → (⟨S50000x64, .f32⟩ : BufTy).Contents (Elt F) → (⟨S50000x64, .f32⟩ : BufTy).Contents (Elt F)),
    unary main_arg14 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (mulf : (⟨S50000x64, .f32⟩ : BufTy).Contents (Elt F) → (⟨S50000x64, .f32⟩ : BufTy).Contents (Elt F) → (⟨S50000x64, .f32⟩ : BufTy).Contents (Elt F)),
    unary main_arg15 main_v87 (broadcastInDim S1x64 ![1] bcast_S64_S1x64_1 : (⟨S64, .f32⟩ : BufTy).Contents (Elt F) → (⟨S1x64, .f32⟩ : BufTy).Contents (Elt F)),
    unary main_v87 main_v88 (broadcastInDim S50000x64 ![0, 1] bcast_S1x64_S50000x64_0_1 : (⟨S1x64, .f32⟩ : BufTy).Contents (Elt F) → (⟨S50000x64, .f32⟩ : BufTy).Contents (Elt F)),
    binary main_v86 main_v88 main_v89 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v89) (TRef.of (T := ⟨S50000x64, .f32⟩) main_call2_v0) (TRef.of (T := ⟨S50000x64, .f32⟩) main_v90) maximumf,
    nullary main_c (constantI S_ 32 0#32),
    unary main_c main_v91 (broadcastInDim S800000 ![] bcast_S_S800000 : (⟨S_, .i32⟩ : BufTy).Contents (Elt F) → (⟨S800000, .i32⟩ : BufTy).Contents (Elt F)),
    binary main_v61 main_v91 main_v92 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v93 (broadcastInDim S800000 ![] bcast_S_S800000 : (⟨S_, .i32⟩ : BufTy).Contents (Elt F) → (⟨S800000, .i32⟩ : BufTy).Contents (Elt F)),
    binary main_v61 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v61 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v90 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v97 main_v57 main_v98 (mulf : (⟨S800000x64, .f32⟩ : BufTy).Contents (Elt F) → (⟨S800000x64, .f32⟩ : BufTy).Contents (Elt F) → (⟨S800000x64, .f32⟩ : BufTy).Contents (Elt F)),
    nullary main_cst_15 (constant S_ .f32 0x00000000#32),
    unary main_cst_15 main_v99 (broadcastInDim S50000x64 ![] bcast_S_S50000x64 : (⟨S_, .f32⟩ : BufTy).Contents (Elt F) → (⟨S50000x64, .f32⟩ : BufTy).Contents (Elt F)),
    unary main_v59 main_v100 (broadcastInDim S800000x1 ![0] bcast_S800000_S800000x1_0 : (⟨S800000, .i32⟩ : BufTy).Contents (Elt F) → (⟨S800000x1, .i32⟩ : BufTy).Contents (Elt F)),
    ternary main_v99 main_v100 main_v98 main_v101 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v90 main_v101 main_v102 (addf : (⟨S50000x64, .f32⟩ : BufTy).Contents (Elt F) → (⟨S50000x64, .f32⟩ : BufTy).Contents (Elt F) → (⟨S50000x64, .f32⟩ : BufTy).Contents (Elt F)),
    binary main_v102 main_arg16 main_v103 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg17 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x00000000#32),
    binary main_v106 main_cst_16 main_v107 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v107 main_v108 (broadcastInDim S50000x1 ![0] bcast_S50000_S50000x1_0 : (⟨S50000, .f32⟩ : BufTy).Contents (Elt F) → (⟨S50000x1, .f32⟩ : BufTy).Contents (Elt F)),
    nullary main_cst_17 (constant S_ .f32 0x42800000#32),
    unary main_cst_17 main_v109 (broadcastInDim S50000x1 ![] bcast_S_S50000x1 : (⟨S_, .f32⟩ : BufTy).Contents (Elt F) → (⟨S50000x1, .f32⟩ : BufTy).Contents (Elt F)),
    binary main_v108 main_v109 main_v110 (Host.divf : (⟨S50000x1, .f32⟩ : BufTy).Contents (Elt F) → (⟨S50000x1, .f32⟩ : BufTy).Contents (Elt F) → (⟨S50000x1, .f32⟩ : BufTy).Contents (Elt F)),
    unary main_v110 main_v111 (broadcastInDim S50000x64 ![0, 1] bcast_S50000x1_S50000x64_0_1 : (⟨S50000x1, .f32⟩ : BufTy).Contents (Elt F) → (⟨S50000x64, .f32⟩ : BufTy).Contents (Elt F)),
    binary main_v106 main_v111 main_v112 (subf : (⟨S50000x64, .f32⟩ : BufTy).Contents (Elt F) → (⟨S50000x64, .f32⟩ : BufTy).Contents (Elt F) → (⟨S50000x64, .f32⟩ : BufTy).Contents (Elt F)),
    binary main_v112 main_v112 main_v113 (mulf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x00000000#32),
    binary main_v113 main_cst_18 main_v114 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v114 main_v115 (broadcastInDim S50000x1 ![0] bcast_S50000_S50000x1_0 : (⟨S50000, .f32⟩ : BufTy).Contents (Elt F) → (⟨S50000x1, .f32⟩ : BufTy).Contents (Elt F)),
    nullary main_cst_19 (constant S_ .f32 0x42800000#32),
    unary main_cst_19 main_v116 (broadcastInDim S50000x1 ![] bcast_S_S50000x1 : (⟨S_, .f32⟩ : BufTy).Contents (Elt F) → (⟨S50000x1, .f32⟩ : BufTy).Contents (Elt F)),
    binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    unary main_v110 main_v118 (broadcastInDim S50000x64 ![0, 1] bcast_S50000x1_S50000x64_0_1 : (⟨S50000x1, .f32⟩ : BufTy).Contents (Elt F) → (⟨S50000x64, .f32⟩ : BufTy).Contents (Elt F)),
    binary main_v106 main_v118 main_v119 (subf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3727C5AC#32),
    unary main_cst_20 main_v120 (broadcastInDim S50000x1 ![] bcast_S_S50000x1 : (⟨S_, .f32⟩ : BufTy).Contents (Elt F) → (⟨S50000x1, .f32⟩ : BufTy).Contents (Elt F)),
    binary main_v117 main_v120 main_v121 (addf : (⟨S50000x1, .f32⟩ : BufTy).Contents (Elt F) → (⟨S50000x1, .f32⟩ : BufTy).Contents (Elt F) → (⟨S50000x1, .f32⟩ : BufTy).Contents (Elt F)),
    unary main_v121 main_v122 (Host.rsqrt : (⟨S50000x1, .f32⟩ : BufTy).Contents (Elt F) → (⟨S50000x1, .f32⟩ : BufTy).Contents (Elt F)),
    unary main_v122 main_v123 (broadcastInDim S50000x64 ![0, 1] bcast_S50000x1_S50000x64_0_1 : (⟨S50000x1, .f32⟩ : BufTy).Contents (Elt F) → (⟨S50000x64, .f32⟩ : BufTy).Contents (Elt F)),
    binary main_v119 main_v123 main_v124 (mulf : (⟨S50000x64, .f32⟩ : BufTy).Contents (Elt F) → (⟨S50000x64, .f32⟩ : BufTy).Contents (Elt F) → (⟨S50000x64, .f32⟩ : BufTy).Contents (Elt F)),
    unary main_arg18 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v124 main_v126 main_v127 (mulf : (⟨S50000x64, .f32⟩ : BufTy).Contents (Elt F) → (⟨S50000x64, .f32⟩ : BufTy).Contents (Elt F) → (⟨S50000x64, .f32⟩ : BufTy).Contents (Elt F)),
    unary main_arg19 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v130) (TRef.of (T := ⟨S50000x64, .f32⟩) main_call3_v0) (TRef.of (T := ⟨S50000x64, .f32⟩) main_v131) maximumf,
    nullary main_c_21 (constantI S_ 32 0#32),
    unary main_c_21 main_v132 (broadcastInDim S800000 ![] bcast_S_S800000 : (⟨S_, .i32⟩ : BufTy).Contents (Elt F) → (⟨S800000, .i32⟩ : BufTy).Contents (Elt F)),
    binary main_v61 main_v132 main_v133 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v134 (broadcastInDim S800000 ![] bcast_S_S800000 : (⟨S_, .i32⟩ : BufTy).Contents (Elt F) → (⟨S800000, .i32⟩ : BufTy).Contents (Elt F)),
    binary main_v61 main_v134 main_v135 (addi : (⟨S800000, .i32⟩ : BufTy).Contents (Elt F) → (⟨S800000, .i32⟩ : BufTy).Contents (Elt F) → (⟨S800000, .i32⟩ : BufTy).Contents (Elt F)),
    ternary main_v133 main_v135 main_v61 main_v136 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v136 main_v137 (broadcastInDim S800000x1 ![0] bcast_S800000_S800000x1_0 : (⟨S800000, .i32⟩ : BufTy).Contents (Elt F) → (⟨S800000x1, .i32⟩ : BufTy).Contents (Elt F)),
    binary main_v131 main_v137 main_v138 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v138 main_v57 main_v139 (mulf : (⟨S800000x64, .f32⟩ : BufTy).Contents (Elt F) → (⟨S800000x64, .f32⟩ : BufTy).Contents (Elt F) → (⟨S800000x64, .f32⟩ : BufTy).Contents (Elt F)),
    nullary main_cst_23 (constant S_ .f32 0x00000000#32),
    unary main_cst_23 main_v140 (broadcastInDim S50000x64 ![] bcast_S_S50000x64 : (⟨S_, .f32⟩ : BufTy).Contents (Elt F) → (⟨S50000x64, .f32⟩ : BufTy).Contents (Elt F)),
    unary main_v59 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v131 main_v142 main_v143 (addf : (⟨S50000x64, .f32⟩ : BufTy).Contents (Elt F) → (⟨S50000x64, .f32⟩ : BufTy).Contents (Elt F) → (⟨S50000x64, .f32⟩ : BufTy).Contents (Elt F)),
    binary main_v143 main_arg20 main_v144 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg21 main_v145 (broadcastInDim S1x64 ![1] bcast_S64_S1x64_1 : (⟨S64, .f32⟩ : BufTy).Contents (Elt F) → (⟨S1x64, .f32⟩ : BufTy).Contents (Elt F)),
    unary main_v145 main_v146 (broadcastInDim S50000x64 ![0, 1] bcast_S1x64_S50000x64_0_1 : (⟨S1x64, .f32⟩ : BufTy).Contents (Elt F) → (⟨S50000x64, .f32⟩ : BufTy).Contents (Elt F)),
    binary main_v144 main_v146 main_v147 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x00000000#32),
    binary main_v147 main_cst_24 main_v148 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v148 main_v149 (broadcastInDim S50000x1 ![0] bcast_S50000_S50000x1_0 : (⟨S50000, .f32⟩ : BufTy).Contents (Elt F) → (⟨S50000x1, .f32⟩ : BufTy).Contents (Elt F)),
    nullary main_cst_25 (constant S_ .f32 0x42800000#32),
    unary main_cst_25 main_v150 (broadcastInDim S50000x1 ![] bcast_S_S50000x1 : (⟨S_, .f32⟩ : BufTy).Contents (Elt F) → (⟨S50000x1, .f32⟩ : BufTy).Contents (Elt F)),
    binary main_v149 main_v150 main_v151 (Host.divf : (⟨S50000x1, .f32⟩ : BufTy).Contents (Elt F) → (⟨S50000x1, .f32⟩ : BufTy).Contents (Elt F) → (⟨S50000x1, .f32⟩ : BufTy).Contents (Elt F)),
    unary main_v151 main_v152 (broadcastInDim S50000x64 ![0, 1] bcast_S50000x1_S50000x64_0_1 : (⟨S50000x1, .f32⟩ : BufTy).Contents (Elt F) → (⟨S50000x64, .f32⟩ : BufTy).Contents (Elt F)),
    binary main_v147 main_v152 main_v153 (subf : (⟨S50000x64, .f32⟩ : BufTy).Contents (Elt F) → (⟨S50000x64, .f32⟩ : BufTy).Contents (Elt F) → (⟨S50000x64, .f32⟩ : BufTy).Contents (Elt F)),
    binary main_v153 main_v153 main_v154 (mulf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    binary main_v154 main_cst_26 main_v155 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v155 main_v156 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42800000#32),
    unary main_cst_27 main_v157 (broadcastInDim S50000x1 ![] bcast_S_S50000x1 : (⟨S_, .f32⟩ : BufTy).Contents (Elt F) → (⟨S50000x1, .f32⟩ : BufTy).Contents (Elt F)),
    binary main_v156 main_v157 main_v158 (Host.divf : (⟨S50000x1, .f32⟩ : BufTy).Contents (Elt F) → (⟨S50000x1, .f32⟩ : BufTy).Contents (Elt F) → (⟨S50000x1, .f32⟩ : BufTy).Contents (Elt F)),
    unary main_v151 main_v159 (broadcastInDim S50000x64 ![0, 1] bcast_S50000x1_S50000x64_0_1 : (⟨S50000x1, .f32⟩ : BufTy).Contents (Elt F) → (⟨S50000x64, .f32⟩ : BufTy).Contents (Elt F)),
    binary main_v147 main_v159 main_v160 (subf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x3727C5AC#32),
    unary main_cst_28 main_v161 (broadcastInDim S50000x1 ![] bcast_S_S50000x1 : (⟨S_, .f32⟩ : BufTy).Contents (Elt F) → (⟨S50000x1, .f32⟩ : BufTy).Contents (Elt F)),
    binary main_v158 main_v161 main_v162 (addf : (⟨S50000x1, .f32⟩ : BufTy).Contents (Elt F) → (⟨S50000x1, .f32⟩ : BufTy).Contents (Elt F) → (⟨S50000x1, .f32⟩ : BufTy).Contents (Elt F)),
    unary main_v162 main_v163 (Host.rsqrt : (⟨S50000x1, .f32⟩ : BufTy).Contents (Elt F) → (⟨S50000x1, .f32⟩ : BufTy).Contents (Elt F)),
    unary main_v163 main_v164 (broadcastInDim S50000x64 ![0, 1] bcast_S50000x1_S50000x64_0_1 : (⟨S50000x1, .f32⟩ : BufTy).Contents (Elt F) → (⟨S50000x64, .f32⟩ : BufTy).Contents (Elt F)),
    binary main_v160 main_v164 main_v165 (mulf : (⟨S50000x64, .f32⟩ : BufTy).Contents (Elt F) → (⟨S50000x64, .f32⟩ : BufTy).Contents (Elt F) → (⟨S50000x64, .f32⟩ : BufTy).Contents (Elt F)),
    unary main_arg22 main_v166 (broadcastInDim S1x64 ![1] bcast_S64_S1x64_1 : (⟨S64, .f32⟩ : BufTy).Contents (Elt F) → (⟨S1x64, .f32⟩ : BufTy).Contents (Elt F)),
    unary main_v166 main_v167 (broadcastInDim S50000x64 ![0, 1] bcast_S1x64_S50000x64_0_1 : (⟨S1x64, .f32⟩ : BufTy).Contents (Elt F) → (⟨S50000x64, .f32⟩ : BufTy).Contents (Elt F)),
    binary main_v165 main_v167 main_v168 (mulf : (⟨S50000x64, .f32⟩ : BufTy).Contents (Elt F) → (⟨S50000x64, .f32⟩ : BufTy).Contents (Elt F) → (⟨S50000x64, .f32⟩ : BufTy).Contents (Elt F)),
    unary main_arg23 main_v169 (broadcastInDim S1x64 ![1] bcast_S64_S1x64_1 : (⟨S64, .f32⟩ : BufTy).Contents (Elt F) → (⟨S1x64, .f32⟩ : BufTy).Contents (Elt F)),
    unary main_v169 main_v170 (broadcastInDim S50000x64 ![0, 1] bcast_S1x64_S50000x64_0_1 : (⟨S1x64, .f32⟩ : BufTy).Contents (Elt F) → (⟨S50000x64, .f32⟩ : BufTy).Contents (Elt F)),
    binary main_v168 main_v170 main_v171 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v171) (TRef.of (T := ⟨S50000x64, .f32⟩) main_call4_v0) (TRef.of (T := ⟨S50000x64, .f32⟩) main_v172) maximumf,
    nullary main_c_29 (constantI S_ 32 0#32),
    unary main_c_29 main_v173 (broadcastInDim S800000 ![] bcast_S_S800000 : (⟨S_, .i32⟩ : BufTy).Contents (Elt F) → (⟨S800000, .i32⟩ : BufTy).Contents (Elt F)),
    binary main_v61 main_v173 main_v174 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v175 (broadcastInDim S800000 ![] bcast_S_S800000 : (⟨S_, .i32⟩ : BufTy).Contents (Elt F) → (⟨S800000, .i32⟩ : BufTy).Contents (Elt F)),
    binary main_v61 main_v175 main_v176 (addi : (⟨S800000, .i32⟩ : BufTy).Contents (Elt F) → (⟨S800000, .i32⟩ : BufTy).Contents (Elt F) → (⟨S800000, .i32⟩ : BufTy).Contents (Elt F)),
    ternary main_v174 main_v176 main_v61 main_v177 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v177 main_v178 (broadcastInDim S800000x1 ![0] bcast_S800000_S800000x1_0 : (⟨S800000, .i32⟩ : BufTy).Contents (Elt F) → (⟨S800000x1, .i32⟩ : BufTy).Contents (Elt F)),
    binary main_v172 main_v178 main_v179 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v179 main_v57 main_v180 (mulf : (⟨S800000x64, .f32⟩ : BufTy).Contents (Elt F) → (⟨S800000x64, .f32⟩ : BufTy).Contents (Elt F) → (⟨S800000x64, .f32⟩ : BufTy).Contents (Elt F)),
    nullary main_cst_31 (constant S_ .f32 0x00000000#32),
    unary main_cst_31 main_v181 (broadcastInDim S50000x64 ![] bcast_S_S50000x64 : (⟨S_, .f32⟩ : BufTy).Contents (Elt F) → (⟨S50000x64, .f32⟩ : BufTy).Contents (Elt F)),
    unary main_v59 main_v182 (broadcastInDim S800000x1 ![0] bcast_S800000_S800000x1_0 : (⟨S800000, .i32⟩ : BufTy).Contents (Elt F) → (⟨S800000x1, .i32⟩ : BufTy).Contents (Elt F)),
    ternary main_v181 main_v182 main_v180 main_v183 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v172 main_v183 main_v184 (addf : (⟨S50000x64, .f32⟩ : BufTy).Contents (Elt F) → (⟨S50000x64, .f32⟩ : BufTy).Contents (Elt F) → (⟨S50000x64, .f32⟩ : BufTy).Contents (Elt F)),
    nullary main_cst_32 (constant S_ .f32 0x00000000#32),
    unary main_cst_32 main_v185 (broadcastInDim S512x64 ![] bcast_S_S512x64 : (⟨S_, .f32⟩ : BufTy).Contents (Elt F) → (⟨S512x64, .f32⟩ : BufTy).Contents (Elt F)),
    unary main_arg3 main_v186 (broadcastInDim S50000x1 ![0] bcast_S50000_S50000x1_0 : (⟨S50000, .i32⟩ : BufTy).Contents (Elt F) → (⟨S50000x1, .i32⟩ : BufTy).Contents (Elt F)),
    ternary main_v185 main_v186 main_v184 main_v187 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    binary main_v187 main_arg24 main_v188 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg25 main_v189 (broadcastInDim S1x64 ![1] bcast_S64_S1x64_1 : (⟨S64, .f32⟩ : BufTy).Contents (Elt F) → (⟨S1x64, .f32⟩ : BufTy).Contents (Elt F)),
    unary main_v189 main_v190 (broadcastInDim S512x64 ![0, 1] bcast_S1x64_S512x64_0_1 : (⟨S1x64, .f32⟩ : BufTy).Contents (Elt F) → (⟨S512x64, .f32⟩ : BufTy).Contents (Elt F)),
    binary main_v188 main_v190 main_v191 (addf : (⟨S512x64, .f32⟩ : BufTy).Contents (Elt F) → (⟨S512x64, .f32⟩ : BufTy).Contents (Elt F) → (⟨S512x64, .f32⟩ : BufTy).Contents (Elt F)) ]

set_option maxHeartbeats 4000000 in
/-- The program is the sequence of its operations. -/
theorem main_eq (c : Dev nD) : main (F := F) c = seq ops := rfl

/-- The list is the ten segments one after another. -/
theorem ops_split : (ops : List (HloOp τ sig (Elt F)))
    = seg1 ++ (seg2 ++ (seg3 ++ (seg4 ++ (seg5 ++ (seg6 ++ (seg7 ++ (seg8 ++ (seg9 ++ seg10)))))))) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., binary_bufs_sub .., unary_bufs_sub .., unary_bufs_sub .., binary_bufs_sub ..⟩

end Cert.ReferenceIdeal.RefRun

end
-- ==== Proof.RefRun.lean ====
import proofs.«170720_j9457517986237_1_alg».proof.Proof.RefOps
import proofs.«170720_j9457517986237_1_alg».proof.Proof.Network

/-!
# The reference's run, read segment by segment

The contents of the TensorCore's buffers after each of the ten segments are named `R1 … R10` (`R0` is the launch
memory). A segment is read over the contents before it: a dense stage gives the host's spelling of a layer on the
array it finds, a gather–multiply–scatter stretch gives one round of message passing on what it finds. An argument is
written by no segment, so it is the launch memory's at every level; the edge features and the edges' endpoints,
computed early, are carried unchanged to where they are read. Composed, the result buffer ends at `Network.net` of
the arguments, and every weakly fair execution of the program ends there.
-/

set_option maxRecDepth 8192

noncomputable section

namespace Cert.ReferenceIdeal.RefRun

open Cert.ReferenceIdeal Cert.ReferenceIdeal.Gen
open Idealize.ShloMosaic Idealize.ShloMosaic.TcCoe Idealize.SL.Sem Idealize.ShloMosaic.StableHlo
open Cert.Rows Cert.Network

variable (m : (ℓ : Loc nD τ sig) → Buf (Elt Ideal) ℓ)

/-- The launch memory's contents of core `c`. -/
abbrev R0 (c : Dev nD) : Valuation τ sig (Elt Ideal) := launchContents m c

/-- The contents after segment 1. -/
def R1 (c : Dev nD) : Valuation τ sig (Elt Ideal) := after seg1 (R0 m c)
/-- A buffer segment 1 does not write keeps its contents across it. -/
theorem keep1 (c : Dev nD) {r : Ref sig .tc} (h : r ∉ w1) : R1 m c (Proc.devRef .tc r) = R0 m c (Proc.devRef .tc r) :=
  after_of_writes_sub seg1 _ seg1_writes h

/-- The contents after segment 2. -/
def R2 (c : Dev nD) : Valuation τ sig (Elt Ideal) := after seg2 (R1 m c)
/-- A buffer segment 2 does not write keeps its contents across it. -/
theorem keep2 (c : Dev nD) {r : Ref sig .tc} (h : r ∉ w2) : R2 m c (Proc.devRef .tc r) = R1 m c (Proc.devRef .tc r) :=
  after_of_writes_sub seg2 _ seg2_writes h

/-- The contents after segment 3. -/
def R3 (c : Dev nD) : Valuation τ sig (Elt Ideal) := after seg3 (R2 m c)
/-- A buffer segment 3 does not write keeps its contents across it. -/
theorem keep3 (c : Dev nD) {r : Ref sig .tc} (h : r ∉ w3) : R3 m c (Proc.devRef .tc r) = R2 m c (Proc.devRef .tc r) :=
  after_of_writes_sub seg3 _ seg3_writes h

/-- The contents after segment 4. -/
def R4 (c : Dev nD) : Valuation τ sig (Elt Ideal) := after seg4 (R3 m c)
/-- A buffer segment 4 does not write keeps its contents across it. -/
theorem keep4 (c : Dev nD) {r : Ref sig .tc} (h : r ∉ w4) : R4 m c (Proc.devRef .tc r) = R3 m c (Proc.devRef .tc r) :=
  after_of_writes_sub seg4 _ seg4_writes h

/-- The contents after segment 5. -/
def R5 (c : Dev nD) : Valuation τ sig (Elt Ideal) := after seg5 (R4 m c)
/-- A buffer segment 5 does not write keeps its contents across it. -/
theorem keep5 (c : Dev nD) {r : Ref sig .tc} (h : r ∉ w5) : R5 m c (Proc.devRef .tc r) = R4 m c (Proc.devRef .tc r) :=
  after_of_writes_sub seg5 _ seg5_writes h

/-- The contents after segment 6. -/
def R6 (c : Dev nD) : Valuation τ sig (Elt Ideal) := after seg6 (R5 m c)
/-- A buffer segment 6 does not write keeps its contents across it. -/
theorem keep6 (c : Dev nD) {r : Ref sig .tc} (h : r ∉ w6) : R6 m c (Proc.devRef .tc r) = R5 m c (Proc.devRef .tc r) :=
  after_of_writes_sub seg6 _ seg6_writes h

/-- The contents after segment 7. -/
def R7 (c : Dev nD) : Valuation τ sig (Elt Ideal) := after seg7 (R6 m c)
/-- A buffer segment 7 does not write keeps its contents across it. -/
theorem keep7 (c : Dev nD) {r : Ref sig .tc} (h : r ∉ w7) : R7 m c (Proc.devRef .tc r) = R6 m c (Proc.devRef .tc r) :=
  after_of_writes_sub seg7 _ seg7_writes h

/-- The contents after segment 8. -/
def R8 (c : Dev nD) : Valuation τ sig (Elt Ideal) := after seg8 (R7 m c)
/-- A buffer segment 8 does not write keeps its contents across it. -/
theorem keep8 (c : Dev nD) {r : Ref sig .tc} (h : r ∉ w8) : R8 m c (Proc.devRef .tc r) = R7 m c (Proc.devRef .tc r) :=
  after_of_writes_sub seg8 _ seg8_writes h

/-- The contents after segment 9. -/
def R9 (c : Dev nD) : Valuation τ sig (Elt Ideal) := after seg9 (R8 m c)
/-- A buffer segment 9 does not write keeps its contents across it. -/
theorem keep9 (c : Dev nD) {r : Ref sig .tc} (h : r ∉ w9) : R9 m c (Proc.devRef .tc r) = R8 m c (Proc.devRef .tc r) :=
  after_of_writes_sub seg9 _ seg9_writes h

/-- The contents after segment 10. -/
def R10 (c : Dev nD) : Valuation τ sig (Elt Ideal) := after seg10 (R9 m c)
/-- A buffer segment 10 does not write keeps its contents across it. -/
theorem keep10 (c : Dev nD) {r : Ref sig .tc} (h : r ∉ w10) : R10 m c (Proc.devRef .tc r) = R9 m c (Proc.devRef .tc r) :=
  after_of_writes_sub seg10 _ seg10_writes h

/-- After the whole line the contents are the tenth segment's. -/
theorem after_ops (c : Dev nD) : after (ops (F := Ideal)) (launchContents m c) = R10 m c := by
  rw [ops_split]
  simp only [StableHlo.after_append]
  rfl

/-! ## The arguments at every level -/

theorem arg1 (c : Dev nD) (r : Ref sig .tc) (h1 : r ∉ w1 := by decide) :
    R1 m c (Proc.devRef .tc r) = m ((c.tc : Thread nD τ).loc r) := (keep1 m c h1).trans rfl
theorem arg2 (c : Dev nD) (r : Ref sig .tc) (h1 : r ∉ w1 := by decide) (h2 : r ∉ w2 := by decide) :
    R2 m c (Proc.devRef .tc r) = m ((c.tc : Thread nD τ).loc r) := (keep2 m c h2).trans (arg1 m c r h1)
theorem arg3 (c : Dev nD) (r : Ref sig .tc) (h1 : r ∉ w1 := by decide) (h2 : r ∉ w2 := by decide) (h3 : r ∉ w3 := by decide) :
    R3 m c (Proc.devRef .tc r) = m ((c.tc : Thread nD τ).loc r) := (keep3 m c h3).trans (arg2 m c r h1 h2)
theorem arg4 (c : Dev nD) (r : Ref sig .tc) (h1 : r ∉ w1 := by decide) (h2 : r ∉ w2 := by decide) (h3 : r ∉ w3 := by decide) (h4 : r ∉ w4 := by decide) :
    R4 m c (Proc.devRef .tc r) = m ((c.tc : Thread nD τ).loc r) := (keep4 m c h4).trans (arg3 m c r h1 h2 h3)
theorem arg5 (c : Dev nD) (r : Ref sig .tc) (h1 : r ∉ w1 := by decide) (h2 : r ∉ w2 := by decide) (h3 : r ∉ w3 := by decide) (h4 : r ∉ w4 := by decide) (h5 : r ∉ w5 := by decide) :
    R5 m c (Proc.devRef .tc r) = m ((c.tc : Thread nD τ).loc r) := (keep5 m c h5).trans (arg4 m c r h1 h2 h3 h4)
theorem arg6 (c : Dev nD) (r : Ref sig .tc) (h1 : r ∉ w1 := by decide) (h2 : r ∉ w2 := by decide) (h3 : r ∉ w3 := by decide) (h4 : r ∉ w4 := by decide) (h5 : r ∉ w5 := by decide) (h6 : r ∉ w6 := by decide) :
    R6 m c (Proc.devRef .tc r) = m ((c.tc : Thread nD τ).loc r) := (keep6 m c h6).trans (arg5 m c r h1 h2 h3 h4 h5)
theorem arg7 (c : Dev nD) (r : Ref sig .tc) (h1 : r ∉ w1 := by decide) (h2 : r ∉ w2 := by decide) (h3 : r ∉ w3 := by decide) (h4 : r ∉ w4 := by decide) (h5 : r ∉ w5 := by decide) (h6 : r ∉ w6 := by decide) (h7 : r ∉ w7 := by decide) :
    R7 m c (Proc.devRef .tc r) = m ((c.tc : Thread nD τ).loc r) := (keep7 m c h7).trans (arg6 m c r h1 h2 h3 h4 h5 h6)
theorem arg8 (c : Dev nD) (r : Ref sig .tc) (h1 : r ∉ w1 := by decide) (h2 : r ∉ w2 := by decide) (h3 : r ∉ w3 := by decide) (h4 : r ∉ w4 := by decide) (h5 : r ∉ w5 := by decide) (h6 : r ∉ w6 := by decide) (h7 : r ∉ w7 := by decide) (h8 : r ∉ w8 := by decide) :
    R8 m c (Proc.devRef .tc r) = m ((c.tc : Thread nD τ).loc r) := (keep8 m c h8).trans (arg7 m c r h1 h2 h3 h4 h5 h6 h7)
theorem arg9 (c : Dev nD) (r : Ref sig .tc) (h1 : r ∉ w1 := by decide) (h2 : r ∉ w2 := by decide) (h3 : r ∉ w3 := by decide) (h4 : r ∉ w4 := by decide) (h5 : r ∉ w5 := by decide) (h6 : r ∉ w6 := by decide) (h7 : r ∉ w7 := by decide) (h8 : r ∉ w8 := by decide) (h9 : r ∉ w9 := by decide) :
    R9 m c (Proc.devRef .tc r) = m ((c.tc : Thread nD τ).loc r) := (keep9 m c h9).trans (arg8 m c r h1 h2 h3 h4 h5 h6 h7 h8)
theorem arg10 (c : Dev nD) (r : Ref sig .tc) (h1 : r ∉ w1 := by decide) (h2 : r ∉ w2 := by decide) (h3 : r ∉ w3 := by decide) (h4 : r ∉ w4 := by decide) (h5 : r ∉ w5 := by decide) (h6 : r ∉ w6 := by decide) (h7 : r ∉ w7 := by decide) (h8 : r ∉ w8 := by decide) (h9 : r ∉ w9 := by decide) (h10 : r ∉ w10 := by decide) :
    R10 m c (Proc.devRef .tc r) = m ((c.tc : Thread nD τ).loc r) := (keep10 m c h10).trans (arg9 m c r h1 h2 h3 h4 h5 h6 h7 h8 h9)

/-! ## The stages -/

set_option maxHeartbeats 2000000 in
/-- The first edge layer on the whole edge-attribute array. -/
theorem v28_eq (c : Dev nD) : R1 m c (Proc.devRef .tc main_v28) = hostEdge1 (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  show after seg1 (launchContents m c) (Proc.devRef .tc main_v28) = _
  after_results_simp <;> rfl

/-- The edge features. -/
def E (c : Dev nD) : FArr S800000x64 := edgeFeat (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

set_option maxHeartbeats 2000000 in
theorem v57_eq (c : Dev nD) : R2 m c (Proc.devRef .tc main_v57) = E m c := by
  have h : R2 m c (Proc.devRef .tc main_v57) = hostEdge2 (R1 m c (Proc.devRef .tc main_v28)) (R1 m c (Proc.devRef .tc main_arg8)) (R1 m c (Proc.devRef .tc main_arg9))
      (R1 m c (Proc.devRef .tc main_arg10)) (R1 m c (Proc.devRef .tc main_arg11)) := by
    show after seg2 (R1 m c) (Proc.devRef .tc main_v57) = _
    after_results_simp <;> rfl
  rw [h, v28_eq, arg1 m c main_arg8, arg1 m c main_arg9, arg1 m c main_arg10, arg1 m c main_arg11]
  exact hostEdge_eq _ _ _ _ _ _ _ _ _

set_option maxHeartbeats 2000000 in
/-- The edges' sources. -/
theorem v59_eq (c : Dev nD) : R3 m c (Proc.devRef .tc main_v59) = srcOf (m ((c.tc : Thread nD τ).loc main_arg1)) := by
  have h : R3 m c (Proc.devRef .tc main_v59) = srcOf (R2 m c (Proc.devRef .tc main_arg1)) := by
    show after seg3 (R2 m c) (Proc.devRef .tc main_v59) = _
    after_results_simp <;> rfl
  rw [h, arg2 m c main_arg1]

set_option maxHeartbeats 2000000 in
/-- The edges' destinations. -/
theorem v61_eq (c : Dev nD) : R3 m c (Proc.devRef .tc main_v61) = dstOf (m ((c.tc : Thread nD τ).loc main_arg1)) := by
  have h : R3 m c (Proc.devRef .tc main_v61) = dstOf (R2 m c (Proc.devRef .tc main_arg1)) := by
    show after seg3 (R2 m c) (Proc.devRef .tc main_v61) = _
    after_results_simp <;> rfl
  rw [h, arg2 m c main_arg1]

set_option maxHeartbeats 2000000 in
/-- The first node layer on the whole node array. -/
theorem v90_eq (c : Dev nD) : R4 m c (Proc.devRef .tc main_v90) = nodeLayer (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg15)) := by
  have h : R4 m c (Proc.devRef .tc main_v90) = hostNode (R3 m c (Proc.devRef .tc main_arg0)) (R3 m c (Proc.devRef .tc main_arg12)) (R3 m c (Proc.devRef .tc main_arg13))
      (R3 m c (Proc.devRef .tc main_arg14)) (R3 m c (Proc.devRef .tc main_arg15)) := by
    show after seg4 (R3 m c) (Proc.devRef .tc main_v90) = _
    after_results_simp <;> rfl
  rw [h, arg3 m c main_arg0, arg3 m c main_arg12, arg3 m c main_arg13, arg3 m c main_arg14, arg3 m c main_arg15, hostNode_eq]

/-- The node rows after the first round. -/
def X1 (c : Dev nD) : FArr S50000x64 := round (m ((c.tc : Thread nD τ).loc main_arg0)) (E m c) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15))

set_option maxHeartbeats 2000000 in
/-- The first round. -/
theorem v102_eq' (c : Dev nD) : R5 m c (Proc.devRef .tc main_v102) = round (m ((c.tc : Thread nD τ).loc main_arg0)) (E m c) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) := by
  have h : R5 m c (Proc.devRef .tc main_v102) = aggregateAt (R4 m c (Proc.devRef .tc main_v90)) (R4 m c (Proc.devRef .tc main_v57)) (R4 m c (Proc.devRef .tc main_v59)) (R4 m c (Proc.devRef .tc main_v61)) := by
    show after seg5 (R4 m c) (Proc.devRef .tc main_v102) = _
    after_results_simp <;> rfl
  rw [h, v90_eq, (((keep4 m c (r := main_v57) (by decide)).trans (keep3 m c (r := main_v57) (by decide))).trans (v57_eq m c)), ((keep4 m c (r := main_v59) (by decide)).trans (v59_eq m c)),
    ((keep4 m c (r := main_v61) (by decide)).trans (v61_eq m c))]
  rfl

theorem v102_eq (c : Dev nD) : R5 m c (Proc.devRef .tc main_v102) = X1 m c := v102_eq' m c

set_option maxHeartbeats 2000000 in
/-- The second node layer on the first round's result. -/
theorem v131_eq (c : Dev nD) : R6 m c (Proc.devRef .tc main_v131) = nodeLayer (X1 m c) (m ((c.tc : Thread nD τ).loc main_arg16)) (m ((c.tc : Thread nD τ).loc main_arg17)) (m ((c.tc : Thread nD τ).loc main_arg18)) (m ((c.tc : Thread nD τ).loc main_arg19)) := by
  have h : R6 m c (Proc.devRef .tc main_v131) = hostNode (R5 m c (Proc.devRef .tc main_v102)) (R5 m c (Proc.devRef .tc main_arg16)) (R5 m c (Proc.devRef .tc main_arg17))
      (R5 m c (Proc.devRef .tc main_arg18)) (R5 m c (Proc.devRef .tc main_arg19)) := by
    show after seg6 (R5 m c) (Proc.devRef .tc main_v131) = _
    after_results_simp <;> rfl
  rw [h, v102_eq, arg5 m c main_arg16, arg5 m c main_arg17, arg5 m c main_arg18, arg5 m c main_arg19, hostNode_eq]

/-- The node rows after the second round. -/
def X2 (c : Dev nD) : FArr S50000x64 := round (X1 m c) (E m c) (m ((c.tc : Thread nD τ).loc main_arg1)) (m ((c.tc : Thread nD τ).loc main_arg16)) (m ((c.tc : Thread nD τ).loc main_arg17)) (m ((c.tc : Thread nD τ).loc main_arg18)) (m ((c.tc : Thread nD τ).loc main_arg19))

set_option maxHeartbeats 2000000 in
/-- The second round. -/
theorem v143_eq' (c : Dev nD) : R7 m c (Proc.devRef .tc main_v143) = round (X1 m c) (E m c) (m ((c.tc : Thread nD τ).loc main_arg1)) (m ((c.tc : Thread nD τ).loc main_arg16)) (m ((c.tc : Thread nD τ).loc main_arg17)) (m ((c.tc : Thread nD τ).loc main_arg18)) (m ((c.tc : Thread nD τ).loc main_arg19)) := by
  have h : R7 m c (Proc.devRef .tc main_v143) = aggregateAt (R6 m c (Proc.devRef .tc main_v131)) (R6 m c (Proc.devRef .tc main_v57)) (R6 m c (Proc.devRef .tc main_v59)) (R6 m c (Proc.devRef .tc main_v61)) := by
    show after seg7 (R6 m c) (Proc.devRef .tc main_v143) = _
    after_results_simp <;> rfl
  rw [h, v131_eq, (((((keep6 m c (r := main_v57) (by decide)).trans (keep5 m c (r := main_v57) (by decide))).trans (keep4 m c (r := main_v57) (by decide))).trans (keep3 m c (r := main_v57) (by decide))).trans (v57_eq m c)), ((((keep6 m c (r := main_v59) (by decide)).trans (keep5 m c (r := main_v59) (by decide))).trans (keep4 m c (r := main_v59) (by decide))).trans (v59_eq m c)),
    ((((keep6 m c (r := main_v61) (by decide)).trans (keep5 m c (r := main_v61) (by decide))).trans (keep4 m c (r := main_v61) (by decide))).trans (v61_eq m c))]
  rfl

theorem v143_eq (c : Dev nD) : R7 m c (Proc.devRef .tc main_v143) = X2 m c := v143_eq' m c

set_option maxHeartbeats 2000000 in
/-- The third node layer on the second round's result. -/
theorem v172_eq (c : Dev nD) : R8 m c (Proc.devRef .tc main_v172) = nodeLayer (X2 m c) (m ((c.tc : Thread nD τ).loc main_arg20)) (m ((c.tc : Thread nD τ).loc main_arg21)) (m ((c.tc : Thread nD τ).loc main_arg22)) (m ((c.tc : Thread nD τ).loc main_arg23)) := by
  have h : R8 m c (Proc.devRef .tc main_v172) = hostNode (R7 m c (Proc.devRef .tc main_v143)) (R7 m c (Proc.devRef .tc main_arg20)) (R7 m c (Proc.devRef .tc main_arg21))
      (R7 m c (Proc.devRef .tc main_arg22)) (R7 m c (Proc.devRef .tc main_arg23)) := by
    show after seg8 (R7 m c) (Proc.devRef .tc main_v172) = _
    after_results_simp <;> rfl
  rw [h, v143_eq, arg7 m c main_arg20, arg7 m c main_arg21, arg7 m c main_arg22, arg7 m c main_arg23, hostNode_eq]

/-- The node rows after the third round. -/
def X3 (c : Dev nD) : FArr S50000x64 := round (X2 m c) (E m c) (m ((c.tc : Thread nD τ).loc main_arg1)) (m ((c.tc : Thread nD τ).loc main_arg20)) (m ((c.tc : Thread nD τ).loc main_arg21)) (m ((c.tc : Thread nD τ).loc main_arg22)) (m ((c.tc : Thread nD τ).loc main_arg23))

set_option maxHeartbeats 2000000 in
/-- The third round. -/
theorem v184_eq' (c : Dev nD) : R9 m c (Proc.devRef .tc main_v184) = round (X2 m c) (E m c) (m ((c.tc : Thread nD τ).loc main_arg1)) (m ((c.tc : Thread nD τ).loc main_arg20)) (m ((c.tc : Thread nD τ).loc main_arg21)) (m ((c.tc : Thread nD τ).loc main_arg22)) (m ((c.tc : Thread nD τ).loc main_arg23)) := by
  have h : R9 m c (Proc.devRef .tc main_v184) = aggregateAt (R8 m c (Proc.devRef .tc main_v172)) (R8 m c (Proc.devRef .tc main_v57)) (R8 m c (Proc.devRef .tc main_v59)) (R8 m c (Proc.devRef .tc main_v61)) := by
    show after seg9 (R8 m c) (Proc.devRef .tc main_v184) = _
    after_results_simp <;> rfl
  rw [h, v172_eq, (((((((keep8 m c (r := main_v57) (by decide)).trans (keep7 m c (r := main_v57) (by decide))).trans (keep6 m c (r := main_v57) (by decide))).trans (keep5 m c (r := main_v57) (by decide))).trans (keep4 m c (r := main_v57) (by decide))).trans (keep3 m c (r := main_v57) (by decide))).trans (v57_eq m c)), ((((((keep8 m c (r := main_v59) (by decide)).trans (keep7 m c (r := main_v59) (by decide))).trans (keep6 m c (r := main_v59) (by decide))).trans (keep5 m c (r := main_v59) (by decide))).trans (keep4 m c (r := main_v59) (by decide))).trans (v59_eq m c)),
    ((((((keep8 m c (r := main_v61) (by decide)).trans (keep7 m c (r := main_v61) (by decide))).trans (keep6 m c (r := main_v61) (by decide))).trans (keep5 m c (r := main_v61) (by decide))).trans (keep4 m c (r := main_v61) (by decide))).trans (v61_eq m c))]
  rfl

theorem v184_eq (c : Dev nD) : R9 m c (Proc.devRef .tc main_v184) = X3 m c := v184_eq' m c

set_option maxHeartbeats 2000000 in
/-- The result: the pooled rows through the output projection — the network of the arguments. -/
theorem v191_eq (c : Dev nD) : R10 m c (Proc.devRef .tc main_v191) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  have h : R10 m c (Proc.devRef .tc main_v191) = hostProj (pool (R9 m c (Proc.devRef .tc main_v184)) (R9 m c (Proc.devRef .tc main_arg3))) (R9 m c (Proc.devRef .tc main_arg24)) (R9 m c (Proc.devRef .tc main_arg25)) := by
    show after seg10 (R9 m c) (Proc.devRef .tc main_v191) = _
    after_results_simp <;> rfl
  rw [h, v184_eq, arg9 m c main_arg3, arg9 m c main_arg24, arg9 m c main_arg25, hostProj_eq]
  rfl

/-! ## The run -/

/-- Every weakly fair execution of the reference terminates, nothing faulting, with the result buffer at the
    network of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v191) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v191).trans (by rw [after_ops]; exact v191_eq m c),
      (h c main_arg0).trans (by rw [after_ops]; exact arg10 m c main_arg0),
      (h c main_arg1).trans (by rw [after_ops]; exact arg10 m c main_arg1),
      (h c main_arg2).trans (by rw [after_ops]; exact arg10 m c main_arg2),
      (h c main_arg3).trans (by rw [after_ops]; exact arg10 m c main_arg3),
      (h c main_arg4).trans (by rw [after_ops]; exact arg10 m c main_arg4),
      (h c main_arg5).trans (by rw [after_ops]; exact arg10 m c main_arg5),
      (h c main_arg6).trans (by rw [after_ops]; exact arg10 m c main_arg6),
      (h c main_arg7).trans (by rw [after_ops]; exact arg10 m c main_arg7),
      (h c main_arg8).trans (by rw [after_ops]; exact arg10 m c main_arg8),
      (h c main_arg9).trans (by rw [after_ops]; exact arg10 m c main_arg9),
      (h c main_arg10).trans (by rw [after_ops]; exact arg10 m c main_arg10),
      (h c main_arg11).trans (by rw [after_ops]; exact arg10 m c main_arg11),
      (h c main_arg12).trans (by rw [after_ops]; exact arg10 m c main_arg12),
      (h c main_arg13).trans (by rw [after_ops]; exact arg10 m c main_arg13),
      (h c main_arg14).trans (by rw [after_ops]; exact arg10 m c main_arg14),
      (h c main_arg15).trans (by rw [after_ops]; exact arg10 m c main_arg15),
      (h c main_arg16).trans (by rw [after_ops]; exact arg10 m c main_arg16),
      (h c main_arg17).trans (by rw [after_ops]; exact arg10 m c main_arg17),
      (h c main_arg18).trans (by rw [after_ops]; exact arg10 m c main_arg18),
      (h c main_arg19).trans (by rw [after_ops]; exact arg10 m c main_arg19),
      (h c main_arg20).trans (by rw [after_ops]; exact arg10 m c main_arg20),
      (h c main_arg21).trans (by rw [after_ops]; exact arg10 m c main_arg21),
      (h c main_arg22).trans (by rw [after_ops]; exact arg10 m c main_arg22),
      (h c main_arg23).trans (by rw [after_ops]; exact arg10 m c main_arg23),
      (h c main_arg24).trans (by rw [after_ops]; exact arg10 m c main_arg24),
      (h c main_arg25).trans (by rw [after_ops]; exact arg10 m c main_arg25)⟩)
    (run_seq scopedRefs_eq scopedSems_eq defs main (fun _ => ops) main_eq (fun _ => ops_sub) m ρ)

end Cert.ReferenceIdeal.RefRun

end
-- ==== Proof.lean ====
/-
  A three-round message-passing network on a graph of 50000 nodes and 800000 edges, computed twice: by a program of
  five pipelined TensorCore regions (the edge features, three node layers, the output projection) among stretches of
  host operations (the gathers and scatter-sums), and by a straight line of host operations. Read at exact numbers
  both end at one function of the 26 arguments, `Cert.Network.net`:

  * every dense stage takes a row `r` to `relu (ln g β (r · w + b))` (or, last, to `r · w + b`), a function of the
    one row, so a region that works through tiles of 5000 rows and the host's whole-array operations agree row by row
    (`LibNormRows`, `LibHostNormRows`, `Bodies`, `Region0 … Region4`);
  * the gathers, the entry-by-entry products with the edge features, the scatter-sums from zero and the pooling are
    the same host operations in both programs, applied to equal operands (`Network`);
  * the kernel's result buffer is read back through its regions and stretches (`KernelRun`, `KernelValue`), the
    reference's through its operations in ten segments (`RefOps`, `RefRun`).

  No law of arithmetic beyond reading each operation at an index is used, so the finiteness of the inputs is never
  opened. The idealization rewrote no operation: the fourth claim is `True`.
-/
import proofs.«170720_j9457517986237_1_alg».proof.Defs
import proofs.«170720_j9457517986237_1_alg».proof.Proof.Gen.Kernel
import proofs.«170720_j9457517986237_1_alg».proof.Proof.Gen.Kernel.Skeleton
import proofs.«170720_j9457517986237_1_alg».proof.Proof.Gen.Kernel.Launch
import proofs.«170720_j9457517986237_1_alg».proof.Proof.Gen.Kernel.Points
import proofs.«170720_j9457517986237_1_alg».proof.Proof.Gen.Kernel.Frame
import proofs.«170720_j9457517986237_1_alg».proof.Proof.Gen.KernelIdeal
import proofs.«170720_j9457517986237_1_alg».proof.Proof.Gen.KernelIdeal.Skeleton
import proofs.«170720_j9457517986237_1_alg».proof.Proof.Gen.KernelIdeal.Launch
import proofs.«170720_j9457517986237_1_alg».proof.Proof.Gen.KernelIdeal.Points
import proofs.«170720_j9457517986237_1_alg».proof.Proof.Gen.KernelIdeal.Frame
import proofs.«170720_j9457517986237_1_alg».proof.Proof.Gen.ReferenceIdeal
import proofs.«170720_j9457517986237_1_alg».proof.Proof.Gen.Pre_finite_inputs
import proofs.«170720_j9457517986237_1_alg».proof.Proof.KernelRun
import proofs.«170720_j9457517986237_1_alg».proof.Proof.KernelValue
import proofs.«170720_j9457517986237_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The kernel as printed terminates, faults nowhere and leaves its arguments as launched. -/
theorem frame_k : Cert.frame_Kernel := fun m ρ _ => Cert.Kernel.Gen.frame m ρ

/-- So does its reading at exact numbers. -/
theorem frame_ki : Cert.frame_KernelIdeal := fun m ρ _ => Cert.KernelIdeal.Gen.frame m ρ

/-- The reference terminates, faults nowhere and leaves its arguments as launched: its run, the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

open Cert.Network in
/-- The network of equal arguments is the same array. -/
theorem net_congr {a0 b0 : FArr Cert.ReferenceIdeal.S50000x64} {a1 b1 : IArr Cert.ReferenceIdeal.S2x800000} {a2 b2 : FArr Cert.ReferenceIdeal.S800000x16} {a3 b3 : IArr Cert.ReferenceIdeal.S50000} {a4 b4 : FArr Cert.ReferenceIdeal.S16x64} {a5 b5 : FArr Cert.ReferenceIdeal.S64} {a6 b6 : FArr Cert.ReferenceIdeal.S64} {a7 b7 : FArr Cert.ReferenceIdeal.S64} {a8 b8 : FArr Cert.ReferenceIdeal.S64x64} {a9 b9 : FArr Cert.ReferenceIdeal.S64} {a10 b10 : FArr Cert.ReferenceIdeal.S64} {a11 b11 : FArr Cert.ReferenceIdeal.S64} {a12 b12 : FArr Cert.ReferenceIdeal.S64x64} {a13 b13 : FArr Cert.ReferenceIdeal.S64} {a14 b14 : FArr Cert.ReferenceIdeal.S64} {a15 b15 : FArr Cert.ReferenceIdeal.S64} {a16 b16 : FArr Cert.ReferenceIdeal.S64x64} {a17 b17 : FArr Cert.ReferenceIdeal.S64} {a18 b18 : FArr Cert.ReferenceIdeal.S64} {a19 b19 : FArr Cert.ReferenceIdeal.S64} {a20 b20 : FArr Cert.ReferenceIdeal.S64x64} {a21 b21 : FArr Cert.ReferenceIdeal.S64} {a22 b22 : FArr Cert.ReferenceIdeal.S64} {a23 b23 : FArr Cert.ReferenceIdeal.S64} {a24 b24 : FArr Cert.ReferenceIdeal.S64x64} {a25 b25 : FArr Cert.ReferenceIdeal.S64}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) :
    net a0 a1 a2 a3 a4 a5 a6 a7 a8 a9 a10 a11 a12 a13 a14 a15 a16 a17 a18 a19 a20 a21 a22 a23 a24 a25 = net b0 b1 b2 b3 b4 b5 b6 b7 b8 b9 b10 b11 b12 b13 b14 b15 b16 b17 b18 b19 b20 b21 b22 b23 b24 b25 := by
  subst h0 h1 h2 h3 h4 h5 h6 h7 h8 h9 h10 h11 h12 h13 h14 h15 h16 h17 h18 h19 h20 h21 h22 h23 h24 h25
  rfl

set_option maxHeartbeats 2000000 in
/-- From memories agreeing on the arguments both programs end with the network of those arguments in their result
    buffers. -/
theorem algebraic : Cert.algebraic_KernelIdeal_ReferenceIdeal := by
  intro m ρ m' ρ' _ hagree
  refine ⟨fun c => Cert.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · exact (θ_run Cert.KernelIdeal.defs _ _).mono
      (fun _ h c => ⟨(h c).1.trans (Cert.KernelIdeal.Net.W10_v63 m ρ c), (h c).2⟩) (Cert.KernelIdeal.Net.run_result m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11, e12, e13, e14, e15, e16, e17, e18, e19, e20, e21, e22, e23, e24, e25⟩ := hagree c
    exact net_congr e0 e1 e2 e3 e4 e5 e6 e7 e8 e9 e10 e11 e12 e13 e14 e15 e16 e17 e18 e19 e20 e21 e22 e23 e24 e25

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
